-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg8 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S2x1600000 32) (main_arg3 : IVec S2x1600000 32) (main_arg4 : IVec S2x1600000 32) (main_arg5 : FVec F S128x128 .f32) (main_arg6 : FVec F S128x128 .f32) (main_arg7 : FVec F S128x128 .f32) (main_arg8 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg5
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128x512 : Shape := ⟨2, ![128, 512]⟩
abbrev S100000x512 : Shape := ⟨2, ![100000, 512]⟩
abbrev S2000x128 : Shape := ⟨2, ![2000, 128]⟩
abbrev S2000x512 : Shape := ⟨2, ![2000, 512]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩

abbrev nBuf : Space → Nat
  | .hbm => 142
  | .vmem => 5
  | .smem => 0
  | _ => 0

abbrev hbmTy0_0 (i : Nat) : BufTy := match i % 128 with
  | 0 => ⟨S100000x128, .f32⟩
  | 1 => ⟨S2x1600000, .i32⟩
  | 2 => ⟨S2x1600000, .i32⟩
  | 3 => ⟨S2x1600000, .i32⟩
  | 4 => ⟨S2x1600000, .i32⟩
  | 5 => ⟨S128x128, .f32⟩
  | 6 => ⟨S128x128, .f32⟩
  | 7 => ⟨S128x128, .f32⟩
  | 8 => ⟨S128x128, .f32⟩
  | 9 => ⟨S128x512, .f32⟩
  | 10 => ⟨S100000x512, .f32⟩
  | 11 => ⟨S100000x128, .f32⟩
  | 12 => ⟨S100000x128, .f32⟩
  | 13 => ⟨S100000x128, .f32⟩
  | 14 => ⟨S100000x128, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1, .i32⟩
  | 28 => ⟨S_, .i32⟩
  | 29 => ⟨S1600000x1, .i32⟩
  | 30 => ⟨S1600000x1, .i1⟩
  | 31 => ⟨S1x1, .i32⟩
  | 32 => ⟨S1600000x1, .i32⟩
  | 33 => ⟨S1600000x1, .i1⟩
  | 34 => ⟨S1600000x1, .i1⟩
  | 35 => ⟨S_, .i1⟩
  | 36 => ⟨S1600000, .i1⟩
  | 37 => ⟨S1600000x128, .f32⟩
  | 38 => ⟨S1600000x128, .i1⟩
  | 39 => ⟨S_, .f32⟩
  | 40 => ⟨S1600000x128, .f32⟩
  | 41 => ⟨S1600000x128, .f32⟩
  | 42 => ⟨S_, .f32⟩
  | 43 => ⟨S100000x128, .f32⟩
  | 44 => ⟨S1600000x1, .i32⟩
  | 45 => ⟨S100000x128, .f32⟩
  | 46 => ⟨S1x1600000, .i32⟩
  | 47 => ⟨S1600000, .i32⟩
  | 48 => ⟨S1x1600000, .i32⟩
  | 49 => ⟨S1600000, .i32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1, .i32⟩
  | 59 => ⟨S_, .i32⟩
  | 60 => ⟨S1600000x1, .i32⟩
  | 61 => ⟨S1600000x1, .i1⟩
  | 62 => ⟨S1x1, .i32⟩
  | 63 => ⟨S1600000x1, .i32⟩
  | 64 => ⟨S1600000x1, .i1⟩
  | 65 => ⟨S1600000x1, .i1⟩
  | 66 => ⟨S_, .i1⟩
  | 67 => ⟨S1600000, .i1⟩
  | 68 => ⟨S1600000x128, .f32⟩
  | 69 => ⟨S1600000x128, .i1⟩
  | 70 => ⟨S_, .f32⟩
  | 71 => ⟨S1600000x128, .f32⟩
  | 72 => ⟨S1600000x128, .f32⟩
  | 73 => ⟨S_, .f32⟩
  | 74 => ⟨S100000x128, .f32⟩
  | 75 => ⟨S1600000x1, .i32⟩
  | 76 => ⟨S100000x128, .f32⟩
  | 77 => ⟨S100000x128, .f32⟩
  | 78 => ⟨S1x1600000, .i32⟩
  | 79 => ⟨S1600000, .i32⟩
  | 80 => ⟨S1x1600000, .i32⟩
  | 81 => ⟨S1600000, .i32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1, .i32⟩
  | 91 => ⟨S_, .i32⟩
  | 92 => ⟨S1600000x1, .i32⟩
  | 93 => ⟨S1600000x1, .i1⟩
  | 94 => ⟨S1x1, .i32⟩
  | 95 => ⟨S1600000x1, .i32⟩
  | 96 => ⟨S1600000x1, .i1⟩
  | 97 => ⟨S1600000x1, .i1⟩
  | 98 => ⟨S_, .i1⟩
  | 99 => ⟨S1600000, .i1⟩
  | 100 => ⟨S1600000x128, .f32⟩
  | 101 => ⟨S1600000x128, .i1⟩
  | 102 => ⟨S_, .f32⟩
  | 103 => ⟨S1600000x128, .f32⟩
  | 104 => ⟨S1600000x128, .f32⟩
  | 105 => ⟨S_, .f32⟩
  | 106 => ⟨S100000x128, .f32⟩
  | 107 => ⟨S1600000x1, .i32⟩
  | 108 => ⟨S100000x128, .f32⟩
  | 109 => ⟨S100000x128, .f32⟩
  | 110 => ⟨S1x1600000, .i32⟩
  | 111 => ⟨S1600000, .i32⟩
  | 112 => ⟨S1x1600000, .i32⟩
  | 113 => ⟨S1600000, .i32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1, .i32⟩
  | 123 => ⟨S_, .i32⟩
  | 124 => ⟨S1600000x1, .i32⟩
  | 125 => ⟨S1600000x1, .i1⟩
  | 126 => ⟨S1x1, .i32⟩
  | 127 => ⟨S1600000x1, .i32⟩
  | _ => ⟨S100000x128, .f32⟩

abbrev hbmTy0_1 (i : Nat) : BufTy := match i % 128 with
  | 0 => ⟨S1600000x1, .i1⟩
  | 1 => ⟨S1600000x1, .i1⟩
  | 2 => ⟨S_, .i1⟩
  | 3 => ⟨S1600000, .i1⟩
  | 4 => ⟨S1600000x128, .f32⟩
  | 5 => ⟨S1600000x128, .i1⟩
  | 6 => ⟨S_, .f32⟩
  | 7 => ⟨S1600000x128, .f32⟩
  | 8 => ⟨S1600000x128, .f32⟩
  | 9 => ⟨S_, .f32⟩
  | 10 => ⟨S100000x128, .f32⟩
  | 11 => ⟨S1600000x1, .i32⟩
  | 12 => ⟨S100000x128, .f32⟩
  | 13 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S2000x512, .f32⟩
  | .local _ .vmem, ⟨4, _⟩ => ⟨S2000x512, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v18 : Ref sig .tc := ⟨.hbm, 72, rfl⟩
abbrev main_cst_0 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_call2_c : Ref sig .tc := ⟨.hbm, 82, rfl⟩
abbrev main_call2_v0 : Ref sig .tc := ⟨.hbm, 83, rfl⟩
abbrev main_call2_v1 : Ref sig .tc := ⟨.hbm, 84, rfl⟩
abbrev main_call2_c_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_c_1 : Ref sig .tc := ⟨.hbm, 90, rfl⟩
abbrev main_call2_c_2 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_c_3 : Ref sig .tc := ⟨.hbm, 98, rfl⟩
abbrev main_call2_v12 : Ref sig .tc := ⟨.hbm, 99, rfl⟩
abbrev main_call2_v13 : Ref sig .tc := ⟨.hbm, 100, rfl⟩
abbrev main_call2_v14 : Ref sig .tc := ⟨.hbm, 101, rfl⟩
abbrev main_call2_cst : Ref sig .tc := ⟨.hbm, 102, rfl⟩
abbrev main_call2_v15 : Ref sig .tc := ⟨.hbm, 103, rfl⟩
abbrev main_v27 : Ref sig .tc := ⟨.hbm, 104, rfl⟩
abbrev main_cst_1 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev main_v35 : Ref sig .tc := ⟨.hbm, 113, rfl⟩
abbrev main_call3_c : Ref sig .tc := ⟨.hbm, 114, rfl⟩
abbrev main_call3_v0 : Ref sig .tc := ⟨.hbm, 115, rfl⟩
abbrev main_call3_v1 : Ref sig .tc := ⟨.hbm, 116, rfl⟩
abbrev main_call3_c_0 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_c_1 : Ref sig .tc := ⟨.hbm, 122, rfl⟩
abbrev main_call3_c_2 : Ref sig .tc := ⟨.hbm, 123, rfl⟩
abbrev main_call3_v6 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_c_3 : Ref sig .tc := ⟨.hbm, 130, rfl⟩
abbrev main_call3_v12 : Ref sig .tc := ⟨.hbm, 131, rfl⟩
abbrev main_call3_v13 : Ref sig .tc := ⟨.hbm, 132, rfl⟩
abbrev main_call3_v14 : Ref sig .tc := ⟨.hbm, 133, rfl⟩
abbrev main_call3_cst : Ref sig .tc := ⟨.hbm, 134, rfl⟩
abbrev main_call3_v15 : Ref sig .tc := ⟨.hbm, 135, rfl⟩
abbrev main_v36 : Ref sig .tc := ⟨.hbm, 136, rfl⟩
abbrev main_cst_2 : Ref sig .tc := ⟨.hbm, 137, rfl⟩
abbrev main_v37 : Ref sig .tc := ⟨.hbm, 138, rfl⟩
abbrev main_v38 : Ref sig .tc := ⟨.hbm, 139, rfl⟩
abbrev main_v39 : Ref sig .tc := ⟨.hbm, 140, rfl⟩
abbrev main_v40 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S128x128_S128x128_S128x128_S128x128_S128x512_d1 : Shape.Concatenates [S128x128, S128x128, S128x128, S128x128] S128x512 1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S2000x512_S2000x512_0_0 : ∀ a, (![0, 0] : Fin 2 → Nat) a + S2000x512.size a ≤ S2000x512.size a
  h_S2000x512 : 0 < S2000x512.numel
  slices_S100000x512_S100000x128_0_0 : S100000x512.Slices ![0, 0] S100000x128
  slices_S100000x512_S100000x128_0_128 : S100000x512.Slices ![0, 128] S100000x128
  slices_S100000x512_S100000x128_0_256 : S100000x512.Slices ![0, 256] S100000x128
  slices_S100000x512_S100000x128_0_384 : S100000x512.Slices ![0, 384] S100000x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  dot_S2000x128_S128x512_S2000x512_1_0_0_1_n_n_wf : DotDims.WF S2000x128 S128x512 S2000x512 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S100000x512.size a
  hwx0_2 : ∀ i : grid0.Coords, EltTy.bits .f32 = 32 ∨ (Rect.block (s := S100000x512) S2000x512.size (cc0_transform_2 i) (hinb0_2 i)).WholeWords (EltTy.packing .f32)

variable [Facts₀]

def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x1600000, .i32⟩
  | 2 => ⟨S2x1600000, .i32⟩
  | 3 => ⟨S2x1600000, .i32⟩
  | 4 => ⟨S2x1600000, .i32⟩
  | 5 => ⟨S128x128, .f32⟩
  | 6 => ⟨S128x128, .f32⟩
  | 7 => ⟨S128x128, .f32⟩
  | 8 => ⟨S128x128, .f32⟩
  | 9 => ⟨S100000x128, .f32⟩
  | 10 => ⟨S1x1600000, .i32⟩
  | 11 => ⟨S1600000, .i32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1, .i32⟩
  | 21 => ⟨S_, .i32⟩
  | 22 => ⟨S1600000x1, .i32⟩
  | 23 => ⟨S1600000x1, .i1⟩
  | 24 => ⟨S1x1, .i32⟩
  | 25 => ⟨S1600000x1, .i32⟩
  | 26 => ⟨S1600000x1, .i1⟩
  | 27 => ⟨S1600000x1, .i1⟩
  | 28 => ⟨S_, .i1⟩
  | 29 => ⟨S1600000, .i1⟩
  | 30 => ⟨S1600000x128, .f32⟩
  | 31 => ⟨S1600000x128, .i1⟩
  | 32 => ⟨S_, .f32⟩
  | 33 => ⟨S1600000x128, .f32⟩
  | 34 => ⟨S1600000x128, .f32⟩
  | 35 => ⟨S1x1600000, .i32⟩
  | 36 => ⟨S1600000, .i32⟩
  | 37 => ⟨S_, .f32⟩
  | 38 => ⟨S100000x128, .f32⟩
  | 39 => ⟨S1600000x1, .i32⟩
  | 40 => ⟨S100000x128, .f32⟩
  | 41 => ⟨S100000x128, .f32⟩
  | 42 => ⟨S1x1600000, .i32⟩
  | 43 => ⟨S1600000, .i32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1, .i32⟩
  | 53 => ⟨S_, .i32⟩
  | 54 => ⟨S1600000x1, .i32⟩
  | 55 => ⟨S1600000x1, .i1⟩
  | 56 => ⟨S1x1, .i32⟩
  | 57 => ⟨S1600000x1, .i32⟩
  | 58 => ⟨S1600000x1, .i1⟩
  | 59 => ⟨S1600000x1, .i1⟩
  | 60 => ⟨S_, .i1⟩
  | 61 => ⟨S1600000, .i1⟩
  | 62 => ⟨S1600000x128, .f32⟩
  | 63 => ⟨S1600000x128, .i1⟩
  | 64 => ⟨S_, .f32⟩
  | 65 => ⟨S1600000x128, .f32⟩
  | 66 => ⟨S1600000x128, .f32⟩
  | 67 => ⟨S1x1600000, .i32⟩
  | 68 => ⟨S1600000, .i32⟩
  | 69 => ⟨S_, .f32⟩
  | 70 => ⟨S100000x128, .f32⟩
  | 71 => ⟨S1600000x1, .i32⟩
  | 72 => ⟨S100000x128, .f32⟩
  | 73 => ⟨S100000x128, .f32⟩
  | 74 => ⟨S100000x128, .f32⟩
  | 75 => ⟨S1x1600000, .i32⟩
  | 76 => ⟨S1600000, .i32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1, .i32⟩
  | 86 => ⟨S_, .i32⟩
  | 87 => ⟨S1600000x1, .i32⟩
  | 88 => ⟨S1600000x1, .i1⟩
  | 89 => ⟨S1x1, .i32⟩
  | 90 => ⟨S1600000x1, .i32⟩
  | 91 => ⟨S1600000x1, .i1⟩
  | 92 => ⟨S1600000x1, .i1⟩
  | 93 => ⟨S_, .i1⟩
  | 94 => ⟨S1600000, .i1⟩
  | 95 => ⟨S1600000x128, .f32⟩
  | 96 => ⟨S1600000x128, .i1⟩
  | 97 => ⟨S_, .f32⟩
  | 98 => ⟨S1600000x128, .f32⟩
  | 99 => ⟨S1600000x128, .f32⟩
  | 100 => ⟨S1x1600000, .i32⟩
  | 101 => ⟨S1600000, .i32⟩
  | 102 => ⟨S_, .f32⟩
  | 103 => ⟨S100000x128, .f32⟩
  | 104 => ⟨S1600000x1, .i32⟩
  | 105 => ⟨S100000x128, .f32⟩
  | 106 => ⟨S100000x128, .f32⟩
  | 107 => ⟨S100000x128, .f32⟩
  | 108 => ⟨S1x1600000, .i32⟩
  | 109 => ⟨S1600000, .i32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1, .i32⟩
  | 119 => ⟨S_, .i32⟩
  | 120 => ⟨S1600000x1, .i32⟩
  | 121 => ⟨S1600000x1, .i1⟩
  | 122 => ⟨S1x1, .i32⟩
  | 123 => ⟨S1600000x1, .i32⟩
  | 124 => ⟨S1600000x1, .i1⟩
  | 125 => ⟨S1600000x1, .i1⟩
  | 126 => ⟨S_, .i1⟩
  | 127 => ⟨S1600000, .i1⟩
  | _ => ⟨S100000x128, .f32⟩

abbrev hbmTy0_1 (i : Nat) : BufTy := match i % 128 with
  | 0 => ⟨S1600000x128, .f32⟩
  | 1 => ⟨S1600000x128, .i1⟩
  | 2 => ⟨S_, .f32⟩
  | 3 => ⟨S1600000x128, .f32⟩
  | 4 => ⟨S1600000x128, .f32⟩
  | 5 => ⟨S1x1600000, .i32⟩
  | 6 => ⟨S1600000, .i32⟩
  | 7 => ⟨S_, .f32⟩
  | 8 => ⟨S100000x128, .f32⟩
  | 9 => ⟨S1600000x1, .i32⟩
  | 10 => ⟨S100000x128, .f32⟩
  | 11 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_cst : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_cst_0 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_v14 : Ref sig .tc := ⟨.hbm, 96, rfl⟩
abbrev main_call2_cst : Ref sig .tc := ⟨.hbm, 97, rfl⟩
abbrev main_call2_v15 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev main_cst_1 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩
abbrev main_call3_c : Ref sig .tc := ⟨.hbm, 110, rfl⟩
abbrev main_call3_v0 : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_c_1 : Ref sig .tc := ⟨.hbm, 118, rfl⟩
abbrev main_call3_c_2 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_c_3 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_call3_cst : Ref sig .tc := ⟨.hbm, 130, rfl⟩
abbrev main_call3_v15 : Ref sig .tc := ⟨.hbm, 131, rfl⟩
abbrev main_v32 : Ref sig .tc := ⟨.hbm, 132, rfl⟩
abbrev main_v33 : Ref sig .tc := ⟨.hbm, 133, rfl⟩
abbrev main_v34 : Ref sig .tc := ⟨.hbm, 134, rfl⟩
abbrev main_cst_2 : Ref sig .tc := ⟨.hbm, 135, rfl⟩
abbrev main_v35 : Ref sig .tc := ⟨.hbm, 136, rfl⟩
abbrev main_v36 : Ref sig .tc := ⟨.hbm, 137, rfl⟩
abbrev main_v37 : Ref sig .tc := ⟨.hbm, 138, rfl⟩
abbrev main_v38 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  slices_S2x1600000_S1x1600000_1_0 : S2x1600000.Slices ![1, 0] S1x1600000
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.BTailOps.lean ====
/-
  The host operations that follow the kernel launch, as the list of the nine stretches the program is cut
  into: the four column slices of the projected features and the first edge set's rows, then, per edge set,
  the row take, the scatter-add (and the running sum), and the next edge set's rows.
-/
import proofs.«106145_j59605556134259_1_alg».proof.Proof.Gen.Kernel.Launch

noncomputable section

namespace Cert.Kernel.Hand

open Cert.Kernel Cert.Kernel.Gen Idealize.ShloMosaic Idealize.SL.Sem

variable {F : FTy → Type} [FloatOps F]

/-- The stretches of host operations after the launch, in program order. -/
abbrev tailOps : List (List (HloOp τ sig (Elt F))) :=
  [hostOps1, hostOps1_1, hostOps1_2, hostOps1_3, hostOps1_4, hostOps1_5, hostOps1_6, hostOps1_7, hostOps1_8]

end Cert.Kernel.Hand

end
-- ==== Proof.BFrame.lean ====
/-
  The frame of the projection kernel's program, by hand: @main is one host operation (the four weight
  matrices laid side by side), the launch of the matmul kernel over 50 blocks of 2000 rows, and the
  aggregation operations after it. At every grid point the kernel's body finds block `t` of the features and
  the whole weight array in its input buffers and leaves their product in its output buffer; the pipeline
  writes that block back, so after the launch the projected features hold, block by block, the body's value
  of the corresponding rows. The operations after the launch read that array and write only their own results.
-/
import proofs.«106145_j59605556134259_1_alg».proof.Proof.Gen.Kernel.Launch
import proofs.«106145_j59605556134259_1_alg».proof.Proof.Gen.Kernel.Skeleton
import proofs.«106145_j59605556134259_1_alg».proof.Proof.Gen.Kernel.Points
import proofs.«106145_j59605556134259_1_alg».proof.Proof.BTailOps
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- What core `c`'s buffers hold when the kernel is launched: the launch memory after the one host operation
    before it (the concatenation of the weights). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the concatenation, the launch, then the nine stretches of aggregation operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The concatenation writes only its own result: an argument array is found by the kernel as launched. -/
theorem V_arg (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.nary_writes, Finset.mem_singleton]
    exact StableHlo.devRef_ne_of_ne hb))

/-! ## The windows' blocks -/

/-- Window `w`'s block at grid point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The features' buffer holds block `t` of the features at point `t`. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weights' buffer holds the whole weight array at every point: it is fetched once and its block never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

abbrev r0_0 : Rect S2000x128 := Rect.unit (s := S2000x128) ![0, 0] S2000x128.size inb_S2000x128_S2000x128_0_0
abbrev r0_1 : Rect S128x512 := Rect.unit (s := S128x512) ![0, 0] S128x512.size inb_S128x512_S128x512_0_0
abbrev r0_2 : Rect S2000x512 := Rect.unit (s := S2000x512) ![0, 0] S2000x512.size inb_S2000x512_S2000x512_0_0

/-- The output buffer after the body: its one whole-buffer store of the product of the two loaded blocks. -/
def out0_2 (x0 : Vec F S2000x128 .f32) (x1 : Vec F S128x512 .f32) : Vec F S2000x512 .f32 :=
  View.canon [⟨r0_2, k0_pay1 (View.ld x0 r0_0) (View.ld x1 r0_1)⟩]

/-- The one store covers the buffer. -/
theorem cover0_2 (p0 : Vec F S2000x512 .f32) (y : S2000x512.Idx) :
    ∃ pc ∈ ([⟨r0_2, p0⟩] : List (View.Piece (Elt F) S2000x512 .f32)), y ∈ pc.1.set :=
  View.cover_of_tiled [⟨r0_2, p0⟩] S2000x512.size (by rfl) y

/-! ## The body's triple -/

set_option maxHeartbeats 1000000 in
/-- The body, on whole buffers holding `x0`, `x1` and anything, returns holding `x0`, `x1` and the product. -/
theorem sound_kernel (c : Dev nD) (E : Set ℕ) (i : grid0.Coords)
    (arg1 : Memref sig .tc .vmem S2000x128 .f32) (harg1 : arg1.IsWhole) (arg2 : Memref sig .tc .vmem S128x512 .f32) (harg2 : arg2.IsWhole)
    (arg3 : Memref sig .tc .vmem S2000x512 .f32) (harg3 : arg3.IsWhole)
    (x0 : Vec F S2000x128 .f32) (x1 : Vec F S128x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- On core `c`: the arrays as the kernel finds them; after the body at point `t` each input buffer at its
    block and the output buffer at the product of the two blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: its input buffers hold their blocks, so the triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BTailSide.lean ====
/-
  The side conditions on the host operations after the kernel launch: each operation touches only the pipeline's
  arrays and the buffers that bypass the region, allocates nothing, and writes exactly one reference, which is
  neither an array of the pipeline nor an argument of the program. So the arrays and the arguments hold after
  the nine stretches what they held before them.
-/
import proofs.«106145_j59605556134259_1_alg».proof.Proof.BTailOps
import Idealize.ShloMosaic.Lib.Pipeline.FrameSuffix

noncomputable section

namespace Cert.Kernel.Hand

open Cert.Kernel Cert.Kernel.Gen Idealize.ShloMosaic Idealize.ShloMosaic.TcCoe Idealize.SL.Sem

variable {F : FTy → Type} [FloatOps F]

/-- A property of every operation of every stretch, from the property stretch by stretch. -/
theorem forall_tailOps {P : HloOp τ sig (Elt F) → Prop}
    (h : (tailOps (F := F)).Forall fun ops => ops.Forall P) :
    ∀ ops ∈ (tailOps : List (List (HloOp τ sig (Elt F)))), ∀ op ∈ ops, P op :=
  fun ops hops op hop => List.forall_iff_forall_mem.mp (List.forall_iff_forall_mem.mp h ops hops) op hop

/-! ## The buffers touched -/

/-- A stretch whose operations touch TensorCore references only touches unscoped ones only. -/
theorem forall_sub_ucRefs {ops : List (HloOp τ sig (Elt F))}
    (h : ops.Forall fun op => op.bufs ⊆ StableHlo.tcRefs τ sig) :
    ops.Forall fun op => op.bufs ⊆ Pipeline.ucRefs τ sig :=
  List.forall_iff_forall_mem.mpr fun op hop => Pipeline.sub_ucRefs op (List.forall_iff_forall_mem.mp h op hop)

/-- The operations after the launch touch the pipeline's arrays and the bypassing buffers only: each touches unscoped
    TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact forall_tailOps ⟨forall_sub_ucRefs hostOps1_sub, forall_sub_ucRefs hostOps1_1_sub, forall_sub_ucRefs hostOps1_2_sub,
    forall_sub_ucRefs hostOps1_3_sub, forall_sub_ucRefs hostOps1_4_sub, forall_sub_ucRefs hostOps1_5_sub,
    forall_sub_ucRefs hostOps1_6_sub, forall_sub_ucRefs hostOps1_7_sub, forall_sub_ucRefs hostOps1_8_sub⟩

/-! ## Nothing is allocated -/

theorem hostOps1_fresh : (hostOps1 : List (HloOp τ sig (Elt F))).Forall fun op => op.fresh = ∅ :=
  ⟨rfl, rfl, rfl, rfl, rfl, rfl, rfl, rfl⟩
theorem hostOps1_1_fresh : (hostOps1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem hostOps1_2_fresh : (hostOps1_2 : List (HloOp τ sig (Elt F))).Forall fun op => op.fresh = ∅ :=
  ⟨rfl, rfl, rfl, rfl, rfl, rfl, rfl, rfl⟩
theorem hostOps1_3_fresh : (hostOps1_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem hostOps1_4_fresh : (hostOps1_4 : List (HloOp τ sig (Elt F))).Forall fun op => op.fresh = ∅ :=
  ⟨rfl, rfl, rfl, rfl, rfl, rfl, rfl, rfl, rfl⟩
theorem hostOps1_5_fresh : (hostOps1_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem hostOps1_6_fresh : (hostOps1_6 : List (HloOp τ sig (Elt F))).Forall fun op => op.fresh = ∅ :=
  ⟨rfl, rfl, rfl, rfl, rfl, rfl, rfl, rfl, rfl⟩
theorem hostOps1_7_fresh : (hostOps1_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem hostOps1_8_fresh : (hostOps1_8 : List (HloOp τ sig (Elt F))).Forall fun op => op.fresh = ∅ :=
  ⟨rfl, rfl, rfl, rfl, rfl⟩

/-- The operations after the launch allocate nothing. -/
theorem sfx_fresh : ∀ ops ∈ (tailOps : List (List (HloOp τ sig (Elt F)))), ∀ op ∈ ops, op.fresh = ∅ :=
  forall_tailOps ⟨hostOps1_fresh, hostOps1_1_fresh, hostOps1_2_fresh, hostOps1_3_fresh, hostOps1_4_fresh, hostOps1_5_fresh,
    hostOps1_6_fresh, hostOps1_7_fresh, hostOps1_8_fresh⟩

/-! ## What is written -/

/-- The references the operations after the launch write, one each, in program order. -/
def tailWrites : List (Ref sig .tc) :=
  [ main_v2, main_v3, main_v4, main_v5, main_v6, main_v7, main_v8, main_v9,
    main_call0_c, main_call0_v0, main_call0_v1, main_call0_c_0, main_call0_v2, main_call0_v3, main_call0_v4,
    main_call0_v5, main_call0_c_1, main_call0_c_2, main_call0_v6, main_call0_v7, main_call0_v8, main_call0_v9, main_call0_v10,
    main_call0_v11, main_call0_c_3, main_call0_v12, main_call0_v13, main_call0_v14, main_call0_cst, main_call0_v15, main_v10,
    main_cst, main_v11, main_v12, main_v13, main_v14, main_v15, main_v16, main_v17,
    main_call1_c, main_call1_v0, main_call1_v1, main_call1_c_0, main_call1_v2, main_call1_v3, main_call1_v4,
    main_call1_v5, main_call1_c_1, main_call1_c_2, main_call1_v6, main_call1_v7, main_call1_v8, main_call1_v9, main_call1_v10,
    main_call1_v11, main_call1_c_3, main_call1_v12, main_call1_v13, main_call1_v14, main_call1_cst, main_call1_v15, main_v18,
    main_cst_0, main_v19, main_v20, main_v21, main_v22, main_v23, main_v24, main_v25, main_v26,
    main_call2_c, main_call2_v0, main_call2_v1, main_call2_c_0, main_call2_v2, main_call2_v3, main_call2_v4,
    main_call2_v5, main_call2_c_1, main_call2_c_2, main_call2_v6, main_call2_v7, main_call2_v8, main_call2_v9, main_call2_v10,
    main_call2_v11, main_call2_c_3, main_call2_v12, main_call2_v13, main_call2_v14, main_call2_cst, main_call2_v15, main_v27,
    main_cst_1, main_v28, main_v29, main_v30, main_v31, main_v32, main_v33, main_v34, main_v35,
    main_call3_c, main_call3_v0, main_call3_v1, main_call3_c_0, main_call3_v2, main_call3_v3, main_call3_v4,
    main_call3_v5, main_call3_c_1, main_call3_c_2, main_call3_v6, main_call3_v7, main_call3_v8, main_call3_v9, main_call3_v10,
    main_call3_v11, main_call3_c_3, main_call3_v12, main_call3_v13, main_call3_v14, main_call3_cst, main_call3_v15, main_v36,
    main_cst_2, main_v37, main_v38, main_v39, main_v40 ]

/-- An operation whose one written reference is in the list writes references of the list only. -/
theorem writes_sub {op : HloOp τ sig (Elt F)} {y : Ref sig .tc} (hw : op.writes = {Proc.devRef .tc y}) (hy : y ∈ tailWrites) :
    op.writes ⊆ (tailWrites.map (Proc.devRef (τ := τ) .tc)).toFinset := by
  rw [hw, Finset.singleton_subset_iff, List.mem_toFinset]
  exact List.mem_map_of_mem hy

theorem hostOps1_writes : (hostOps1 : List (HloOp τ sig (Elt F))).Forall fun op =>
    op.writes ⊆ (tailWrites.map (Proc.devRef (τ := τ) .tc)).toFinset :=
  ⟨writes_sub (y := main_v2) rfl (by decide),
    writes_sub (y := main_v3) rfl (by decide),
    writes_sub (y := main_v4) rfl (by decide),
    writes_sub (y := main_v5) rfl (by decide),
    writes_sub (y := main_v6) rfl (by decide),
    writes_sub (y := main_v7) rfl (by decide),
    writes_sub (y := main_v8) rfl (by decide),
    writes_sub (y := main_v9) rfl (by decide)⟩
theorem hostOps1_1_writes : (hostOps1_1 : List (HloOp τ sig (Elt F))).Forall fun op =>
    op.writes ⊆ (tailWrites.map (Proc.devRef (τ := τ) .tc)).toFinset :=
  ⟨writes_sub (y := main_call0_c) rfl (by decide),
    writes_sub (y := main_call0_v0) rfl (by decide),
    writes_sub (y := main_call0_v1) rfl (by decide),
    writes_sub (y := main_call0_c_0) rfl (by decide),
    writes_sub (y := main_call0_v2) rfl (by decide),
    writes_sub (y := main_call0_v3) rfl (by decide),
    writes_sub (y := main_call0_v4) rfl (by decide),
    writes_sub (y := main_call0_v5) rfl (by decide),
    writes_sub (y := main_call0_c_1) rfl (by decide),
    writes_sub (y := main_call0_c_2) rfl (by decide),
    writes_sub (y := main_call0_v6) rfl (by decide),
    writes_sub (y := main_call0_v7) rfl (by decide),
    writes_sub (y := main_call0_v8) rfl (by decide),
    writes_sub (y := main_call0_v9) rfl (by decide),
    writes_sub (y := main_call0_v10) rfl (by decide),
    writes_sub (y := main_call0_v11) rfl (by decide),
    writes_sub (y := main_call0_c_3) rfl (by decide),
    writes_sub (y := main_call0_v12) rfl (by decide),
    writes_sub (y := main_call0_v13) rfl (by decide),
    writes_sub (y := main_call0_v14) rfl (by decide),
    writes_sub (y := main_call0_cst) rfl (by decide),
    writes_sub (y := main_call0_v15) rfl (by decide),
    writes_sub (y := main_v10) rfl (by decide)⟩
theorem hostOps1_2_writes : (hostOps1_2 : List (HloOp τ sig (Elt F))).Forall fun op =>
    op.writes ⊆ (tailWrites.map (Proc.devRef (τ := τ) .tc)).toFinset :=
  ⟨writes_sub (y := main_cst) rfl (by decide),
    writes_sub (y := main_v11) rfl (by decide),
    writes_sub (y := main_v12) rfl (by decide),
    writes_sub (y := main_v13) rfl (by decide),
    writes_sub (y := main_v14) rfl (by decide),
    writes_sub (y := main_v15) rfl (by decide),
    writes_sub (y := main_v16) rfl (by decide),
    writes_sub (y := main_v17) rfl (by decide)⟩
theorem hostOps1_3_writes : (hostOps1_3 : List (HloOp τ sig (Elt F))).Forall fun op =>
    op.writes ⊆ (tailWrites.map (Proc.devRef (τ := τ) .tc)).toFinset :=
  ⟨writes_sub (y := main_call1_c) rfl (by decide),
    writes_sub (y := main_call1_v0) rfl (by decide),
    writes_sub (y := main_call1_v1) rfl (by decide),
    writes_sub (y := main_call1_c_0) rfl (by decide),
    writes_sub (y := main_call1_v2) rfl (by decide),
    writes_sub (y := main_call1_v3) rfl (by decide),
    writes_sub (y := main_call1_v4) rfl (by decide),
    writes_sub (y := main_call1_v5) rfl (by decide),
    writes_sub (y := main_call1_c_1) rfl (by decide),
    writes_sub (y := main_call1_c_2) rfl (by decide),
    writes_sub (y := main_call1_v6) rfl (by decide),
    writes_sub (y := main_call1_v7) rfl (by decide),
    writes_sub (y := main_call1_v8) rfl (by decide),
    writes_sub (y := main_call1_v9) rfl (by decide),
    writes_sub (y := main_call1_v10) rfl (by decide),
    writes_sub (y := main_call1_v11) rfl (by decide),
    writes_sub (y := main_call1_c_3) rfl (by decide),
    writes_sub (y := main_call1_v12) rfl (by decide),
    writes_sub (y := main_call1_v13) rfl (by decide),
    writes_sub (y := main_call1_v14) rfl (by decide),
    writes_sub (y := main_call1_cst) rfl (by decide),
    writes_sub (y := main_call1_v15) rfl (by decide),
    writes_sub (y := main_v18) rfl (by decide)⟩
theorem hostOps1_4_writes : (hostOps1_4 : List (HloOp τ sig (Elt F))).Forall fun op =>
    op.writes ⊆ (tailWrites.map (Proc.devRef (τ := τ) .tc)).toFinset :=
  ⟨writes_sub (y := main_cst_0) rfl (by decide),
    writes_sub (y := main_v19) rfl (by decide),
    writes_sub (y := main_v20) rfl (by decide),
    writes_sub (y := main_v21) rfl (by decide),
    writes_sub (y := main_v22) rfl (by decide),
    writes_sub (y := main_v23) rfl (by decide),
    writes_sub (y := main_v24) rfl (by decide),
    writes_sub (y := main_v25) rfl (by decide),
    writes_sub (y := main_v26) rfl (by decide)⟩
theorem hostOps1_5_writes : (hostOps1_5 : List (HloOp τ sig (Elt F))).Forall fun op =>
    op.writes ⊆ (tailWrites.map (Proc.devRef (τ := τ) .tc)).toFinset :=
  ⟨writes_sub (y := main_call2_c) rfl (by decide),
    writes_sub (y := main_call2_v0) rfl (by decide),
    writes_sub (y := main_call2_v1) rfl (by decide),
    writes_sub (y := main_call2_c_0) rfl (by decide),
    writes_sub (y := main_call2_v2) rfl (by decide),
    writes_sub (y := main_call2_v3) rfl (by decide),
    writes_sub (y := main_call2_v4) rfl (by decide),
    writes_sub (y := main_call2_v5) rfl (by decide),
    writes_sub (y := main_call2_c_1) rfl (by decide),
    writes_sub (y := main_call2_c_2) rfl (by decide),
    writes_sub (y := main_call2_v6) rfl (by decide),
    writes_sub (y := main_call2_v7) rfl (by decide),
    writes_sub (y := main_call2_v8) rfl (by decide),
    writes_sub (y := main_call2_v9) rfl (by decide),
    writes_sub (y := main_call2_v10) rfl (by decide),
    writes_sub (y := main_call2_v11) rfl (by decide),
    writes_sub (y := main_call2_c_3) rfl (by decide),
    writes_sub (y := main_call2_v12) rfl (by decide),
    writes_sub (y := main_call2_v13) rfl (by decide),
    writes_sub (y := main_call2_v14) rfl (by decide),
    writes_sub (y := main_call2_cst) rfl (by decide),
    writes_sub (y := main_call2_v15) rfl (by decide),
    writes_sub (y := main_v27) rfl (by decide)⟩
theorem hostOps1_6_writes : (hostOps1_6 : List (HloOp τ sig (Elt F))).Forall fun op =>
    op.writes ⊆ (tailWrites.map (Proc.devRef (τ := τ) .tc)).toFinset :=
  ⟨writes_sub (y := main_cst_1) rfl (by decide),
    writes_sub (y := main_v28) rfl (by decide),
    writes_sub (y := main_v29) rfl (by decide),
    writes_sub (y := main_v30) rfl (by decide),
    writes_sub (y := main_v31) rfl (by decide),
    writes_sub (y := main_v32) rfl (by decide),
    writes_sub (y := main_v33) rfl (by decide),
    writes_sub (y := main_v34) rfl (by decide),
    writes_sub (y := main_v35) rfl (by decide)⟩
theorem hostOps1_7_writes : (hostOps1_7 : List (HloOp τ sig (Elt F))).Forall fun op =>
    op.writes ⊆ (tailWrites.map (Proc.devRef (τ := τ) .tc)).toFinset :=
  ⟨writes_sub (y := main_call3_c) rfl (by decide),
    writes_sub (y := main_call3_v0) rfl (by decide),
    writes_sub (y := main_call3_v1) rfl (by decide),
    writes_sub (y := main_call3_c_0) rfl (by decide),
    writes_sub (y := main_call3_v2) rfl (by decide),
    writes_sub (y := main_call3_v3) rfl (by decide),
    writes_sub (y := main_call3_v4) rfl (by decide),
    writes_sub (y := main_call3_v5) rfl (by decide),
    writes_sub (y := main_call3_c_1) rfl (by decide),
    writes_sub (y := main_call3_c_2) rfl (by decide),
    writes_sub (y := main_call3_v6) rfl (by decide),
    writes_sub (y := main_call3_v7) rfl (by decide),
    writes_sub (y := main_call3_v8) rfl (by decide),
    writes_sub (y := main_call3_v9) rfl (by decide),
    writes_sub (y := main_call3_v10) rfl (by decide),
    writes_sub (y := main_call3_v11) rfl (by decide),
    writes_sub (y := main_call3_c_3) rfl (by decide),
    writes_sub (y := main_call3_v12) rfl (by decide),
    writes_sub (y := main_call3_v13) rfl (by decide),
    writes_sub (y := main_call3_v14) rfl (by decide),
    writes_sub (y := main_call3_cst) rfl (by decide),
    writes_sub (y := main_call3_v15) rfl (by decide),
    writes_sub (y := main_v36) rfl (by decide)⟩
theorem hostOps1_8_writes : (hostOps1_8 : List (HloOp τ sig (Elt F))).Forall fun op =>
    op.writes ⊆ (tailWrites.map (Proc.devRef (τ := τ) .tc)).toFinset :=
  ⟨writes_sub (y := main_cst_2) rfl (by decide),
    writes_sub (y := main_v37) rfl (by decide),
    writes_sub (y := main_v38) rfl (by decide),
    writes_sub (y := main_v39) rfl (by decide),
    writes_sub (y := main_v40) rfl (by decide)⟩

/-- Every operation after the launch writes references of that list only. -/
theorem tail_writes : ∀ ops ∈ (tailOps : List (List (HloOp τ sig (Elt F)))), ∀ op ∈ ops,
    op.writes ⊆ (tailWrites.map (Proc.devRef (τ := τ) .tc)).toFinset :=
  forall_tailOps ⟨hostOps1_writes, hostOps1_1_writes, hostOps1_2_writes, hostOps1_3_writes, hostOps1_4_writes, hostOps1_5_writes,
    hostOps1_6_writes, hostOps1_7_writes, hostOps1_8_writes⟩

/-- So a reference outside the list is written by none of them. -/
theorem not_mem_writes {r : Ref sig .tc} (hr : r ∉ tailWrites) :
    ∀ ops ∈ (tailOps : List (List (HloOp τ sig (Elt F)))), ∀ op ∈ ops, Proc.devRef .tc r ∉ op.writes :=
  fun ops hops op hop hb => by
    obtain ⟨y, hy, he⟩ := List.mem_map.mp (List.mem_toFinset.mp (tail_writes ops hops op hop hb))
    exact hr (Proc.devRef_injective _ he ▸ hy)

/-- The operations after the launch write no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop w => not_mem_writes ((by decide : ∀ w, Pipeline.arrRef spec0 w ∉ tailWrites) w) ops hops op hop

/-- A reference outside the list holds after the nine stretches what it held before them. -/
theorem after_tail_of_not_mem (W : Valuation τ sig (Elt F)) {r : Ref sig .tc} (hr : r ∉ tailWrites) :
    StableHlo.after (tailOps (F := F)).flatten W (Proc.devRef .tc r) = W (Proc.devRef .tc r) :=
  StableHlo.after_of_forall_not_mem _ W fun op hop => by
    obtain ⟨ops, hops, hop'⟩ := List.mem_flatten.mp hop
    exact not_mem_writes hr ops hops op hop'

/-! ## The arguments are not written -/

theorem tail_arg0 (W : Valuation τ sig (Elt F)) :
    StableHlo.after (tailOps (F := F)).flatten W (Proc.devRef .tc main_arg0) = W (Proc.devRef .tc main_arg0) :=
  after_tail_of_not_mem W (by decide)
theorem tail_arg1 (W : Valuation τ sig (Elt F)) :
    StableHlo.after (tailOps (F := F)).flatten W (Proc.devRef .tc main_arg1) = W (Proc.devRef .tc main_arg1) :=
  after_tail_of_not_mem W (by decide)
theorem tail_arg2 (W : Valuation τ sig (Elt F)) :
    StableHlo.after (tailOps (F := F)).flatten W (Proc.devRef .tc main_arg2) = W (Proc.devRef .tc main_arg2) :=
  after_tail_of_not_mem W (by decide)
theorem tail_arg3 (W : Valuation τ sig (Elt F)) :
    StableHlo.after (tailOps (F := F)).flatten W (Proc.devRef .tc main_arg3) = W (Proc.devRef .tc main_arg3) :=
  after_tail_of_not_mem W (by decide)
theorem tail_arg4 (W : Valuation τ sig (Elt F)) :
    StableHlo.after (tailOps (F := F)).flatten W (Proc.devRef .tc main_arg4) = W (Proc.devRef .tc main_arg4) :=
  after_tail_of_not_mem W (by decide)
theorem tail_arg5 (W : Valuation τ sig (Elt F)) :
    StableHlo.after (tailOps (F := F)).flatten W (Proc.devRef .tc main_arg5) = W (Proc.devRef .tc main_arg5) :=
  after_tail_of_not_mem W (by decide)
theorem tail_arg6 (W : Valuation τ sig (Elt F)) :
    StableHlo.after (tailOps (F := F)).flatten W (Proc.devRef .tc main_arg6) = W (Proc.devRef .tc main_arg6) :=
  after_tail_of_not_mem W (by decide)
theorem tail_arg7 (W : Valuation τ sig (Elt F)) :
    StableHlo.after (tailOps (F := F)).flatten W (Proc.devRef .tc main_arg7) = W (Proc.devRef .tc main_arg7) :=
  after_tail_of_not_mem W (by decide)
theorem tail_arg8 (W : Valuation τ sig (Elt F)) :
    StableHlo.after (tailOps (F := F)).flatten W (Proc.devRef .tc main_arg8) = W (Proc.devRef .tc main_arg8) :=
  after_tail_of_not_mem W (by decide)

end Cert.Kernel.Hand

end
-- ==== Proof.BRun.lean ====
/-
  The run of the kernel's program: the frame run of the launch continued by the aggregation operations, and
  from it that every argument array ends as launched — the features, which the kernel stages, because an input
  array is never written back; every other argument because neither the concatenation before the launch nor
  any operation after it writes it.
-/
import proofs.«106145_j59605556134259_1_alg».proof.Proof.BFrame
import proofs.«106145_j59605556134259_1_alg».proof.Proof.BTailSide

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window BodyObligation)

variable {F : FTy → Type} [FloatOps F]

variable (m : (ℓ : Loc nD τ sig) → Buf (Elt F) ℓ) (ρ : Dev nD → PrngReg)

set_option backward.isDefEq.respectTransparency.types false in
/-- Every weakly fair execution of @main terminates; the pipeline's arrays end at what the write-backs leave,
    every other buffer at what the operations after the launch leave. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- An argument that is no array of the pipeline ends as launched. -/
theorem W_arg (c : Dev nD) (b : Ref sig .tc) (hb0 : b ≠ main_v0) (hw : ∀ w, Pipeline.arrRef spec0 w ≠ b)
    (htail : ∀ W : Valuation τ sig (Elt F), StableHlo.after (tailOps (F := F)).flatten W (Proc.devRef .tc b) = W (Proc.devRef .tc b)) :
    Pipeline.afterTail₀ cfgs (dats m) 0 (V0 m) tailOps c b = m ((c : Thread nD τ).loc b) := by
  unfold Pipeline.afterTail₀
  rw [htail, Pipeline.withArrays_of_ne _ c (V0 m c) _ b hw]
  exact V_arg m c b hb0

/-- In a final state of the frame run the nine argument arrays are as launched. -/
theorem args_post (r : PUnit × MemSt nD τ sig (Elt F))
    (h : Pipeline.FramePost cfgs (dats m) 0 (Pipeline.afterTail₀ cfgs (dats m) 0 (V0 m) tailOps) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats m 0 c).arrAt_in 0 rfl _).trans ((A_eq m c 0).trans (V_arg m c main_arg0 (by decide)))),
    ((h c).2 main_arg1 (Pipeline.mem_restRefs_of main_arg1 (by decide) (by decide))).trans (W_arg m c main_arg1 (by decide) (by decide) tail_arg1),
    ((h c).2 main_arg2 (Pipeline.mem_restRefs_of main_arg2 (by decide) (by decide))).trans (W_arg m c main_arg2 (by decide) (by decide) tail_arg2),
    ((h c).2 main_arg3 (Pipeline.mem_restRefs_of main_arg3 (by decide) (by decide))).trans (W_arg m c main_arg3 (by decide) (by decide) tail_arg3),
    ((h c).2 main_arg4 (Pipeline.mem_restRefs_of main_arg4 (by decide) (by decide))).trans (W_arg m c main_arg4 (by decide) (by decide) tail_arg4),
    ((h c).2 main_arg5 (Pipeline.mem_restRefs_of main_arg5 (by decide) (by decide))).trans (W_arg m c main_arg5 (by decide) (by decide) tail_arg5),
    ((h c).2 main_arg6 (Pipeline.mem_restRefs_of main_arg6 (by decide) (by decide))).trans (W_arg m c main_arg6 (by decide) (by decide) tail_arg6),
    ((h c).2 main_arg7 (Pipeline.mem_restRefs_of main_arg7 (by decide) (by decide))).trans (W_arg m c main_arg7 (by decide) (by decide) tail_arg7),
    ((h c).2 main_arg8 (Pipeline.mem_restRefs_of main_arg8 (by decide) (by decide))).trans (W_arg m c main_arg8 (by decide) (by decide) tail_arg8)⟩

/-- The frame: the nine argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_post m r h c) (run_main m ρ)

/-- The result buffer ends at what the operations after the launch leave in it. -/
theorem out_post (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_v40) = Pipeline.afterTail₀ cfgs (dats m) 0 (V0 m) tailOps c main_v40 :=
  (h c).2 main_v40 (Pipeline.mem_restRefs_of main_v40 (by decide) (by decide))

end Cert.Kernel.Hand

end
-- ==== Proof.KTailOps.lean ====
/-
  The host operations that follow the kernel launch, as the list of the nine stretches the program is cut
  into: the four column slices of the projected features and the first edge set's rows, then, per edge set,
  the row take, the scatter-add (and the running sum), and the next edge set's rows.
-/
import proofs.«106145_j59605556134259_1_alg».proof.Proof.Gen.KernelIdeal.Launch

noncomputable section

namespace Cert.KernelIdeal.Hand

open Cert.KernelIdeal Cert.KernelIdeal.Gen Idealize.ShloMosaic Idealize.SL.Sem

variable {F : FTy → Type} [FloatOps F]

/-- The stretches of host operations after the launch, in program order. -/
abbrev tailOps : List (List (HloOp τ sig (Elt F))) :=
  [hostOps1, hostOps1_1, hostOps1_2, hostOps1_3, hostOps1_4, hostOps1_5, hostOps1_6, hostOps1_7, hostOps1_8]

end Cert.KernelIdeal.Hand

end
-- ==== Proof.KFrame.lean ====
/-
  The frame of the projection kernel's program, by hand: @main is one host operation (the four weight
  matrices laid side by side), the launch of the matmul kernel over 50 blocks of 2000 rows, and the
  aggregation operations after it. At every grid point the kernel's body finds block `t` of the features and
  the whole weight array in its input buffers and leaves their product in its output buffer; the pipeline
  writes that block back, so after the launch the projected features hold, block by block, the body's value
  of the corresponding rows. The operations after the launch read that array and write only their own results.
-/
import proofs.«106145_j59605556134259_1_alg».proof.Proof.Gen.KernelIdeal.Launch
import proofs.«106145_j59605556134259_1_alg».proof.Proof.Gen.KernelIdeal.Skeleton
import proofs.«106145_j59605556134259_1_alg».proof.Proof.Gen.KernelIdeal.Points
import proofs.«106145_j59605556134259_1_alg».proof.Proof.KTailOps
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the launch -/

/-- What core `c`'s buffers hold when the kernel is launched: the launch memory after the one host operation
    before it (the concatenation of the weights). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the concatenation, the launch, then the nine stretches of aggregation operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The concatenation writes only its own result: an argument array is found by the kernel as launched. -/
theorem V_arg (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.nary_writes, Finset.mem_singleton]
    exact StableHlo.devRef_ne_of_ne hb))

/-! ## The windows' blocks -/

/-- Window `w`'s block at grid point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The features' buffer holds block `t` of the features at point `t`. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weights' buffer holds the whole weight array at every point: it is fetched once and its block never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

abbrev r0_0 : Rect S2000x128 := Rect.unit (s := S2000x128) ![0, 0] S2000x128.size inb_S2000x128_S2000x128_0_0
abbrev r0_1 : Rect S128x512 := Rect.unit (s := S128x512) ![0, 0] S128x512.size inb_S128x512_S128x512_0_0
abbrev r0_2 : Rect S2000x512 := Rect.unit (s := S2000x512) ![0, 0] S2000x512.size inb_S2000x512_S2000x512_0_0

/-- The output buffer after the body: its one whole-buffer store of the product of the two loaded blocks. -/
def out0_2 (x0 : Vec F S2000x128 .f32) (x1 : Vec F S128x512 .f32) : Vec F S2000x512 .f32 :=
  View.canon [⟨r0_2, k0_pay1 (View.ld x0 r0_0) (View.ld x1 r0_1)⟩]

/-- The one store covers the buffer. -/
theorem cover0_2 (p0 : Vec F S2000x512 .f32) (y : S2000x512.Idx) :
    ∃ pc ∈ ([⟨r0_2, p0⟩] : List (View.Piece (Elt F) S2000x512 .f32)), y ∈ pc.1.set :=
  View.cover_of_tiled [⟨r0_2, p0⟩] S2000x512.size (by rfl) y

/-! ## The body's triple -/

set_option maxHeartbeats 1000000 in
/-- The body, on whole buffers holding `x0`, `x1` and anything, returns holding `x0`, `x1` and the product. -/
theorem sound_kernel (c : Dev nD) (E : Set ℕ) (i : grid0.Coords)
    (arg1 : Memref sig .tc .vmem S2000x128 .f32) (harg1 : arg1.IsWhole) (arg2 : Memref sig .tc .vmem S128x512 .f32) (harg2 : arg2.IsWhole)
    (arg3 : Memref sig .tc .vmem S2000x512 .f32) (harg3 : arg3.IsWhole)
    (x0 : Vec F S2000x128 .f32) (x1 : Vec F S128x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- On core `c`: the arrays as the kernel finds them; after the body at point `t` each input buffer at its
    block and the output buffer at the product of the two blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: its input buffers hold their blocks, so the triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KTailSide.lean ====
/-
  The side conditions on the host operations after the kernel launch: each operation touches only the pipeline's
  arrays and the buffers that bypass the region, allocates nothing, and writes exactly one reference, which is
  neither an array of the pipeline nor an argument of the program. So the arrays and the arguments hold after
  the nine stretches what they held before them.
-/
import proofs.«106145_j59605556134259_1_alg».proof.Proof.KTailOps
import Idealize.ShloMosaic.Lib.Pipeline.FrameSuffix

noncomputable section

namespace Cert.KernelIdeal.Hand

open Cert.KernelIdeal Cert.KernelIdeal.Gen Idealize.ShloMosaic Idealize.ShloMosaic.TcCoe Idealize.SL.Sem

variable {F : FTy → Type} [FloatOps F]

/-- A property of every operation of every stretch, from the property stretch by stretch. -/
theorem forall_tailOps {P : HloOp τ sig (Elt F) → Prop}
    (h : (tailOps (F := F)).Forall fun ops => ops.Forall P) :
    ∀ ops ∈ (tailOps : List (List (HloOp τ sig (Elt F)))), ∀ op ∈ ops, P op :=
  fun ops hops op hop => List.forall_iff_forall_mem.mp (List.forall_iff_forall_mem.mp h ops hops) op hop

/-! ## The buffers touched -/

/-- A stretch whose operations touch TensorCore references only touches unscoped ones only. -/
theorem forall_sub_ucRefs {ops : List (HloOp τ sig (Elt F))}
    (h : ops.Forall fun op => op.bufs ⊆ StableHlo.tcRefs τ sig) :
    ops.Forall fun op => op.bufs ⊆ Pipeline.ucRefs τ sig :=
  List.forall_iff_forall_mem.mpr fun op hop => Pipeline.sub_ucRefs op (List.forall_iff_forall_mem.mp h op hop)

/-- The operations after the launch touch the pipeline's arrays and the bypassing buffers only: each touches unscoped
    TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact forall_tailOps ⟨forall_sub_ucRefs hostOps1_sub, forall_sub_ucRefs hostOps1_1_sub, forall_sub_ucRefs hostOps1_2_sub,
    forall_sub_ucRefs hostOps1_3_sub, forall_sub_ucRefs hostOps1_4_sub, forall_sub_ucRefs hostOps1_5_sub,
    forall_sub_ucRefs hostOps1_6_sub, forall_sub_ucRefs hostOps1_7_sub, forall_sub_ucRefs hostOps1_8_sub⟩

/-! ## Nothing is allocated -/

theorem hostOps1_fresh : (hostOps1 : List (HloOp τ sig (Elt F))).Forall fun op => op.fresh = ∅ :=
  ⟨rfl, rfl, rfl, rfl, rfl, rfl, rfl, rfl⟩
theorem hostOps1_1_fresh : (hostOps1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem hostOps1_2_fresh : (hostOps1_2 : List (HloOp τ sig (Elt F))).Forall fun op => op.fresh = ∅ :=
  ⟨rfl, rfl, rfl, rfl, rfl, rfl, rfl, rfl⟩
theorem hostOps1_3_fresh : (hostOps1_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem hostOps1_4_fresh : (hostOps1_4 : List (HloOp τ sig (Elt F))).Forall fun op => op.fresh = ∅ :=
  ⟨rfl, rfl, rfl, rfl, rfl, rfl, rfl, rfl, rfl⟩
theorem hostOps1_5_fresh : (hostOps1_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem hostOps1_6_fresh : (hostOps1_6 : List (HloOp τ sig (Elt F))).Forall fun op => op.fresh = ∅ :=
  ⟨rfl, rfl, rfl, rfl, rfl, rfl, rfl, rfl, rfl⟩
theorem hostOps1_7_fresh : (hostOps1_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem hostOps1_8_fresh : (hostOps1_8 : List (HloOp τ sig (Elt F))).Forall fun op => op.fresh = ∅ :=
  ⟨rfl, rfl, rfl, rfl, rfl⟩

/-- The operations after the launch allocate nothing. -/
theorem sfx_fresh : ∀ ops ∈ (tailOps : List (List (HloOp τ sig (Elt F)))), ∀ op ∈ ops, op.fresh = ∅ :=
  forall_tailOps ⟨hostOps1_fresh, hostOps1_1_fresh, hostOps1_2_fresh, hostOps1_3_fresh, hostOps1_4_fresh, hostOps1_5_fresh,
    hostOps1_6_fresh, hostOps1_7_fresh, hostOps1_8_fresh⟩

/-! ## What is written -/

/-- The references the operations after the launch write, one each, in program order. -/
def tailWrites : List (Ref sig .tc) :=
  [ main_v2, main_v3, main_v4, main_v5, main_v6, main_v7, main_v8, main_v9,
    main_call0_c, main_call0_v0, main_call0_v1, main_call0_c_0, main_call0_v2, main_call0_v3, main_call0_v4,
    main_call0_v5, main_call0_c_1, main_call0_c_2, main_call0_v6, main_call0_v7, main_call0_v8, main_call0_v9, main_call0_v10,
    main_call0_v11, main_call0_c_3, main_call0_v12, main_call0_v13, main_call0_v14, main_call0_cst, main_call0_v15, main_v10,
    main_cst, main_v11, main_v12, main_v13, main_v14, main_v15, main_v16, main_v17,
    main_call1_c, main_call1_v0, main_call1_v1, main_call1_c_0, main_call1_v2, main_call1_v3, main_call1_v4,
    main_call1_v5, main_call1_c_1, main_call1_c_2, main_call1_v6, main_call1_v7, main_call1_v8, main_call1_v9, main_call1_v10,
    main_call1_v11, main_call1_c_3, main_call1_v12, main_call1_v13, main_call1_v14, main_call1_cst, main_call1_v15, main_v18,
    main_cst_0, main_v19, main_v20, main_v21, main_v22, main_v23, main_v24, main_v25, main_v26,
    main_call2_c, main_call2_v0, main_call2_v1, main_call2_c_0, main_call2_v2, main_call2_v3, main_call2_v4,
    main_call2_v5, main_call2_c_1, main_call2_c_2, main_call2_v6, main_call2_v7, main_call2_v8, main_call2_v9, main_call2_v10,
    main_call2_v11, main_call2_c_3, main_call2_v12, main_call2_v13, main_call2_v14, main_call2_cst, main_call2_v15, main_v27,
    main_cst_1, main_v28, main_v29, main_v30, main_v31, main_v32, main_v33, main_v34, main_v35,
    main_call3_c, main_call3_v0, main_call3_v1, main_call3_c_0, main_call3_v2, main_call3_v3, main_call3_v4,
    main_call3_v5, main_call3_c_1, main_call3_c_2, main_call3_v6, main_call3_v7, main_call3_v8, main_call3_v9, main_call3_v10,
    main_call3_v11, main_call3_c_3, main_call3_v12, main_call3_v13, main_call3_v14, main_call3_cst, main_call3_v15, main_v36,
    main_cst_2, main_v37, main_v38, main_v39, main_v40 ]

/-- An operation whose one written reference is in the list writes references of the list only. -/
theorem writes_sub {op : HloOp τ sig (Elt F)} {y : Ref sig .tc} (hw : op.writes = {Proc.devRef .tc y}) (hy : y ∈ tailWrites) :
    op.writes ⊆ (tailWrites.map (Proc.devRef (τ := τ) .tc)).toFinset := by
  rw [hw, Finset.singleton_subset_iff, List.mem_toFinset]
  exact List.mem_map_of_mem hy

theorem hostOps1_writes : (hostOps1 : List (HloOp τ sig (Elt F))).Forall fun op =>
    op.writes ⊆ (tailWrites.map (Proc.devRef (τ := τ) .tc)).toFinset :=
  ⟨writes_sub (y := main_v2) rfl (by decide),
    writes_sub (y := main_v3) rfl (by decide),
    writes_sub (y := main_v4) rfl (by decide),
    writes_sub (y := main_v5) rfl (by decide),
    writes_sub (y := main_v6) rfl (by decide),
    writes_sub (y := main_v7) rfl (by decide),
    writes_sub (y := main_v8) rfl (by decide),
    writes_sub (y := main_v9) rfl (by decide)⟩
theorem hostOps1_1_writes : (hostOps1_1 : List (HloOp τ sig (Elt F))).Forall fun op =>
    op.writes ⊆ (tailWrites.map (Proc.devRef (τ := τ) .tc)).toFinset :=
  ⟨writes_sub (y := main_call0_c) rfl (by decide),
    writes_sub (y := main_call0_v0) rfl (by decide),
    writes_sub (y := main_call0_v1) rfl (by decide),
    writes_sub (y := main_call0_c_0) rfl (by decide),
    writes_sub (y := main_call0_v2) rfl (by decide),
    writes_sub (y := main_call0_v3) rfl (by decide),
    writes_sub (y := main_call0_v4) rfl (by decide),
    writes_sub (y := main_call0_v5) rfl (by decide),
    writes_sub (y := main_call0_c_1) rfl (by decide),
    writes_sub (y := main_call0_c_2) rfl (by decide),
    writes_sub (y := main_call0_v6) rfl (by decide),
    writes_sub (y := main_call0_v7) rfl (by decide),
    writes_sub (y := main_call0_v8) rfl (by decide),
    writes_sub (y := main_call0_v9) rfl (by decide),
    writes_sub (y := main_call0_v10) rfl (by decide),
    writes_sub (y := main_call0_v11) rfl (by decide),
    writes_sub (y := main_call0_c_3) rfl (by decide),
    writes_sub (y := main_call0_v12) rfl (by decide),
    writes_sub (y := main_call0_v13) rfl (by decide),
    writes_sub (y := main_call0_v14) rfl (by decide),
    writes_sub (y := main_call0_cst) rfl (by decide),
    writes_sub (y := main_call0_v15) rfl (by decide),
    writes_sub (y := main_v10) rfl (by decide)⟩
theorem hostOps1_2_writes : (hostOps1_2 : List (HloOp τ sig (Elt F))).Forall fun op =>
    op.writes ⊆ (tailWrites.map (Proc.devRef (τ := τ) .tc)).toFinset :=
  ⟨writes_sub (y := main_cst) rfl (by decide),
    writes_sub (y := main_v11) rfl (by decide),
    writes_sub (y := main_v12) rfl (by decide),
    writes_sub (y := main_v13) rfl (by decide),
    writes_sub (y := main_v14) rfl (by decide),
    writes_sub (y := main_v15) rfl (by decide),
    writes_sub (y := main_v16) rfl (by decide),
    writes_sub (y := main_v17) rfl (by decide)⟩
theorem hostOps1_3_writes : (hostOps1_3 : List (HloOp τ sig (Elt F))).Forall fun op =>
    op.writes ⊆ (tailWrites.map (Proc.devRef (τ := τ) .tc)).toFinset :=
  ⟨writes_sub (y := main_call1_c) rfl (by decide),
    writes_sub (y := main_call1_v0) rfl (by decide),
    writes_sub (y := main_call1_v1) rfl (by decide),
    writes_sub (y := main_call1_c_0) rfl (by decide),
    writes_sub (y := main_call1_v2) rfl (by decide),
    writes_sub (y := main_call1_v3) rfl (by decide),
    writes_sub (y := main_call1_v4) rfl (by decide),
    writes_sub (y := main_call1_v5) rfl (by decide),
    writes_sub (y := main_call1_c_1) rfl (by decide),
    writes_sub (y := main_call1_c_2) rfl (by decide),
    writes_sub (y := main_call1_v6) rfl (by decide),
    writes_sub (y := main_call1_v7) rfl (by decide),
    writes_sub (y := main_call1_v8) rfl (by decide),
    writes_sub (y := main_call1_v9) rfl (by decide),
    writes_sub (y := main_call1_v10) rfl (by decide),
    writes_sub (y := main_call1_v11) rfl (by decide),
    writes_sub (y := main_call1_c_3) rfl (by decide),
    writes_sub (y := main_call1_v12) rfl (by decide),
    writes_sub (y := main_call1_v13) rfl (by decide),
    writes_sub (y := main_call1_v14) rfl (by decide),
    writes_sub (y := main_call1_cst) rfl (by decide),
    writes_sub (y := main_call1_v15) rfl (by decide),
    writes_sub (y := main_v18) rfl (by decide)⟩
theorem hostOps1_4_writes : (hostOps1_4 : List (HloOp τ sig (Elt F))).Forall fun op =>
    op.writes ⊆ (tailWrites.map (Proc.devRef (τ := τ) .tc)).toFinset :=
  ⟨writes_sub (y := main_cst_0) rfl (by decide),
    writes_sub (y := main_v19) rfl (by decide),
    writes_sub (y := main_v20) rfl (by decide),
    writes_sub (y := main_v21) rfl (by decide),
    writes_sub (y := main_v22) rfl (by decide),
    writes_sub (y := main_v23) rfl (by decide),
    writes_sub (y := main_v24) rfl (by decide),
    writes_sub (y := main_v25) rfl (by decide),
    writes_sub (y := main_v26) rfl (by decide)⟩
theorem hostOps1_5_writes : (hostOps1_5 : List (HloOp τ sig (Elt F))).Forall fun op =>
    op.writes ⊆ (tailWrites.map (Proc.devRef (τ := τ) .tc)).toFinset :=
  ⟨writes_sub (y := main_call2_c) rfl (by decide),
    writes_sub (y := main_call2_v0) rfl (by decide),
    writes_sub (y := main_call2_v1) rfl (by decide),
    writes_sub (y := main_call2_c_0) rfl (by decide),
    writes_sub (y := main_call2_v2) rfl (by decide),
    writes_sub (y := main_call2_v3) rfl (by decide),
    writes_sub (y := main_call2_v4) rfl (by decide),
    writes_sub (y := main_call2_v5) rfl (by decide),
    writes_sub (y := main_call2_c_1) rfl (by decide),
    writes_sub (y := main_call2_c_2) rfl (by decide),
    writes_sub (y := main_call2_v6) rfl (by decide),
    writes_sub (y := main_call2_v7) rfl (by decide),
    writes_sub (y := main_call2_v8) rfl (by decide),
    writes_sub (y := main_call2_v9) rfl (by decide),
    writes_sub (y := main_call2_v10) rfl (by decide),
    writes_sub (y := main_call2_v11) rfl (by decide),
    writes_sub (y := main_call2_c_3) rfl (by decide),
    writes_sub (y := main_call2_v12) rfl (by decide),
    writes_sub (y := main_call2_v13) rfl (by decide),
    writes_sub (y := main_call2_v14) rfl (by decide),
    writes_sub (y := main_call2_cst) rfl (by decide),
    writes_sub (y := main_call2_v15) rfl (by decide),
    writes_sub (y := main_v27) rfl (by decide)⟩
theorem hostOps1_6_writes : (hostOps1_6 : List (HloOp τ sig (Elt F))).Forall fun op =>
    op.writes ⊆ (tailWrites.map (Proc.devRef (τ := τ) .tc)).toFinset :=
  ⟨writes_sub (y := main_cst_1) rfl (by decide),
    writes_sub (y := main_v28) rfl (by decide),
    writes_sub (y := main_v29) rfl (by decide),
    writes_sub (y := main_v30) rfl (by decide),
    writes_sub (y := main_v31) rfl (by decide),
    writes_sub (y := main_v32) rfl (by decide),
    writes_sub (y := main_v33) rfl (by decide),
    writes_sub (y := main_v34) rfl (by decide),
    writes_sub (y := main_v35) rfl (by decide)⟩
theorem hostOps1_7_writes : (hostOps1_7 : List (HloOp τ sig (Elt F))).Forall fun op =>
    op.writes ⊆ (tailWrites.map (Proc.devRef (τ := τ) .tc)).toFinset :=
  ⟨writes_sub (y := main_call3_c) rfl (by decide),
    writes_sub (y := main_call3_v0) rfl (by decide),
    writes_sub (y := main_call3_v1) rfl (by decide),
    writes_sub (y := main_call3_c_0) rfl (by decide),
    writes_sub (y := main_call3_v2) rfl (by decide),
    writes_sub (y := main_call3_v3) rfl (by decide),
    writes_sub (y := main_call3_v4) rfl (by decide),
    writes_sub (y := main_call3_v5) rfl (by decide),
    writes_sub (y := main_call3_c_1) rfl (by decide),
    writes_sub (y := main_call3_c_2) rfl (by decide),
    writes_sub (y := main_call3_v6) rfl (by decide),
    writes_sub (y := main_call3_v7) rfl (by decide),
    writes_sub (y := main_call3_v8) rfl (by decide),
    writes_sub (y := main_call3_v9) rfl (by decide),
    writes_sub (y := main_call3_v10) rfl (by decide),
    writes_sub (y := main_call3_v11) rfl (by decide),
    writes_sub (y := main_call3_c_3) rfl (by decide),
    writes_sub (y := main_call3_v12) rfl (by decide),
    writes_sub (y := main_call3_v13) rfl (by decide),
    writes_sub (y := main_call3_v14) rfl (by decide),
    writes_sub (y := main_call3_cst) rfl (by decide),
    writes_sub (y := main_call3_v15) rfl (by decide),
    writes_sub (y := main_v36) rfl (by decide)⟩
theorem hostOps1_8_writes : (hostOps1_8 : List (HloOp τ sig (Elt F))).Forall fun op =>
    op.writes ⊆ (tailWrites.map (Proc.devRef (τ := τ) .tc)).toFinset :=
  ⟨writes_sub (y := main_cst_2) rfl (by decide),
    writes_sub (y := main_v37) rfl (by decide),
    writes_sub (y := main_v38) rfl (by decide),
    writes_sub (y := main_v39) rfl (by decide),
    writes_sub (y := main_v40) rfl (by decide)⟩

/-- Every operation after the launch writes references of that list only. -/
theorem tail_writes : ∀ ops ∈ (tailOps : List (List (HloOp τ sig (Elt F)))), ∀ op ∈ ops,
    op.writes ⊆ (tailWrites.map (Proc.devRef (τ := τ) .tc)).toFinset :=
  forall_tailOps ⟨hostOps1_writes, hostOps1_1_writes, hostOps1_2_writes, hostOps1_3_writes, hostOps1_4_writes, hostOps1_5_writes,
    hostOps1_6_writes, hostOps1_7_writes, hostOps1_8_writes⟩

/-- So a reference outside the list is written by none of them. -/
theorem not_mem_writes {r : Ref sig .tc} (hr : r ∉ tailWrites) :
    ∀ ops ∈ (tailOps : List (List (HloOp τ sig (Elt F)))), ∀ op ∈ ops, Proc.devRef .tc r ∉ op.writes :=
  fun ops hops op hop hb => by
    obtain ⟨y, hy, he⟩ := List.mem_map.mp (List.mem_toFinset.mp (tail_writes ops hops op hop hb))
    exact hr (Proc.devRef_injective _ he ▸ hy)

/-- The operations after the launch write no array of the pipeline. -/
theorem sfx_keeps : ∀ ops ∈ (tailOps : List (List (HloOp τ sig (Elt F)))), ∀ op ∈ ops,
    ∀ w, Proc.devRef .tc (Pipeline.arrRef spec0 w) ∉ op.writes :=
  fun ops hops op hop w => not_mem_writes ((by decide : ∀ w, Pipeline.arrRef spec0 w ∉ tailWrites) w) ops hops op hop

/-- A reference outside the list holds after the nine stretches what it held before them. -/
theorem after_tail_of_not_mem (W : Valuation τ sig (Elt F)) {r : Ref sig .tc} (hr : r ∉ tailWrites) :
    StableHlo.after (tailOps (F := F)).flatten W (Proc.devRef .tc r) = W (Proc.devRef .tc r) :=
  StableHlo.after_of_forall_not_mem _ W fun op hop => by
    obtain ⟨ops, hops, hop'⟩ := List.mem_flatten.mp hop
    exact not_mem_writes hr ops hops op hop'

/-! ## The arguments are not written -/

theorem tail_arg0 (W : Valuation τ sig (Elt F)) :
    StableHlo.after (tailOps (F := F)).flatten W (Proc.devRef .tc main_arg0) = W (Proc.devRef .tc main_arg0) :=
  after_tail_of_not_mem W (by decide)
theorem tail_arg1 (W : Valuation τ sig (Elt F)) :
    StableHlo.after (tailOps (F := F)).flatten W (Proc.devRef .tc main_arg1) = W (Proc.devRef .tc main_arg1) :=
  after_tail_of_not_mem W (by decide)
theorem tail_arg2 (W : Valuation τ sig (Elt F)) :
    StableHlo.after (tailOps (F := F)).flatten W (Proc.devRef .tc main_arg2) = W (Proc.devRef .tc main_arg2) :=
  after_tail_of_not_mem W (by decide)
theorem tail_arg3 (W : Valuation τ sig (Elt F)) :
    StableHlo.after (tailOps (F := F)).flatten W (Proc.devRef .tc main_arg3) = W (Proc.devRef .tc main_arg3) :=
  after_tail_of_not_mem W (by decide)
theorem tail_arg4 (W : Valuation τ sig (Elt F)) :
    StableHlo.after (tailOps (F := F)).flatten W (Proc.devRef .tc main_arg4) = W (Proc.devRef .tc main_arg4) :=
  after_tail_of_not_mem W (by decide)
theorem tail_arg5 (W : Valuation τ sig (Elt F)) :
    StableHlo.after (tailOps (F := F)).flatten W (Proc.devRef .tc main_arg5) = W (Proc.devRef .tc main_arg5) :=
  after_tail_of_not_mem W (by decide)
theorem tail_arg6 (W : Valuation τ sig (Elt F)) :
    StableHlo.after (tailOps (F := F)).flatten W (Proc.devRef .tc main_arg6) = W (Proc.devRef .tc main_arg6) :=
  after_tail_of_not_mem W (by decide)
theorem tail_arg7 (W : Valuation τ sig (Elt F)) :
    StableHlo.after (tailOps (F := F)).flatten W (Proc.devRef .tc main_arg7) = W (Proc.devRef .tc main_arg7) :=
  after_tail_of_not_mem W (by decide)
theorem tail_arg8 (W : Valuation τ sig (Elt F)) :
    StableHlo.after (tailOps (F := F)).flatten W (Proc.devRef .tc main_arg8) = W (Proc.devRef .tc main_arg8) :=
  after_tail_of_not_mem W (by decide)

end Cert.KernelIdeal.Hand

end
-- ==== Proof.KRun.lean ====
/-
  The run of the kernel's program: the frame run of the launch continued by the aggregation operations, and
  from it that every argument array ends as launched — the features, which the kernel stages, because an input
  array is never written back; every other argument because neither the concatenation before the launch nor
  any operation after it writes it.
-/
import proofs.«106145_j59605556134259_1_alg».proof.Proof.KFrame
import proofs.«106145_j59605556134259_1_alg».proof.Proof.KTailSide

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window BodyObligation)

variable {F : FTy → Type} [FloatOps F]

variable (m : (ℓ : Loc nD τ sig) → Buf (Elt F) ℓ) (ρ : Dev nD → PrngReg)

set_option backward.isDefEq.respectTransparency.types false in
/-- Every weakly fair execution of @main terminates; the pipeline's arrays end at what the write-backs leave,
    every other buffer at what the operations after the launch leave. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- An argument that is no array of the pipeline ends as launched. -/
theorem W_arg (c : Dev nD) (b : Ref sig .tc) (hb0 : b ≠ main_v0) (hw : ∀ w, Pipeline.arrRef spec0 w ≠ b)
    (htail : ∀ W : Valuation τ sig (Elt F), StableHlo.after (tailOps (F := F)).flatten W (Proc.devRef .tc b) = W (Proc.devRef .tc b)) :
    Pipeline.afterTail₀ cfgs (dats m) 0 (V0 m) tailOps c b = m ((c : Thread nD τ).loc b) := by
  unfold Pipeline.afterTail₀
  rw [htail, Pipeline.withArrays_of_ne _ c (V0 m c) _ b hw]
  exact V_arg m c b hb0

/-- In a final state of the frame run the nine argument arrays are as launched. -/
theorem args_post (r : PUnit × MemSt nD τ sig (Elt F))
    (h : Pipeline.FramePost cfgs (dats m) 0 (Pipeline.afterTail₀ cfgs (dats m) 0 (V0 m) tailOps) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats m 0 c).arrAt_in 0 rfl _).trans ((A_eq m c 0).trans (V_arg m c main_arg0 (by decide)))),
    ((h c).2 main_arg1 (Pipeline.mem_restRefs_of main_arg1 (by decide) (by decide))).trans (W_arg m c main_arg1 (by decide) (by decide) tail_arg1),
    ((h c).2 main_arg2 (Pipeline.mem_restRefs_of main_arg2 (by decide) (by decide))).trans (W_arg m c main_arg2 (by decide) (by decide) tail_arg2),
    ((h c).2 main_arg3 (Pipeline.mem_restRefs_of main_arg3 (by decide) (by decide))).trans (W_arg m c main_arg3 (by decide) (by decide) tail_arg3),
    ((h c).2 main_arg4 (Pipeline.mem_restRefs_of main_arg4 (by decide) (by decide))).trans (W_arg m c main_arg4 (by decide) (by decide) tail_arg4),
    ((h c).2 main_arg5 (Pipeline.mem_restRefs_of main_arg5 (by decide) (by decide))).trans (W_arg m c main_arg5 (by decide) (by decide) tail_arg5),
    ((h c).2 main_arg6 (Pipeline.mem_restRefs_of main_arg6 (by decide) (by decide))).trans (W_arg m c main_arg6 (by decide) (by decide) tail_arg6),
    ((h c).2 main_arg7 (Pipeline.mem_restRefs_of main_arg7 (by decide) (by decide))).trans (W_arg m c main_arg7 (by decide) (by decide) tail_arg7),
    ((h c).2 main_arg8 (Pipeline.mem_restRefs_of main_arg8 (by decide) (by decide))).trans (W_arg m c main_arg8 (by decide) (by decide) tail_arg8)⟩

/-- The frame: the nine argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_post m r h c) (run_main m ρ)

/-- The result buffer ends at what the operations after the launch leave in it. -/
theorem out_post (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_v40) = Pipeline.afterTail₀ cfgs (dats m) 0 (V0 m) tailOps c main_v40 :=
  (h c).2 main_v40 (Pipeline.mem_restRefs_of main_v40 (by decide) (by decide))

end Cert.KernelIdeal.Hand

end
-- ==== Proof.ProjBridge.lean ====
/-
  The projection x · [w0 | w1 | w2 | w3] and its four column blocks, index by index over the extended reals.

  The kernel multiplies each block of 2000 rows of x (100000 × 128) by the 128 × 512 matrix made of the four
  128 × 128 weights side by side, and the four results are the slices of 128 columns of that product. The
  reference contracts x with each weight separately. Entry (r, 128·n + c) of the wide product is
  ∑ k, x (r, k) · [w0 | w1 | w2 | w3] (k, 128·n + c), and column 128·n + c of the concatenation is column c of wn, so the
  entry is ∑ k, x (r, k) · wn (k, c): the reference's entry (r, c), the same sum of the same products. Nothing is
  reordered inside a sum and no finiteness is needed.

  `proj` is the wide product as a function of the index; `pay_apply` reads the body's stored value on one block as
  the block product (the roundings to bf16 and the same-shape cast are the identity over the extended reals, the
  accumulator is zero); `slice0` … `slice3` identify the column blocks of `proj` with the reference's contractions.
-/
import proofs.«106145_j59605556134259_1_alg».proof.Proof.Gen.KernelIdeal.Skeleton
import proofs.«106145_j59605556134259_1_alg».proof.Proof.Gen.ReferenceIdeal
import Idealize.ShloMosaic.PureOps.Ideal.Laws
import Idealize.ShloMosaic.Lib.ValueIdx
import Idealize.ShloMosaic.Lib.Pipeline.Value

noncomputable section
open scoped BigOperators

namespace Cert.Bridge
open Idealize.ShloMosaic Idealize.ShloMosaic.ValueIdx

/-! ## A plain matrix product read at an index

Both a matrix-unit product into a zero accumulator and a host contraction, read at entry (a, b) over the
extended reals, are the sum over the contraction index of the operands' products. For the dimension numbers of a
plain product (the left operand contracted on its columns, the right one on its rows) the contraction index has one
axis, so the sum is a sum over the K contracted coordinates c of A (a, c) · B (c, b). -/

/-- The dimension numbers of a plain product of an M×K by a K×N matrix, over any proof of their conditions. -/
abbrev mm (M K N : Nat) (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

/-- The left operand is read at row a of the result's index and at the contracted coordinate. -/
theorem mm_lhs {M K N : Nat} (w : DotDims.WF ⟨2, ![M, K]⟩ ⟨2, ![K, N]⟩ ⟨2, ![M, N]⟩ [1] [0] [0] [1] [] [])
    (a : Fin M) (b : Fin N) (c : Fin K) :
    (mm M K N w).lhsIdx (ix2 a b) ((contrEquiv1 (mm M K N w) K rfl rfl).symm c) = ix2 a c := by
  have hc := contrEquiv1_symm_val (mm M K N w) K rfl rfl c
  funext ax; apply Fin.ext
  match ax with
  | ⟨0, _⟩ => rfl
  | ⟨1, _⟩ => exact ((mm M K N w).lhsIdx_val_of_single (cl := 1) rfl (ix2 a b) _).trans hc

/-- The right operand is read at the contracted coordinate and at column b of the result's index. -/
theorem mm_rhs {M K N : Nat} (w : DotDims.WF ⟨2, ![M, K]⟩ ⟨2, ![K, N]⟩ ⟨2, ![M, N]⟩ [1] [0] [0] [1] [] [])
    (a : Fin M) (b : Fin N) (c : Fin K) :
    (mm M K N w).rhsIdx (ix2 a b) ((contrEquiv1 (mm M K N w) K rfl rfl).symm c) = ix2 c b := by
  have hc := contrEquiv1_symm_val (mm M K N w) K rfl rfl c
  funext ax; apply Fin.ext
  match ax with
  | ⟨0, _⟩ => exact ((mm M K N w).rhsIdx_val_of_single (cr := 0) rfl (ix2 a b) _).trans hc
  | ⟨1, _⟩ => rfl

/-- The sum over the one-axis contraction index, re-indexed by its coordinate. -/
theorem mm_sum {M K N : Nat} {φ₁ φ₂ : FTy} (w : DotDims.WF ⟨2, ![M, K]⟩ ⟨2, ![K, N]⟩ ⟨2, ![M, N]⟩ [1] [0] [0] [1] [] [])
    (A : FVec Ideal ⟨2, ![M, K]⟩ φ₁) (B : FVec Ideal ⟨2, ![K, N]⟩ φ₂) (a : Fin M) (b : Fin N) :
    (∑ k : (mm M K N w).contr.Idx, A ((mm M K N w).lhsIdx (ix2 a b) k) * B ((mm M K N w).rhsIdx (ix2 a b) k))
      = ∑ c : Fin K, A (ix2 a c) * B (ix2 c b) := by
  rw [← Equiv.sum_comp (contrEquiv1 (mm M K N w) K rfl rfl).symm]
  refine Finset.sum_congr rfl fun c _ => ?_
  rw [mm_lhs, mm_rhs]

/-! ## The two sides at an index -/

/-- Entry (r, j) of x · wc over the extended reals. -/
def proj (x : FVec Ideal Cert.KernelIdeal.S100000x128 .f32) (wc : FVec Ideal Cert.KernelIdeal.S128x512 .f32) :
    FVec Ideal Cert.KernelIdeal.S100000x512 .f32 :=
  fun i => ∑ k : Fin 128, x (ix2 (i 0) k) * wc (ix2 k (i 1))

theorem proj_apply (x : FVec Ideal Cert.KernelIdeal.S100000x128 .f32) (wc : FVec Ideal Cert.KernelIdeal.S128x512 .f32)
    (r : Fin 100000) (j : Fin 512) : proj x wc (ix2 r j) = ∑ k : Fin 128, x (ix2 r k) * wc (ix2 k j) := rfl

/-- The kernel body's stored value on one block: entry (p, q) of the block product. The two roundings to bf16 and
    the same-shape cast of the weights are the identity over the extended reals, and the accumulator is zero. -/
theorem pay_apply (v0 : Vec Ideal Cert.KernelIdeal.S2000x128 .f32) (v2 : Vec Ideal Cert.KernelIdeal.S128x512 .f32)
    (p : Fin 2000) (q : Fin 512) :
    Cert.KernelIdeal.Gen.k0_pay1 (F := Ideal) v0 v2 (ix2 p q) = ∑ k : Fin 128, v0 (ix2 p k) * v2 (ix2 k q) := by
  unfold Cert.KernelIdeal.Gen.k0_pay1
  refine (Ideal.matmul_constant_zero_apply Cert.KernelIdeal.dot_S2000x128_S128x512_S2000x512_1_0_0_1_n_n none _ _
    (ix2 p q)).trans ?_
  refine (mm_sum (M := 2000) (K := 128) (N := 512)
    Cert.KernelIdeal.Facts₀.dot_S2000x128_S128x512_S2000x512_1_0_0_1_n_n_wf _ _ p q).trans ?_
  refine Finset.sum_congr rfl fun c _ => ?_
  rw [truncf_apply, truncf_apply, shapeCast_self]

/-- The reference's contraction at entry (r, c). -/
theorem dot_apply (x : FVec Ideal Cert.KernelIdeal.S100000x128 .f32) (w : FVec Ideal Cert.KernelIdeal.S128x128 .f32)
    (r : Fin 100000) (c : Fin 128) :
    Host.dotGeneral (F := Ideal) Cert.ReferenceIdeal.dot_S100000x128_S128x128_S100000x128_1_0_0_1_n_n none x w (ix2 r c)
      = ∑ k : Fin 128, x (ix2 r k) * w (ix2 k c) := by
  refine (Ideal.dotGeneral_apply Cert.ReferenceIdeal.dot_S100000x128_S128x128_S100000x128_1_0_0_1_n_n none .single x w
    (ix2 r c)).trans ?_
  exact mm_sum (M := 100000) (K := 128) (N := 128)
    Cert.ReferenceIdeal.Facts₀.dot_S100000x128_S128x128_S100000x128_1_0_0_1_n_n_wf x w r c

/-! ## The four weight matrices side by side

Column 128·n + c of [w0 | w1 | w2 | w3] is column c of wn. -/

section Cat
variable (w0 w1 w2 w3 : FVec Ideal Cert.KernelIdeal.S128x128 .f32)

/-- The four weights laid side by side along the columns. -/
abbrev wcat : FVec Ideal Cert.KernelIdeal.S128x512 .f32 :=
  concatenate Cert.KernelIdeal.S128x512 1 [⟨Cert.KernelIdeal.S128x128, w0⟩, ⟨Cert.KernelIdeal.S128x128, w1⟩,
    ⟨Cert.KernelIdeal.S128x128, w2⟩, ⟨Cert.KernelIdeal.S128x128, w3⟩]
    Cert.KernelIdeal.Facts₀.concatenates_S128x128_S128x128_S128x128_S128x128_S128x512_d1

/-- The list of the four pieces, each with its shape. -/
abbrev wlist : List ((s : Shape) × (s.Idx → Ideal .f32)) :=
  [⟨Cert.KernelIdeal.S128x128, w0⟩, ⟨Cert.KernelIdeal.S128x128, w1⟩, ⟨Cert.KernelIdeal.S128x128, w2⟩,
    ⟨Cert.KernelIdeal.S128x128, w3⟩]

/-- Off the column axis a piece's index has the row of the whole's. -/
theorem row_same (k c : Fin 128) (j : Fin 512) (b : Fin Cert.KernelIdeal.S128x128.rank)
    (hb : b.cast (rfl : Cert.KernelIdeal.S128x128.rank = Cert.KernelIdeal.S128x512.rank) ≠ 1) :
    ((ix2 k c : Cert.KernelIdeal.S128x128.Idx) b).val
      = ((ix2 k j : Cert.KernelIdeal.S128x512.Idx) (b.cast (rfl : Cert.KernelIdeal.S128x128.rank = Cert.KernelIdeal.S128x512.rank))).val :=
  match b, hb with
  | ⟨0, _⟩, _ => rfl
  | ⟨1, _⟩, h => absurd rfl h

theorem wcat_at0 (k c : Fin 128) : wcat w0 w1 w2 w3 (ix2 k (⟨0 + c.val, by omega⟩ : Fin 512)) = w0 (ix2 k c) :=
  concatenate_apply_piece (t := Cert.KernelIdeal.S128x512) 1 (wlist w0 w1 w2 w3)
    Cert.KernelIdeal.Facts₀.concatenates_S128x128_S128x128_S128x128_S128x128_S128x512_d1 (ix2 k (⟨0 + c.val, by omega⟩ : Fin 512))
    0 (by show (0 : Nat) < 4; decide) Cert.KernelIdeal.S128x128 w0 rfl rfl 0 rfl (ix2 k c) (row_same k c _) rfl

theorem wcat_at1 (k c : Fin 128) : wcat w0 w1 w2 w3 (ix2 k (⟨128 + c.val, by omega⟩ : Fin 512)) = w1 (ix2 k c) :=
  concatenate_apply_piece (t := Cert.KernelIdeal.S128x512) 1 (wlist w0 w1 w2 w3)
    Cert.KernelIdeal.Facts₀.concatenates_S128x128_S128x128_S128x128_S128x128_S128x512_d1 (ix2 k (⟨128 + c.val, by omega⟩ : Fin 512))
    1 (by show (1 : Nat) < 4; decide) Cert.KernelIdeal.S128x128 w1 rfl rfl 128 rfl (ix2 k c) (row_same k c _) rfl

theorem wcat_at2 (k c : Fin 128) : wcat w0 w1 w2 w3 (ix2 k (⟨256 + c.val, by omega⟩ : Fin 512)) = w2 (ix2 k c) :=
  concatenate_apply_piece (t := Cert.KernelIdeal.S128x512) 1 (wlist w0 w1 w2 w3)
    Cert.KernelIdeal.Facts₀.concatenates_S128x128_S128x128_S128x128_S128x128_S128x512_d1 (ix2 k (⟨256 + c.val, by omega⟩ : Fin 512))
    2 (by show (2 : Nat) < 4; decide) Cert.KernelIdeal.S128x128 w2 rfl rfl 256 rfl (ix2 k c) (row_same k c _) rfl

theorem wcat_at3 (k c : Fin 128) : wcat w0 w1 w2 w3 (ix2 k (⟨384 + c.val, by omega⟩ : Fin 512)) = w3 (ix2 k c) :=
  concatenate_apply_piece (t := Cert.KernelIdeal.S128x512) 1 (wlist w0 w1 w2 w3)
    Cert.KernelIdeal.Facts₀.concatenates_S128x128_S128x128_S128x128_S128x128_S128x512_d1 (ix2 k (⟨384 + c.val, by omega⟩ : Fin 512))
    3 (by show (3 : Nat) < 4; decide) Cert.KernelIdeal.S128x128 w3 rfl rfl 384 rfl (ix2 k c) (row_same k c _) rfl

end Cat

/-! ## The column blocks of the product

The slice of x · [w0 | w1 | w2 | w3] that keeps columns 128·n … 128·n + 127 has, at (r, c), the sum over k of
x (r, k) · [w0 | w1 | w2 | w3] (k, 128·n + c) = x (r, k) · wn (k, c): term by term the reference's contraction of x
with wn. No law of the extended reals is used beyond reading both sums at the same index. -/

/-- A slice of 128 columns from column o on, read at (r, c), is the array at (r, o + c). -/
theorem slice_at (o : Nat) (ho : o + 128 ≤ 512)
    {h : Cert.KernelIdeal.S100000x512.Slices ![0, o] Cert.KernelIdeal.S100000x128}
    (y : FVec Ideal Cert.KernelIdeal.S100000x512 .f32) (r : Fin 100000) (c : Fin 128) :
    extractStridedSlice Cert.KernelIdeal.S100000x128 ![0, o] y h (ix2 r c) = y (ix2 r (⟨o + c.val, by omega⟩ : Fin 512)) :=
  extractStridedSlice_apply (s := Cert.KernelIdeal.S100000x512) ![0, o] y h (ix2 r c) _ fun a =>
    match a with
    | ⟨0, _⟩ => (Nat.zero_add _).symm
    | ⟨1, _⟩ => rfl

theorem slice0 (x : FVec Ideal Cert.KernelIdeal.S100000x128 .f32) (w0 w1 w2 w3 : FVec Ideal Cert.KernelIdeal.S128x128 .f32) :
    extractStridedSlice Cert.KernelIdeal.S100000x128 ![0, 0]
        (proj x (concatenate Cert.KernelIdeal.S128x512 1 [⟨Cert.KernelIdeal.S128x128, w0⟩, ⟨Cert.KernelIdeal.S128x128, w1⟩, ⟨Cert.KernelIdeal.S128x128, w2⟩, ⟨Cert.KernelIdeal.S128x128, w3⟩]
          Cert.KernelIdeal.Facts₀.concatenates_S128x128_S128x128_S128x128_S128x128_S128x512_d1))
        Cert.KernelIdeal.Facts₀.slices_S100000x512_S100000x128_0_0
      = Host.dotGeneral (F := Ideal) Cert.ReferenceIdeal.dot_S100000x128_S128x128_S100000x128_1_0_0_1_n_n none x w0 := by
  funext i
  obtain ⟨r, c, rfl⟩ : ∃ (r : Fin 100000) (c : Fin 128), i = ix2 r c := ⟨i 0, i 1, eq_ix2 i⟩
  rw [slice_at 0 (by omega), proj_apply, dot_apply]
  exact Finset.sum_congr rfl fun k _ => congrArg (x (ix2 r k) * ·) (wcat_at0 w0 w1 w2 w3 k c)

theorem slice1 (x : FVec Ideal Cert.KernelIdeal.S100000x128 .f32) (w0 w1 w2 w3 : FVec Ideal Cert.KernelIdeal.S128x128 .f32) :
    extractStridedSlice Cert.KernelIdeal.S100000x128 ![0, 128]
        (proj x (concatenate Cert.KernelIdeal.S128x512 1 [⟨Cert.KernelIdeal.S128x128, w0⟩, ⟨Cert.KernelIdeal.S128x128, w1⟩, ⟨Cert.KernelIdeal.S128x128, w2⟩, ⟨Cert.KernelIdeal.S128x128, w3⟩]
          Cert.KernelIdeal.Facts₀.concatenates_S128x128_S128x128_S128x128_S128x128_S128x512_d1))
        Cert.KernelIdeal.Facts₀.slices_S100000x512_S100000x128_0_128
      = Host.dotGeneral (F := Ideal) Cert.ReferenceIdeal.dot_S100000x128_S128x128_S100000x128_1_0_0_1_n_n none x w1 := by
  funext i
  obtain ⟨r, c, rfl⟩ : ∃ (r : Fin 100000) (c : Fin 128), i = ix2 r c := ⟨i 0, i 1, eq_ix2 i⟩
  rw [slice_at 128 (by omega), proj_apply, dot_apply]
  exact Finset.sum_congr rfl fun k _ => congrArg (x (ix2 r k) * ·) (wcat_at1 w0 w1 w2 w3 k c)

theorem slice2 (x : FVec Ideal Cert.KernelIdeal.S100000x128 .f32) (w0 w1 w2 w3 : FVec Ideal Cert.KernelIdeal.S128x128 .f32) :
    extractStridedSlice Cert.KernelIdeal.S100000x128 ![0, 256]
        (proj x (concatenate Cert.KernelIdeal.S128x512 1 [⟨Cert.KernelIdeal.S128x128, w0⟩, ⟨Cert.KernelIdeal.S128x128, w1⟩, ⟨Cert.KernelIdeal.S128x128, w2⟩, ⟨Cert.KernelIdeal.S128x128, w3⟩]
          Cert.KernelIdeal.Facts₀.concatenates_S128x128_S128x128_S128x128_S128x128_S128x512_d1))
        Cert.KernelIdeal.Facts₀.slices_S100000x512_S100000x128_0_256
      = Host.dotGeneral (F := Ideal) Cert.ReferenceIdeal.dot_S100000x128_S128x128_S100000x128_1_0_0_1_n_n none x w2 := by
  funext i
  obtain ⟨r, c, rfl⟩ : ∃ (r : Fin 100000) (c : Fin 128), i = ix2 r c := ⟨i 0, i 1, eq_ix2 i⟩
  rw [slice_at 256 (by omega), proj_apply, dot_apply]
  exact Finset.sum_congr rfl fun k _ => congrArg (x (ix2 r k) * ·) (wcat_at2 w0 w1 w2 w3 k c)

theorem slice3 (x : FVec Ideal Cert.KernelIdeal.S100000x128 .f32) (w0 w1 w2 w3 : FVec Ideal Cert.KernelIdeal.S128x128 .f32) :
    extractStridedSlice Cert.KernelIdeal.S100000x128 ![0, 384]
        (proj x (concatenate Cert.KernelIdeal.S128x512 1 [⟨Cert.KernelIdeal.S128x128, w0⟩, ⟨Cert.KernelIdeal.S128x128, w1⟩, ⟨Cert.KernelIdeal.S128x128, w2⟩, ⟨Cert.KernelIdeal.S128x128, w3⟩]
          Cert.KernelIdeal.Facts₀.concatenates_S128x128_S128x128_S128x128_S128x128_S128x512_d1))
        Cert.KernelIdeal.Facts₀.slices_S100000x512_S100000x128_0_384
      = Host.dotGeneral (F := Ideal) Cert.ReferenceIdeal.dot_S100000x128_S128x128_S100000x128_1_0_0_1_n_n none x w3 := by
  funext i
  obtain ⟨r, c, rfl⟩ : ∃ (r : Fin 100000) (c : Fin 128), i = ix2 r c := ⟨i 0, i 1, eq_ix2 i⟩
  rw [slice_at 384 (by omega), proj_apply, dot_apply]
  exact Finset.sum_congr rfl fun k _ => congrArg (x (ix2 r k) * ·) (wcat_at3 w0 w1 w2 w3 k c)

end Cert.Bridge
end
-- ==== Proof.KValue.lean ====
/-
  The projected features after the launch, as one function of the arguments: entry (r, j) of the array the
  kernel writes is the sum over k of feature (r, k) times weight (k, j) of the concatenated weights. Point t
  of the grid writes back rows 2000 t .. 2000 t + 1999, computed from the same rows of the features and the
  whole weight array; the 50 points cover every row.
-/
import proofs.«106145_j59605556134259_1_alg».proof.Proof.KFrame
import proofs.«106145_j59605556134259_1_alg».proof.Proof.ProjBridge
import Idealize.ShloMosaic.Lib.Pipeline.Value
import Idealize.ShloMosaic.Lib.ValueIdx

set_option maxRecDepth 16384

noncomputable section

namespace Cert.KernelIdeal.Hand

open Cert.KernelIdeal Cert.KernelIdeal.Gen Cert.Bridge
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The block index maps over the grid: the features and the output move down one block per point, the
    weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One block's product, entry by entry, is the whole product's entry at the block's rows. -/
theorem block_entry (X : FVec Ideal S100000x128 .f32) (Wc : FVec Ideal S128x512 .f32)
    (b0 : Vec Ideal S2000x128 .f32) (b1 : Vec Ideal S128x512 .f32) (r : Fin 100000) (p : Fin 2000) (q : Fin 512)
    (h0 : ∀ k : Fin 128, b0 (ix2 p k) = X (ix2 r k)) (h1 : ∀ k : Fin 128, b1 (ix2 k q) = Wc (ix2 k q)) :
    k0_pay1 (F := Ideal) b0 b1 (ix2 p q) = proj X Wc (ix2 r q) := by
  rw [pay_apply, proj_apply]
  exact Finset.sum_congr rfl fun k _ => by rw [h0 k, h1 k]

/-- What point `t` writes back is block `t` of the product of the features and the concatenated weights. -/
theorem flushed_eq (c : Dev nD) (t : Fin cfg0.N) :
    (dats m 0 c).flushed 2 t = ((cfg0.win 2).blk t).view.read (Elt Ideal) (proj (V m c main_arg0) (V m c main_v0)) := by
  show (cfg0.win 2).cut (grid0.coords t) ((dats m 0 c).after 2 t) = _
  rw [after0_2]
  unfold out0_2
  rw [View.canon_unit_zero hz]
  simp only [View.ld_unit_zero (S := S2000x128) hz, View.ld_unit_zero (S := S128x512) hz]
  obtain ⟨e0, e1, e2, e3, e4, e5⟩ := idx_facts t
  have ht : t.val < 50 := Nat.lt_of_lt_of_eq t.isLt N_0
  funext j
  have hj0 : (j 0).val < 2000 := (j 0).isLt
  have hj1 : (j 1).val < 512 := (j 1).isLt
  show k0_pay1 (F := Ideal) (iblk m c 0 t) (iblk m c 1 t) j = proj (V m c main_arg0) (V m c main_v0) (((cfg0.win 2).blk t).view.emb j)
  have hj : j = ix2 (⟨(j 0).val, hj0⟩ : Fin 2000) (⟨(j 1).val, hj1⟩ : Fin 512) := by
    funext a; apply Fin.ext
    match a with
    | ⟨0, _⟩ => rfl
    | ⟨1, _⟩ => rfl
  have hemb : ((cfg0.win 2).blk t).view.emb j = ix2 (⟨t.val * 2000 + (j 0).val, by omega⟩ : Fin 100000) (⟨(j 1).val, hj1⟩ : Fin 512) := by
    funext a; apply Fin.ext
    match a with
    | ⟨0, _⟩ => show win0_2.index t (0 : Fin 2) * 2000 + 1 * (j 0).val = t.val * 2000 + (j 0).val; omega
    | ⟨1, _⟩ => show win0_2.index t (1 : Fin 2) * 512 + 1 * (j 1).val = (j 1).val; omega
  rw [hemb]
  refine (congrArg (k0_pay1 (F := Ideal) (iblk m c 0 t) (iblk m c 1 t)) hj).trans ?_
  refine block_entry (V m c main_arg0) (V m c main_v0) (iblk m c 0 t) (iblk m c 1 t) _ _ _ ?_ ?_
  · intro k
    show V m c main_arg0 (((cfg0.win 0).blk t).view.emb (ix2 (⟨(j 0).val, hj0⟩ : Fin 2000) k)) = _
    refine congrArg (V m c main_arg0) ?_
    funext a; apply Fin.ext
    match a with
    | ⟨0, _⟩ => show win0_0.index t (0 : Fin 2) * 2000 + 1 * (j 0).val = t.val * 2000 + (j 0).val; omega
    | ⟨1, _⟩ => show win0_0.index t (1 : Fin 2) * 128 + 1 * k.val = k.val; omega
  · intro k
    show V m c main_v0 (((cfg0.win 1).blk t).view.emb (ix2 k (⟨(j 1).val, hj1⟩ : Fin 512))) = _
    refine congrArg (V m c main_v0) ?_
    funext a; apply Fin.ext
    match a with
    | ⟨0, _⟩ => show win0_1.index t (0 : Fin 2) * 128 + 1 * k.val = k.val; omega
    | ⟨1, _⟩ => show win0_1.index t (1 : Fin 2) * 512 + 1 * (j 1).val = (j 1).val; omega

/-- An index of the output array is in point `t`'s block iff each coordinate is in the block's range. -/
theorem mem_blk (t : Fin cfg0.N) (i : S100000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v1).slice (win0_2.rect t)).set ↔ _
  rw [View.set_slice_whole, Rect.mem_set_unit]
  exact Iff.rfl

/-- Every index of the output array is in the block of the point its row falls in. -/
theorem covered (i : S100000x512.Idx) : ∃ t : Fin cfg0.N, (cfg0.win 2).flush t = true ∧ i ∈ ((cfg0.win 2).blk t).view.set := by
  have hi0 : (i 0).val < 100000 := (i 0).isLt
  have hi1 : (i 1).val < 512 := (i 1).isLt
  have hN : cfg0.N = 50 := N_0
  let t : Fin cfg0.N := ⟨(i 0).val / 2000, by rw [hN]; omega⟩
  obtain ⟨e0, e1, e2, e3, e4, e5⟩ := idx_facts t
  have htv : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 512 ≤ (i 1).val ∧ (i 1).val < win0_2.index t (1 : Fin 2) * 512 + 512; omega

/-- The projected features after the launch are the product of the features and the concatenated weights. -/
theorem final (c : Dev nD) : (dats m 0 c).arrAt 2 cfg0.N = proj (V m c main_arg0) (V m c main_v0) :=
  (dats m 0 c).arrAt_eq_of_cover 2 (proj (V m c main_arg0) (V m c main_v0)) (fun t _ => flushed_eq m c t) covered

end Cert.KernelIdeal.Hand

end
-- ==== Proof.SimpAux.lean ====
/-
  The congruence lemmas of two library constants, stated once for the modules below.
-/
import Idealize.ShloMosaic.Lib.StableHlo.Run

namespace Cert.Bridge

open Idealize.ShloMosaic

/-- The congruence lemmas of two library constants, stated once for the modules below. -/
theorem congr_simp_realized : True := by
  have := @StableHlo.TRef.of.congr_simp
  have := @Host.reduce.congr_simp
  trivial

end Cert.Bridge
-- ==== Proof.KTail.lean ====
/-
  The aggregation tail shared by the two programs, as pure functions of the projected features and the
  edge lists: for one edge set, row `dst` of the result is the sum, over the edges `(src, dst)` of the set, of
  row `src` of the projected features (a row index below zero is first shifted by the number of nodes; a
  row index still outside `[0, 99999]` contributes the not-a-number row); the four edge sets' results are then
  added left to right.
-/
import proofs.«106145_j59605556134259_1_alg».proof.Proof.Gen.KernelIdeal

noncomputable section

namespace Cert.KernelIdeal.Hand

open Cert.KernelIdeal Idealize.ShloMosaic Idealize.SL.Sem
open Facts₀

variable {F : FTy → Type} [FloatOps F]

/-- Rows of `x` taken at the indices `i`: an index below zero is shifted up by 100000 first, and a row whose
    shifted index is still outside `[0, 99999]` is filled with the not-a-number pattern. -/
def take (x : (⟨S100000x128, .f32⟩ : BufTy).Contents (Elt F)) (i : (⟨S1600000, .i32⟩ : BufTy).Contents (Elt F)) :
    (⟨S1600000x128, .f32⟩ : BufTy).Contents (Elt F) :=
  let c : (⟨S_, .i32⟩ : BufTy).Contents (Elt F) := constantI S_ 32 0#32
  let v0 : (⟨S1600000, .i32⟩ : BufTy).Contents (Elt F) := broadcastInDim S1600000 ![] bcast_S_S1600000 c
  let v1 : (⟨S1600000, .i1⟩ : BufTy).Contents (Elt F) := cmpi .slt i v0
  let c_0 : (⟨S_, .i32⟩ : BufTy).Contents (Elt F) := constantI S_ 32 100000#32
  let v2 : (⟨S1600000, .i32⟩ : BufTy).Contents (Elt F) := broadcastInDim S1600000 ![] bcast_S_S1600000 c_0
  let v3 : (⟨S1600000, .i32⟩ : BufTy).Contents (Elt F) := addi i v2
  let v4 : (⟨S1600000, .i32⟩ : BufTy).Contents (Elt F) := select v1 v3 i
  let v5 : (⟨S1600000x1, .i32⟩ : BufTy).Contents (Elt F) := broadcastInDim S1600000x1 ![0] bcast_S1600000_S1600000x1_0 v4
  let c_1 : (⟨S1, .i32⟩ : BufTy).Contents (Elt F) := constantI S1 32 99999#32
  let c_2 : (⟨S_, .i32⟩ : BufTy).Contents (Elt F) := constantI S_ 32 0#32
  let v6 : (⟨S1600000x1, .i32⟩ : BufTy).Contents (Elt F) := broadcastInDim S1600000x1 ![] bcast_S_S1600000x1 c_2
  let v7 : (⟨S1600000x1, .i1⟩ : BufTy).Contents (Elt F) := cmpi .sge v5 v6
  let v8 : (⟨S1x1, .i32⟩ : BufTy).Contents (Elt F) := broadcastInDim S1x1 ![1] bcast_S1_S1x1_1 c_1
  let v9 : (⟨S1600000x1, .i32⟩ : BufTy).Contents (Elt F) := broadcastInDim S1600000x1 ![0, 1] bcast_S1x1_S1600000x1_0_1 v8
  let v10 : (⟨S1600000x1, .i1⟩ : BufTy).Contents (Elt F) := cmpi .sle v5 v9
  let v11 : (⟨S1600000x1, .i1⟩ : BufTy).Contents (Elt F) := andi v7 v10
  let c_3 : (⟨S_, .i1⟩ : BufTy).Contents (Elt F) := constantI S_ 1 1#1
  let v12 : (⟨S1600000, .i1⟩ : BufTy).Contents (Elt F) := Host.reduce IntOp.andi v11 c_3 reducesTo_S1600000x1_S1600000_d1 h_S_
  let v13 : (⟨S1600000x128, .f32⟩ : BufTy).Contents (Elt F) := Host.gather gather_S100000x128_S1600000x1_S1600000x128_1_0_n_n_0_1_1128 x v5
  let v14 : (⟨S1600000x128, .i1⟩ : BufTy).Contents (Elt F) := broadcastInDim S1600000x128 ![0] bcast_S1600000_S1600000x128_0 v12
  let cst : (⟨S_, .f32⟩ : BufTy).Contents (Elt F) := constant S_ .f32 0x7FC00000#32
  let v15 : (⟨S1600000x128, .f32⟩ : BufTy).Contents (Elt F) := broadcastInDim S1600000x128 ![] bcast_S_S1600000x128 cst
  select v14 v13 v15

/-- Row `k` of a two-row edge list, as a flat list of 1600000 indices. -/
def edgeRow0 (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000
def edgeRow1 (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- One edge set's aggregation: the rows of `xw` taken at the sources (row 0 of `e`), summed into a zero
    array at the destinations (row 1 of `e`). -/
def agg (xw : (⟨S100000x128, .f32⟩ : BufTy).Contents (Elt F)) (e : (⟨S2x1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32 : (⟨S_, .f32⟩ : BufTy).Contents (Elt F)))
    (broadcastInDim S1600000x1 ![0] bcast_S1600000_S1600000x1_0 (edgeRow1 e))
    (take xw (edgeRow0 e))

/-- The four edge sets' aggregations of the four projections, added left to right. -/
def tail (xw0 xw1 xw2 xw3 : (⟨S100000x128, .f32⟩ : BufTy).Contents (Elt F))
    (e1 e2 e3 e4 : (⟨S2x1600000, .i32⟩ : BufTy).Contents (Elt F)) : (⟨S100000x128, .f32⟩ : BufTy).Contents (Elt F) :=
  addf (addf (addf (agg xw0 e1) (agg xw1 e2)) (agg xw2 e3)) (agg xw3 e4)

end Cert.KernelIdeal.Hand

end
-- ==== Proof.KTailRun.lean ====
/-
  The host operations after the kernel launch, read at the result buffer: from any contents of the buffers before
  them, the last running sum is the aggregation tail of the four column blocks of the projected features and the four
  edge lists. The fold is read stretch by stretch at a generic valuation: each stretch's results in terms of the
  contents it starts from, then the nine stretches chained through what is still to be read after each.
-/
import proofs.«106145_j59605556134259_1_alg».proof.Proof.SimpAux
import proofs.«106145_j59605556134259_1_alg».proof.Proof.KTail
import proofs.«106145_j59605556134259_1_alg».proof.Proof.KTailOps
import Idealize.ShloMosaic.Lib.StableHlo.Run

noncomputable section

namespace Cert.KernelIdeal.Hand

open Cert.KernelIdeal Cert.KernelIdeal.Gen Idealize.ShloMosaic Idealize.ShloMosaic.TcCoe Idealize.SL.Sem

variable {F : FTy → Type} [FloatOps F]

attribute [local irreducible] Host.reduce Host.gather Host.scatterAdd

/-- Contents moved to a typed reference's buffer type and back are the contents. -/
theorem ofBuf_toBuf {T : BufTy} (x : StableHlo.TRef sig T) (v : T.Contents (Elt F)) : x.ofBuf (x.toBuf v) = v := by
  show cast _ (cast _ v) = v
  rw [cast_cast, cast_eq]

/-- The four column blocks of the projected features, as the launch leaves them. -/
abbrev xw0 (W : Valuation τ sig (Elt F)) : (⟨S100000x128, .f32⟩ : BufTy).Contents (Elt F) :=
  extractStridedSlice S100000x128 ![0, 0] (W (Proc.devRef .tc main_v1)) slices_S100000x512_S100000x128_0_0
abbrev xw1 (W : Valuation τ sig (Elt F)) : (⟨S100000x128, .f32⟩ : BufTy).Contents (Elt F) :=
  extractStridedSlice S100000x128 ![0, 128] (W (Proc.devRef .tc main_v1)) slices_S100000x512_S100000x128_0_128
abbrev xw2 (W : Valuation τ sig (Elt F)) : (⟨S100000x128, .f32⟩ : BufTy).Contents (Elt F) :=
  extractStridedSlice S100000x128 ![0, 256] (W (Proc.devRef .tc main_v1)) slices_S100000x512_S100000x128_0_256
abbrev xw3 (W : Valuation τ sig (Elt F)) : (⟨S100000x128, .f32⟩ : BufTy).Contents (Elt F) :=
  extractStridedSlice S100000x128 ![0, 384] (W (Proc.devRef .tc main_v1)) slices_S100000x512_S100000x128_0_384

/-- Rows `u` summed into a zero array at the destinations `d`. -/
abbrev scat (d : (⟨S1600000, .i32⟩ : BufTy).Contents (Elt F)) (u : (⟨S1600000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32 : (⟨S_, .f32⟩ : BufTy).Contents (Elt F)))
    (broadcastInDim S1600000x1 ![0] bcast_S1600000_S1600000x1_0 d) u

theorem agg_eq (xw : (⟨S100000x128, .f32⟩ : BufTy).Contents (Elt F)) (e : (⟨S2x1600000, .i32⟩ : BufTy).Contents (Elt F)) :
    agg xw e = scat (edgeRow1 e) (take xw (edgeRow0 e)) := rfl

theorem tail_eq (a b c d : (⟨S100000x128, .f32⟩ : BufTy).Contents (Elt F)) (e1 e2 e3 e4 : (⟨S2x1600000, .i32⟩ : BufTy).Contents (Elt F)) :
    tail a b c d e1 e2 e3 e4 = addf (addf (addf (agg a e1) (agg b e2)) (agg c e3)) (agg d e4) := rfl

/-! ## Each stretch at a generic valuation -/

theorem s0_v2 (V : Valuation τ sig (Elt F)) :
    StableHlo.after (hostOps1 (F := F)) V (Proc.devRef .tc main_v2)
      = extractStridedSlice S100000x128 ![0, 0] (V (Proc.devRef .tc main_v1)) slices_S100000x512_S100000x128_0_0 := by
  after_results_simp

theorem s0_v3 (V : Valuation τ sig (Elt F)) :
    StableHlo.after (hostOps1 (F := F)) V (Proc.devRef .tc main_v3)
      = extractStridedSlice S100000x128 ![0, 128] (V (Proc.devRef .tc main_v1)) slices_S100000x512_S100000x128_0_128 := by
  after_results_simp

theorem s0_v4 (V : Valuation τ sig (Elt F)) :
    StableHlo.after (hostOps1 (F := F)) V (Proc.devRef .tc main_v4)
      = extractStridedSlice S100000x128 ![0, 256] (V (Proc.devRef .tc main_v1)) slices_S100000x512_S100000x128_0_256 := by
  after_results_simp

theorem s0_v5 (V : Valuation τ sig (Elt F)) :
    StableHlo.after (hostOps1 (F := F)) V (Proc.devRef .tc main_v5)
      = extractStridedSlice S100000x128 ![0, 384] (V (Proc.devRef .tc main_v1)) slices_S100000x512_S100000x128_0_384 := by
  after_results_simp

theorem s0_v7 (V : Valuation τ sig (Elt F)) :
    StableHlo.after (hostOps1 (F := F)) V (Proc.devRef .tc main_v7) = edgeRow0 (V (Proc.devRef .tc main_arg1)) := by
  after_results_simp
  try rfl

theorem s0_v9 (V : Valuation τ sig (Elt F)) :
    StableHlo.after (hostOps1 (F := F)) V (Proc.devRef .tc main_v9) = edgeRow1 (V (Proc.devRef .tc main_arg1)) := by
  after_results_simp
  try rfl

theorem s0_arg2 (V : Valuation τ sig (Elt F)) :
    StableHlo.after (hostOps1 (F := F)) V (Proc.devRef .tc main_arg2) = V (Proc.devRef .tc main_arg2) := by
  after_results_simp

theorem s0_arg3 (V : Valuation τ sig (Elt F)) :
    StableHlo.after (hostOps1 (F := F)) V (Proc.devRef .tc main_arg3) = V (Proc.devRef .tc main_arg3) := by
  after_results_simp

theorem s0_arg4 (V : Valuation τ sig (Elt F)) :
    StableHlo.after (hostOps1 (F := F)) V (Proc.devRef .tc main_arg4) = V (Proc.devRef .tc main_arg4) := by
  after_results_simp

set_option maxHeartbeats 400000 in
theorem s1_v10 (V : Valuation τ sig (Elt F)) :
    StableHlo.after (hostOps1_1 (F := F)) V (Proc.devRef .tc main_v10) = take (V (Proc.devRef .tc main_v2)) (V (Proc.devRef .tc main_v7)) := by
  have ex : ∀ u, (StableHlo.TRef.of (T := ⟨S100000x128, .f32⟩) main_v2).ofBuf (Val := Elt F) u = u := fun _ => rfl
  have ei : ∀ u, (StableHlo.TRef.of (T := ⟨S1600000, .i32⟩) main_v7).ofBuf (Val := Elt F) u = u := fun _ => rfl
  have eo : ∀ u, (StableHlo.TRef.of (T := ⟨S1600000x128, .f32⟩) main_v10).toBuf (Val := Elt F) u = u := fun _ => rfl
  after_results_simp
  simp only [ofBuf_toBuf, ex, ei, eo]
  rfl

theorem s1_v3 (V : Valuation τ sig (Elt F)) :
    StableHlo.after (hostOps1_1 (F := F)) V (Proc.devRef .tc main_v3) = V (Proc.devRef .tc main_v3) := by
  after_results_simp

theorem s1_v4 (V : Valuation τ sig (Elt F)) :
    StableHlo.after (hostOps1_1 (F := F)) V (Proc.devRef .tc main_v4) = V (Proc.devRef .tc main_v4) := by
  after_results_simp

theorem s1_v5 (V : Valuation τ sig (Elt F)) :
    StableHlo.after (hostOps1_1 (F := F)) V (Proc.devRef .tc main_v5) = V (Proc.devRef .tc main_v5) := by
  after_results_simp

theorem s1_v9 (V : Valuation τ sig (Elt F)) :
    StableHlo.after (hostOps1_1 (F := F)) V (Proc.devRef .tc main_v9) = V (Proc.devRef .tc main_v9) := by
  after_results_simp

theorem s1_arg2 (V : Valuation τ sig (Elt F)) :
    StableHlo.after (hostOps1_1 (F := F)) V (Proc.devRef .tc main_arg2) = V (Proc.devRef .tc main_arg2) := by
  after_results_simp

theorem s1_arg3 (V : Valuation τ sig (Elt F)) :
    StableHlo.after (hostOps1_1 (F := F)) V (Proc.devRef .tc main_arg3) = V (Proc.devRef .tc main_arg3) := by
  after_results_simp

theorem s1_arg4 (V : Valuation τ sig (Elt F)) :
    StableHlo.after (hostOps1_1 (F := F)) V (Proc.devRef .tc main_arg4) = V (Proc.devRef .tc main_arg4) := by
  after_results_simp

theorem s2_v13 (V : Valuation τ sig (Elt F)) :
    StableHlo.after (hostOps1_2 (F := F)) V (Proc.devRef .tc main_v13) = scat (V (Proc.devRef .tc main_v9)) (V (Proc.devRef .tc main_v10)) := by
  after_results_simp
  try rfl

theorem s2_v15 (V : Valuation τ sig (Elt F)) :
    StableHlo.after (hostOps1_2 (F := F)) V (Proc.devRef .tc main_v15) = edgeRow0 (V (Proc.devRef .tc main_arg2)) := by
  after_results_simp
  try rfl

theorem s2_v17 (V : Valuation τ sig (Elt F)) :
    StableHlo.after (hostOps1_2 (F := F)) V (Proc.devRef .tc main_v17) = edgeRow1 (V (Proc.devRef .tc main_arg2)) := by
  after_results_simp
  try rfl

theorem s2_v3 (V : Valuation τ sig (Elt F)) :
    StableHlo.after (hostOps1_2 (F := F)) V (Proc.devRef .tc main_v3) = V (Proc.devRef .tc main_v3) := by
  after_results_simp

theorem s2_v4 (V : Valuation τ sig (Elt F)) :
    StableHlo.after (hostOps1_2 (F := F)) V (Proc.devRef .tc main_v4) = V (Proc.devRef .tc main_v4) := by
  after_results_simp

theorem s2_v5 (V : Valuation τ sig (Elt F)) :
    StableHlo.after (hostOps1_2 (F := F)) V (Proc.devRef .tc main_v5) = V (Proc.devRef .tc main_v5) := by
  after_results_simp

theorem s2_arg3 (V : Valuation τ sig (Elt F)) :
    StableHlo.after (hostOps1_2 (F := F)) V (Proc.devRef .tc main_arg3) = V (Proc.devRef .tc main_arg3) := by
  after_results_simp

theorem s2_arg4 (V : Valuation τ sig (Elt F)) :
    StableHlo.after (hostOps1_2 (F := F)) V (Proc.devRef .tc main_arg4) = V (Proc.devRef .tc main_arg4) := by
  after_results_simp

set_option maxHeartbeats 400000 in
theorem s3_v18 (V : Valuation τ sig (Elt F)) :
    StableHlo.after (hostOps1_3 (F := F)) V (Proc.devRef .tc main_v18) = take (V (Proc.devRef .tc main_v3)) (V (Proc.devRef .tc main_v15)) := by
  have ex : ∀ u, (StableHlo.TRef.of (T := ⟨S100000x128, .f32⟩) main_v3).ofBuf (Val := Elt F) u = u := fun _ => rfl
  have ei : ∀ u, (StableHlo.TRef.of (T := ⟨S1600000, .i32⟩) main_v15).ofBuf (Val := Elt F) u = u := fun _ => rfl
  have eo : ∀ u, (StableHlo.TRef.of (T := ⟨S1600000x128, .f32⟩) main_v18).toBuf (Val := Elt F) u = u := fun _ => rfl
  after_results_simp
  simp only [ofBuf_toBuf, ex, ei, eo]
  rfl

theorem s3_v13 (V : Valuation τ sig (Elt F)) :
    StableHlo.after (hostOps1_3 (F := F)) V (Proc.devRef .tc main_v13) = V (Proc.devRef .tc main_v13) := by
  after_results_simp

theorem s3_v4 (V : Valuation τ sig (Elt F)) :
    StableHlo.after (hostOps1_3 (F := F)) V (Proc.devRef .tc main_v4) = V (Proc.devRef .tc main_v4) := by
  after_results_simp

theorem s3_v5 (V : Valuation τ sig (Elt F)) :
    StableHlo.after (hostOps1_3 (F := F)) V (Proc.devRef .tc main_v5) = V (Proc.devRef .tc main_v5) := by
  after_results_simp

theorem s3_v17 (V : Valuation τ sig (Elt F)) :
    StableHlo.after (hostOps1_3 (F := F)) V (Proc.devRef .tc main_v17) = V (Proc.devRef .tc main_v17) := by
  after_results_simp

theorem s3_arg3 (V : Valuation τ sig (Elt F)) :
    StableHlo.after (hostOps1_3 (F := F)) V (Proc.devRef .tc main_arg3) = V (Proc.devRef .tc main_arg3) := by
  after_results_simp

theorem s3_arg4 (V : Valuation τ sig (Elt F)) :
    StableHlo.after (hostOps1_3 (F := F)) V (Proc.devRef .tc main_arg4) = V (Proc.devRef .tc main_arg4) := by
  after_results_simp

theorem s4_v22 (V : Valuation τ sig (Elt F)) :
    StableHlo.after (hostOps1_4 (F := F)) V (Proc.devRef .tc main_v22) = addf (V (Proc.devRef .tc main_v13)) (scat (V (Proc.devRef .tc main_v17)) (V (Proc.devRef .tc main_v18))) := by
  after_results_simp
  try rfl

theorem s4_v24 (V : Valuation τ sig (Elt F)) :
    StableHlo.after (hostOps1_4 (F := F)) V (Proc.devRef .tc main_v24) = edgeRow0 (V (Proc.devRef .tc main_arg3)) := by
  after_results_simp
  try rfl

theorem s4_v26 (V : Valuation τ sig (Elt F)) :
    StableHlo.after (hostOps1_4 (F := F)) V (Proc.devRef .tc main_v26) = edgeRow1 (V (Proc.devRef .tc main_arg3)) := by
  after_results_simp
  try rfl

theorem s4_v4 (V : Valuation τ sig (Elt F)) :
    StableHlo.after (hostOps1_4 (F := F)) V (Proc.devRef .tc main_v4) = V (Proc.devRef .tc main_v4) := by
  after_results_simp

theorem s4_v5 (V : Valuation τ sig (Elt F)) :
    StableHlo.after (hostOps1_4 (F := F)) V (Proc.devRef .tc main_v5) = V (Proc.devRef .tc main_v5) := by
  after_results_simp

theorem s4_arg4 (V : Valuation τ sig (Elt F)) :
    StableHlo.after (hostOps1_4 (F := F)) V (Proc.devRef .tc main_arg4) = V (Proc.devRef .tc main_arg4) := by
  after_results_simp

set_option maxHeartbeats 400000 in
theorem s5_v27 (V : Valuation τ sig (Elt F)) :
    StableHlo.after (hostOps1_5 (F := F)) V (Proc.devRef .tc main_v27) = take (V (Proc.devRef .tc main_v4)) (V (Proc.devRef .tc main_v24)) := by
  have ex : ∀ u, (StableHlo.TRef.of (T := ⟨S100000x128, .f32⟩) main_v4).ofBuf (Val := Elt F) u = u := fun _ => rfl
  have ei : ∀ u, (StableHlo.TRef.of (T := ⟨S1600000, .i32⟩) main_v24).ofBuf (Val := Elt F) u = u := fun _ => rfl
  have eo : ∀ u, (StableHlo.TRef.of (T := ⟨S1600000x128, .f32⟩) main_v27).toBuf (Val := Elt F) u = u := fun _ => rfl
  after_results_simp
  simp only [ofBuf_toBuf, ex, ei, eo]
  rfl

theorem s5_v22 (V : Valuation τ sig (Elt F)) :
    StableHlo.after (hostOps1_5 (F := F)) V (Proc.devRef .tc main_v22) = V (Proc.devRef .tc main_v22) := by
  after_results_simp

theorem s5_v5 (V : Valuation τ sig (Elt F)) :
    StableHlo.after (hostOps1_5 (F := F)) V (Proc.devRef .tc main_v5) = V (Proc.devRef .tc main_v5) := by
  after_results_simp

theorem s5_v26 (V : Valuation τ sig (Elt F)) :
    StableHlo.after (hostOps1_5 (F := F)) V (Proc.devRef .tc main_v26) = V (Proc.devRef .tc main_v26) := by
  after_results_simp

theorem s5_arg4 (V : Valuation τ sig (Elt F)) :
    StableHlo.after (hostOps1_5 (F := F)) V (Proc.devRef .tc main_arg4) = V (Proc.devRef .tc main_arg4) := by
  after_results_simp

theorem s6_v31 (V : Valuation τ sig (Elt F)) :
    StableHlo.after (hostOps1_6 (F := F)) V (Proc.devRef .tc main_v31) = addf (V (Proc.devRef .tc main_v22)) (scat (V (Proc.devRef .tc main_v26)) (V (Proc.devRef .tc main_v27))) := by
  after_results_simp
  try rfl

theorem s6_v33 (V : Valuation τ sig (Elt F)) :
    StableHlo.after (hostOps1_6 (F := F)) V (Proc.devRef .tc main_v33) = edgeRow0 (V (Proc.devRef .tc main_arg4)) := by
  after_results_simp
  try rfl

theorem s6_v35 (V : Valuation τ sig (Elt F)) :
    StableHlo.after (hostOps1_6 (F := F)) V (Proc.devRef .tc main_v35) = edgeRow1 (V (Proc.devRef .tc main_arg4)) := by
  after_results_simp
  try rfl

theorem s6_v5 (V : Valuation τ sig (Elt F)) :
    StableHlo.after (hostOps1_6 (F := F)) V (Proc.devRef .tc main_v5) = V (Proc.devRef .tc main_v5) := by
  after_results_simp

set_option maxHeartbeats 400000 in
theorem s7_v36 (V : Valuation τ sig (Elt F)) :
    StableHlo.after (hostOps1_7 (F := F)) V (Proc.devRef .tc main_v36) = take (V (Proc.devRef .tc main_v5)) (V (Proc.devRef .tc main_v33)) := by
  have ex : ∀ u, (StableHlo.TRef.of (T := ⟨S100000x128, .f32⟩) main_v5).ofBuf (Val := Elt F) u = u := fun _ => rfl
  have ei : ∀ u, (StableHlo.TRef.of (T := ⟨S1600000, .i32⟩) main_v33).ofBuf (Val := Elt F) u = u := fun _ => rfl
  have eo : ∀ u, (StableHlo.TRef.of (T := ⟨S1600000x128, .f32⟩) main_v36).toBuf (Val := Elt F) u = u := fun _ => rfl
  after_results_simp
  simp only [ofBuf_toBuf, ex, ei, eo]
  rfl

theorem s7_v31 (V : Valuation τ sig (Elt F)) :
    StableHlo.after (hostOps1_7 (F := F)) V (Proc.devRef .tc main_v31) = V (Proc.devRef .tc main_v31) := by
  after_results_simp

theorem s7_v35 (V : Valuation τ sig (Elt F)) :
    StableHlo.after (hostOps1_7 (F := F)) V (Proc.devRef .tc main_v35) = V (Proc.devRef .tc main_v35) := by
  after_results_simp

theorem s8_v40 (V : Valuation τ sig (Elt F)) :
    StableHlo.after (hostOps1_8 (F := F)) V (Proc.devRef .tc main_v40) = addf (V (Proc.devRef .tc main_v31)) (scat (V (Proc.devRef .tc main_v35)) (V (Proc.devRef .tc main_v36))) := by
  after_results_simp
  try rfl

/-! ## What is still to be read after each stretch -/

/-- After the first stretch: the four column blocks of the projected features, the first edge set's two rows, and the
    three edge sets still to be read. -/
structure Live1 (W V : Valuation τ sig (Elt F)) : Prop where
  v2 : V (Proc.devRef .tc main_v2) = xw0 W
  v3 : V (Proc.devRef .tc main_v3) = xw1 W
  v4 : V (Proc.devRef .tc main_v4) = xw2 W
  v5 : V (Proc.devRef .tc main_v5) = xw3 W
  v7 : V (Proc.devRef .tc main_v7) = edgeRow0 (W (Proc.devRef .tc main_arg1))
  v9 : V (Proc.devRef .tc main_v9) = edgeRow1 (W (Proc.devRef .tc main_arg1))
  a2 : V (Proc.devRef .tc main_arg2) = W (Proc.devRef .tc main_arg2)
  a3 : V (Proc.devRef .tc main_arg3) = W (Proc.devRef .tc main_arg3)
  a4 : V (Proc.devRef .tc main_arg4) = W (Proc.devRef .tc main_arg4)

/-- After the first row take. -/
structure Live2 (W V : Valuation τ sig (Elt F)) : Prop where
  v10 : V (Proc.devRef .tc main_v10) = take (xw0 W) (edgeRow0 (W (Proc.devRef .tc main_arg1)))
  v3 : V (Proc.devRef .tc main_v3) = xw1 W
  v4 : V (Proc.devRef .tc main_v4) = xw2 W
  v5 : V (Proc.devRef .tc main_v5) = xw3 W
  v9 : V (Proc.devRef .tc main_v9) = edgeRow1 (W (Proc.devRef .tc main_arg1))
  a2 : V (Proc.devRef .tc main_arg2) = W (Proc.devRef .tc main_arg2)
  a3 : V (Proc.devRef .tc main_arg3) = W (Proc.devRef .tc main_arg3)
  a4 : V (Proc.devRef .tc main_arg4) = W (Proc.devRef .tc main_arg4)

/-- After the first scatter-add and the second edge set's rows. -/
structure Live3 (W V : Valuation τ sig (Elt F)) : Prop where
  v13 : V (Proc.devRef .tc main_v13) = agg (xw0 W) (W (Proc.devRef .tc main_arg1))
  v3 : V (Proc.devRef .tc main_v3) = xw1 W
  v4 : V (Proc.devRef .tc main_v4) = xw2 W
  v5 : V (Proc.devRef .tc main_v5) = xw3 W
  v15 : V (Proc.devRef .tc main_v15) = edgeRow0 (W (Proc.devRef .tc main_arg2))
  v17 : V (Proc.devRef .tc main_v17) = edgeRow1 (W (Proc.devRef .tc main_arg2))
  a3 : V (Proc.devRef .tc main_arg3) = W (Proc.devRef .tc main_arg3)
  a4 : V (Proc.devRef .tc main_arg4) = W (Proc.devRef .tc main_arg4)

/-- After the second row take. -/
structure Live4 (W V : Valuation τ sig (Elt F)) : Prop where
  v13 : V (Proc.devRef .tc main_v13) = agg (xw0 W) (W (Proc.devRef .tc main_arg1))
  v18 : V (Proc.devRef .tc main_v18) = take (xw1 W) (edgeRow0 (W (Proc.devRef .tc main_arg2)))
  v4 : V (Proc.devRef .tc main_v4) = xw2 W
  v5 : V (Proc.devRef .tc main_v5) = xw3 W
  v17 : V (Proc.devRef .tc main_v17) = edgeRow1 (W (Proc.devRef .tc main_arg2))
  a3 : V (Proc.devRef .tc main_arg3) = W (Proc.devRef .tc main_arg3)
  a4 : V (Proc.devRef .tc main_arg4) = W (Proc.devRef .tc main_arg4)

/-- After the second scatter-add, the first running sum and the third edge set's rows. -/
structure Live5 (W V : Valuation τ sig (Elt F)) : Prop where
  v22 : V (Proc.devRef .tc main_v22) = addf (agg (xw0 W) (W (Proc.devRef .tc main_arg1))) (agg (xw1 W) (W (Proc.devRef .tc main_arg2)))
  v4 : V (Proc.devRef .tc main_v4) = xw2 W
  v5 : V (Proc.devRef .tc main_v5) = xw3 W
  v24 : V (Proc.devRef .tc main_v24) = edgeRow0 (W (Proc.devRef .tc main_arg3))
  v26 : V (Proc.devRef .tc main_v26) = edgeRow1 (W (Proc.devRef .tc main_arg3))
  a4 : V (Proc.devRef .tc main_arg4) = W (Proc.devRef .tc main_arg4)

/-- After the third row take. -/
structure Live6 (W V : Valuation τ sig (Elt F)) : Prop where
  v22 : V (Proc.devRef .tc main_v22) = addf (agg (xw0 W) (W (Proc.devRef .tc main_arg1))) (agg (xw1 W) (W (Proc.devRef .tc main_arg2)))
  v27 : V (Proc.devRef .tc main_v27) = take (xw2 W) (edgeRow0 (W (Proc.devRef .tc main_arg3)))
  v5 : V (Proc.devRef .tc main_v5) = xw3 W
  v26 : V (Proc.devRef .tc main_v26) = edgeRow1 (W (Proc.devRef .tc main_arg3))
  a4 : V (Proc.devRef .tc main_arg4) = W (Proc.devRef .tc main_arg4)

/-- After the third scatter-add, the second running sum and the fourth edge set's rows. -/
structure Live7 (W V : Valuation τ sig (Elt F)) : Prop where
  v31 : V (Proc.devRef .tc main_v31) = addf (addf (agg (xw0 W) (W (Proc.devRef .tc main_arg1))) (agg (xw1 W) (W (Proc.devRef .tc main_arg2)))) (agg (xw2 W) (W (Proc.devRef .tc main_arg3)))
  v5 : V (Proc.devRef .tc main_v5) = xw3 W
  v33 : V (Proc.devRef .tc main_v33) = edgeRow0 (W (Proc.devRef .tc main_arg4))
  v35 : V (Proc.devRef .tc main_v35) = edgeRow1 (W (Proc.devRef .tc main_arg4))

/-- After the fourth row take. -/
structure Live8 (W V : Valuation τ sig (Elt F)) : Prop where
  v31 : V (Proc.devRef .tc main_v31) = addf (addf (agg (xw0 W) (W (Proc.devRef .tc main_arg1))) (agg (xw1 W) (W (Proc.devRef .tc main_arg2)))) (agg (xw2 W) (W (Proc.devRef .tc main_arg3)))
  v36 : V (Proc.devRef .tc main_v36) = take (xw3 W) (edgeRow0 (W (Proc.devRef .tc main_arg4)))
  v35 : V (Proc.devRef .tc main_v35) = edgeRow1 (W (Proc.devRef .tc main_arg4))

theorem live1 (W : Valuation τ sig (Elt F)) : Live1 W (StableHlo.after (hostOps1 (F := F)) W) :=
  ⟨s0_v2 W, s0_v3 W, s0_v4 W, s0_v5 W, s0_v7 W, s0_v9 W, s0_arg2 W, s0_arg3 W, s0_arg4 W⟩

theorem live2 {W V : Valuation τ sig (Elt F)} (h : Live1 W V) : Live2 W (StableHlo.after (hostOps1_1 (F := F)) V) where
  v10 := (s1_v10 V).trans (by rw [h.v2, h.v7])
  v3 := (s1_v3 V).trans h.v3
  v4 := (s1_v4 V).trans h.v4
  v5 := (s1_v5 V).trans h.v5
  v9 := (s1_v9 V).trans h.v9
  a2 := (s1_arg2 V).trans h.a2
  a3 := (s1_arg3 V).trans h.a3
  a4 := (s1_arg4 V).trans h.a4

theorem live3 {W V : Valuation τ sig (Elt F)} (h : Live2 W V) : Live3 W (StableHlo.after (hostOps1_2 (F := F)) V) where
  v13 := (s2_v13 V).trans (by rw [h.v9, h.v10, agg_eq])
  v3 := (s2_v3 V).trans h.v3
  v4 := (s2_v4 V).trans h.v4
  v5 := (s2_v5 V).trans h.v5
  v15 := (s2_v15 V).trans (by rw [h.a2])
  v17 := (s2_v17 V).trans (by rw [h.a2])
  a3 := (s2_arg3 V).trans h.a3
  a4 := (s2_arg4 V).trans h.a4

theorem live4 {W V : Valuation τ sig (Elt F)} (h : Live3 W V) : Live4 W (StableHlo.after (hostOps1_3 (F := F)) V) where
  v13 := (s3_v13 V).trans h.v13
  v18 := (s3_v18 V).trans (by rw [h.v3, h.v15])
  v4 := (s3_v4 V).trans h.v4
  v5 := (s3_v5 V).trans h.v5
  v17 := (s3_v17 V).trans h.v17
  a3 := (s3_arg3 V).trans h.a3
  a4 := (s3_arg4 V).trans h.a4

theorem live5 {W V : Valuation τ sig (Elt F)} (h : Live4 W V) : Live5 W (StableHlo.after (hostOps1_4 (F := F)) V) where
  v22 := (s4_v22 V).trans (by rw [h.v13, h.v17, h.v18, agg_eq (xw1 W)])
  v4 := (s4_v4 V).trans h.v4
  v5 := (s4_v5 V).trans h.v5
  v24 := (s4_v24 V).trans (by rw [h.a3])
  v26 := (s4_v26 V).trans (by rw [h.a3])
  a4 := (s4_arg4 V).trans h.a4

theorem live6 {W V : Valuation τ sig (Elt F)} (h : Live5 W V) : Live6 W (StableHlo.after (hostOps1_5 (F := F)) V) where
  v22 := (s5_v22 V).trans h.v22
  v27 := (s5_v27 V).trans (by rw [h.v4, h.v24])
  v5 := (s5_v5 V).trans h.v5
  v26 := (s5_v26 V).trans h.v26
  a4 := (s5_arg4 V).trans h.a4

theorem live7 {W V : Valuation τ sig (Elt F)} (h : Live6 W V) : Live7 W (StableHlo.after (hostOps1_6 (F := F)) V) where
  v31 := (s6_v31 V).trans (by rw [h.v22, h.v26, h.v27, agg_eq (xw2 W)])
  v5 := (s6_v5 V).trans h.v5
  v33 := (s6_v33 V).trans (by rw [h.a4])
  v35 := (s6_v35 V).trans (by rw [h.a4])

theorem live8 {W V : Valuation τ sig (Elt F)} (h : Live7 W V) : Live8 W (StableHlo.after (hostOps1_7 (F := F)) V) where
  v31 := (s7_v31 V).trans h.v31
  v36 := (s7_v36 V).trans (by rw [h.v5, h.v33])
  v35 := (s7_v35 V).trans h.v35

theorem live9 {W V : Valuation τ sig (Elt F)} (h : Live8 W V) :
    StableHlo.after (hostOps1_8 (F := F)) V (Proc.devRef .tc main_v40)
      = tail (xw0 W) (xw1 W) (xw2 W) (xw3 W) (W (Proc.devRef .tc main_arg1)) (W (Proc.devRef .tc main_arg2)) (W (Proc.devRef .tc main_arg3)) (W (Proc.devRef .tc main_arg4)) :=
  (s8_v40 V).trans (by rw [h.v31, h.v35, h.v36, tail_eq, agg_eq (xw3 W)])

/-! ## The nine stretches -/

/-- Two stretches run one after the other: the second from what the first leaves. -/
theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_app l₁ l₂]

theorem tailOps_flatten : (tailOps (F := F)).flatten
    = hostOps1 ++ (hostOps1_1 ++ (hostOps1_2 ++ (hostOps1_3 ++ (hostOps1_4 ++ (hostOps1_5 ++ (hostOps1_6 ++ (hostOps1_7 ++ hostOps1_8))))))) := by
  simp only [tailOps, List.flatten_cons, List.flatten_nil, List.append_nil]

/-- The result buffer after the operations that follow the launch: the aggregation tail of the four column blocks of
    the projected features and the four edge lists. -/
theorem tail_out (W : Valuation τ sig (Elt F)) : StableHlo.after (tailOps (F := F)).flatten W (Proc.devRef .tc main_v40)
      = tail (extractStridedSlice S100000x128 ![0, 0] (W (Proc.devRef .tc main_v1)) slices_S100000x512_S100000x128_0_0)
             (extractStridedSlice S100000x128 ![0, 128] (W (Proc.devRef .tc main_v1)) slices_S100000x512_S100000x128_0_128)
             (extractStridedSlice S100000x128 ![0, 256] (W (Proc.devRef .tc main_v1)) slices_S100000x512_S100000x128_0_256)
             (extractStridedSlice S100000x128 ![0, 384] (W (Proc.devRef .tc main_v1)) slices_S100000x512_S100000x128_0_384)
             (W (Proc.devRef .tc main_arg1)) (W (Proc.devRef .tc main_arg2)) (W (Proc.devRef .tc main_arg3)) (W (Proc.devRef .tc main_arg4)) := by
  rw [tailOps_flatten]
  simp only [after_app]
  exact live9 (live8 (live7 (live6 (live5 (live4 (live3 (live2 (live1 W))))))))

end Cert.KernelIdeal.Hand

end
-- ==== Proof.KOut.lean ====
/-
  The value of the kernel's program over the extended reals: the result is the aggregation tail applied to the
  four 128-column blocks of the product of the features with the concatenated weights, and to the four edge
  lists; the arguments end unchanged.
-/
import proofs.«106145_j59605556134259_1_alg».proof.Proof.KRun
import proofs.«106145_j59605556134259_1_alg».proof.Proof.KValue
import proofs.«106145_j59605556134259_1_alg».proof.Proof.KTailRun

set_option maxRecDepth 16384

noncomputable section

namespace Cert.KernelIdeal.Hand

open Cert.KernelIdeal Cert.KernelIdeal.Gen Cert.Bridge
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- The features times the four weight matrices laid side by side. -/
def projected (x : (⟨S100000x128, .f32⟩ : BufTy).Contents (Elt Ideal)) (w0 w1 w2 w3 : (⟨S128x128, .f32⟩ : BufTy).Contents (Elt Ideal)) :
    (⟨S100000x512, .f32⟩ : BufTy).Contents (Elt Ideal) :=
  proj x (concatenate S128x512 1 [⟨S128x128, w0⟩, ⟨S128x128, w1⟩, ⟨S128x128, w2⟩, ⟨S128x128, w3⟩] concatenates_S128x128_S128x128_S128x128_S128x128_S128x512_d1)

/-- The weight array the kernel finds is the concatenation of the four weight arguments. -/
theorem V_v0 (c : Dev nD) : V m c main_v0
    = concatenate S128x512 1 [⟨S128x128, m ((c.tc : Thread nD τ).loc main_arg5)⟩, ⟨S128x128, m ((c.tc : Thread nD τ).loc main_arg6)⟩,
        ⟨S128x128, m ((c.tc : Thread nD τ).loc main_arg7)⟩, ⟨S128x128, m ((c.tc : Thread nD τ).loc main_arg8)⟩] concatenates_S128x128_S128x128_S128x128_S128x128_S128x512_d1 := by
  show StableHlo.after hostOps0 (fun b => m (c, b)) (Proc.devRef .tc main_v0) = _
  after_results
  rfl

/-- The projected features after the launch, in the arguments. -/
theorem final_args (c : Dev nD) : (dats m 0 c).arrAt 2 cfg0.N = (projected (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))) := by
  rw [final m c, V_arg m c main_arg0 (by decide), V_v0 m c]
  rfl

/-- What the result buffer holds after the operations that follow the launch. -/
theorem result_eq (c : Dev nD) : Pipeline.afterTail₀ cfgs (dats m) 0 (V0 m) tailOps c main_v40
    = tail (extractStridedSlice S100000x128 ![0, 0] (projected (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))) slices_S100000x512_S100000x128_0_0)
            (extractStridedSlice S100000x128 ![0, 128] (projected (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))) slices_S100000x512_S100000x128_0_128)
            (extractStridedSlice S100000x128 ![0, 256] (projected (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))) slices_S100000x512_S100000x128_0_256)
            (extractStridedSlice S100000x128 ![0, 384] (projected (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))) slices_S100000x512_S100000x128_0_384)
            (m ((c.tc : Thread nD τ).loc main_arg1)) (m ((c.tc : Thread nD τ).loc main_arg2)) (m ((c.tc : Thread nD τ).loc main_arg3)) (m ((c.tc : Thread nD τ).loc main_arg4)) := by
  unfold Pipeline.afterTail₀
  rw [tail_out]
  have hv1 : Pipeline.withArrays (cfgs 0).spec c (V0 m c) (fun w => (dats m 0 c).arrAt w (cfgs 0).N) (Proc.devRef .tc main_v1) = (projected (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))) :=
    (Pipeline.withArrays_arr spec0 launch0.win.arr_inj c (V0 m c) _ 2).trans (final_args m c)
  have ha1 : Pipeline.withArrays (cfgs 0).spec c (V0 m c) (fun w => (dats m 0 c).arrAt w (cfgs 0).N) (Proc.devRef .tc main_arg1) = m ((c.tc : Thread nD τ).loc main_arg1) :=
    (Pipeline.withArrays_of_ne _ c (V0 m c) _ main_arg1 (by decide)).trans (V_arg m c main_arg1 (by decide))
  have ha2 : Pipeline.withArrays (cfgs 0).spec c (V0 m c) (fun w => (dats m 0 c).arrAt w (cfgs 0).N) (Proc.devRef .tc main_arg2) = m ((c.tc : Thread nD τ).loc main_arg2) :=
    (Pipeline.withArrays_of_ne _ c (V0 m c) _ main_arg2 (by decide)).trans (V_arg m c main_arg2 (by decide))
  have ha3 : Pipeline.withArrays (cfgs 0).spec c (V0 m c) (fun w => (dats m 0 c).arrAt w (cfgs 0).N) (Proc.devRef .tc main_arg3) = m ((c.tc : Thread nD τ).loc main_arg3) :=
    (Pipeline.withArrays_of_ne _ c (V0 m c) _ main_arg3 (by decide)).trans (V_arg m c main_arg3 (by decide))
  have ha4 : Pipeline.withArrays (cfgs 0).spec c (V0 m c) (fun w => (dats m 0 c).arrAt w (cfgs 0).N) (Proc.devRef .tc main_arg4) = m ((c.tc : Thread nD τ).loc main_arg4) :=
    (Pipeline.withArrays_of_ne _ c (V0 m c) _ main_arg4 (by decide)).trans (V_arg m c main_arg4 (by decide))
  rw [hv1, ha1, ha2, ha3, ha4]

/-- The run with its value: the result at the tail of the projected features, the arguments unchanged. -/
theorem run_value : θ_run defs (onTc (τ := τ) (main (F := Ideal))) ⟨m, fun _ => 0, ρ⟩ (fun r => ∀ c : Dev nD,
      r.2.mem ((c.tc : Thread nD τ).loc main_v40) = tail (extractStridedSlice S100000x128 ![0, 0] (projected (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))) slices_S100000x512_S100000x128_0_0)
            (extractStridedSlice S100000x128 ![0, 128] (projected (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))) slices_S100000x512_S100000x128_0_128)
            (extractStridedSlice S100000x128 ![0, 256] (projected (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))) slices_S100000x512_S100000x128_0_256)
            (extractStridedSlice S100000x128 ![0, 384] (projected (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))) slices_S100000x512_S100000x128_0_384)
            (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(out_post m r h c).trans (result_eq m c), args_post m r h c⟩) (run_main m ρ)

end Cert.KernelIdeal.Hand

end
-- ==== Proof.RefOps.lean ====
/-
  The reference program's `@main` as one straight line of its 131 operations. Each of the four calls of
  `@_take` is replaced by the callee's 23 operations over that call's own buffers (the nested call of
  `@_where` being its one `select`), which is what unfolding the two function bodies at the call gives. The
  line is cut where the program's own structure cuts it: one stretch of 32 operations per edge set (the
  projection, the row of sources, the 23 of `@_take`, the row of destinations, the zero array, the
  scatter-add), and the three additions that sum the four results.
-/
import proofs.«106145_j59605556134259_1_alg».proof.Proof.SimpAux
import proofs.«106145_j59605556134259_1_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Facts₀

variable {F : FTy → Type} [FloatOps F]

/-- Edge set 1: the projection of `main_arg0` by `main_arg5`, the sources (row 0 of `main_arg1`), `@_take`'s 23 operations
    over the record `main_call0`, the destinations (row 1), the zero array and the scatter-add into `main_v8`. -/
abbrev conv0 : List (HloOp τ sig (Elt F)) :=
  [ StableHlo.binary main_arg0 main_arg5 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1600000, .i32⟩) (broadcastInDim S1600000 ![] bcast_S_S1600000),
    StableHlo.TRef.binary (.of main_v2 : StableHlo.TRef sig ⟨S1600000, .i32⟩) (.of main_call0_v0 : StableHlo.TRef sig ⟨S1600000, .i32⟩) (.of main_call0_v1 : StableHlo.TRef sig ⟨S1600000, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S1600000, .i32⟩) (broadcastInDim S1600000 ![] bcast_S_S1600000),
    StableHlo.TRef.binary (.of main_v2 : StableHlo.TRef sig ⟨S1600000, .i32⟩) (.of main_call0_v2 : StableHlo.TRef sig ⟨S1600000, .i32⟩) (.of main_call0_v3 : StableHlo.TRef sig ⟨S1600000, .i32⟩) addi,
    StableHlo.TRef.ternary (.of main_call0_v1 : StableHlo.TRef sig ⟨S1600000, .i1⟩) (.of main_call0_v3 : StableHlo.TRef sig ⟨S1600000, .i32⟩) (.of main_v2 : StableHlo.TRef sig ⟨S1600000, .i32⟩) (.of main_call0_v4 : StableHlo.TRef sig ⟨S1600000, .i32⟩) select,
    StableHlo.TRef.unary (.of main_call0_v4 : StableHlo.TRef sig ⟨S1600000, .i32⟩) (.of main_call0_v5 : StableHlo.TRef sig ⟨S1600000x1, .i32⟩) (broadcastInDim S1600000x1 ![0] bcast_S1600000_S1600000x1_0),
    StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1600000x1, .i32⟩) (broadcastInDim S1600000x1 ![] bcast_S_S1600000x1),
    StableHlo.TRef.binary (.of main_call0_v5 : StableHlo.TRef sig ⟨S1600000x1, .i32⟩) (.of main_call0_v6 : StableHlo.TRef sig ⟨S1600000x1, .i32⟩) (.of main_call0_v7 : StableHlo.TRef sig ⟨S1600000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1600000x1, .i32⟩) (broadcastInDim S1600000x1 ![0, 1] bcast_S1x1_S1600000x1_0_1),
    StableHlo.TRef.binary (.of main_call0_v5 : StableHlo.TRef sig ⟨S1600000x1, .i32⟩) (.of main_call0_v9 : StableHlo.TRef sig ⟨S1600000x1, .i32⟩) (.of main_call0_v10 : StableHlo.TRef sig ⟨S1600000x1, .i1⟩) (cmpi .sle),
    StableHlo.TRef.binary (.of main_call0_v7 : StableHlo.TRef sig ⟨S1600000x1, .i1⟩) (.of main_call0_v10 : StableHlo.TRef sig ⟨S1600000x1, .i1⟩) (.of main_call0_v11 : StableHlo.TRef sig ⟨S1600000x1, .i1⟩) andi,
    StableHlo.TRef.nullary (.of main_call0_c_3 : StableHlo.TRef sig ⟨S_, .i1⟩) (constantI S_ 1 1#1),
    StableHlo.TRef.binary (.of main_call0_v11 : StableHlo.TRef sig ⟨S1600000x1, .i1⟩) (.of main_call0_c_3 : StableHlo.TRef sig ⟨S_, .i1⟩) (.of main_call0_v12 : StableHlo.TRef sig ⟨S1600000, .i1⟩) (fun x v => Host.reduce IntOp.andi x v reducesTo_S1600000x1_S1600000_d1 h_S_),
    StableHlo.TRef.binary (.of main_v0 : StableHlo.TRef sig ⟨S100000x128, .f32⟩) (.of main_call0_v5 : StableHlo.TRef sig ⟨S1600000x1, .i32⟩) (.of main_call0_v13 : StableHlo.TRef sig ⟨S1600000x128, .f32⟩) (fun x i => Host.gather gather_S100000x128_S1600000x1_S1600000x128_1_0_n_n_0_1_1128 x i),
    StableHlo.TRef.unary (.of main_call0_v12 : StableHlo.TRef sig ⟨S1600000, .i1⟩) (.of main_call0_v14 : StableHlo.TRef sig ⟨S1600000x128, .i1⟩) (broadcastInDim S1600000x128 ![0] bcast_S1600000_S1600000x128_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S1600000x128, .f32⟩) (broadcastInDim S1600000x128 ![] bcast_S_S1600000x128),
    StableHlo.TRef.ternary (.of main_call0_v14 : StableHlo.TRef sig ⟨S1600000x128, .i1⟩) (.of main_call0_v13 : StableHlo.TRef sig ⟨S1600000x128, .f32⟩) (.of main_call0_v15 : StableHlo.TRef sig ⟨S1600000x128, .f32⟩) (.of main_v3 : StableHlo.TRef sig ⟨S1600000x128, .f32⟩) select,
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.nullary main_cst (constant S_ .f32 0x00000000#32),
    StableHlo.unary main_cst main_v6 (broadcastInDim S100000x128 ![] bcast_S_S100000x128 : (⟨S_, .f32⟩ : BufTy).Contents (Elt F) → (⟨S100000x128, .f32⟩ : BufTy).Contents (Elt F)),
    StableHlo.unary main_v5 main_v7 (broadcastInDim S1600000x1 ![0] bcast_S1600000_S1600000x1_0 : (⟨S1600000, .i32⟩ : BufTy).Contents (Elt F) → (⟨S1600000x1, .i32⟩ : BufTy).Contents (Elt F)),
    StableHlo.ternary main_v6 main_v7 main_v3 main_v8 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Edge set 2: the projection of `main_arg0` by `main_arg6`, the sources (row 0 of `main_arg2`), `@_take`'s 23 operations
    over the record `main_call1`, the destinations (row 1), the zero array and the scatter-add into `main_v17`. -/
abbrev conv1 : List (HloOp τ sig (Elt F)) :=
  [ StableHlo.binary main_arg0 main_arg6 main_v9 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg2 main_v10 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v10 main_v11 rfl shapeCasts_S1x1600000_S1600000,
    StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S1600000, .i32⟩) (broadcastInDim S1600000 ![] bcast_S_S1600000),
    StableHlo.TRef.binary (.of main_v11 : StableHlo.TRef sig ⟨S1600000, .i32⟩) (.of main_call1_v0 : StableHlo.TRef sig ⟨S1600000, .i32⟩) (.of main_call1_v1 : StableHlo.TRef sig ⟨S1600000, .i1⟩) (cmpi .slt),
    StableHlo.TRef.nullary (.of main_call1_c_0 : StableHlo.TRef sig ⟨S_, .i32⟩) (constantI S_ 32 100000#32),
    StableHlo.TRef.unary (.of main_call1_c_0 : StableHlo.TRef sig ⟨S_, .i32⟩) (.of main_call1_v2 : StableHlo.TRef sig ⟨S1600000, .i32⟩) (broadcastInDim S1600000 ![] bcast_S_S1600000),
    StableHlo.TRef.binary (.of main_v11 : StableHlo.TRef sig ⟨S1600000, .i32⟩) (.of main_call1_v2 : StableHlo.TRef sig ⟨S1600000, .i32⟩) (.of main_call1_v3 : StableHlo.TRef sig ⟨S1600000, .i32⟩) addi,
    StableHlo.TRef.ternary (.of main_call1_v1 : StableHlo.TRef sig ⟨S1600000, .i1⟩) (.of main_call1_v3 : StableHlo.TRef sig ⟨S1600000, .i32⟩) (.of main_v11 : StableHlo.TRef sig ⟨S1600000, .i32⟩) (.of main_call1_v4 : StableHlo.TRef sig ⟨S1600000, .i32⟩) select,
    StableHlo.TRef.unary (.of main_call1_v4 : StableHlo.TRef sig ⟨S1600000, .i32⟩) (.of main_call1_v5 : StableHlo.TRef sig ⟨S1600000x1, .i32⟩) (broadcastInDim S1600000x1 ![0] bcast_S1600000_S1600000x1_0),
    StableHlo.TRef.nullary (.of main_call1_c_1 : StableHlo.TRef sig ⟨S1, .i32⟩) (constantI S1 32 99999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S1600000x1, .i32⟩) (broadcastInDim S1600000x1 ![] bcast_S_S1600000x1),
    StableHlo.TRef.binary (.of main_call1_v5 : StableHlo.TRef sig ⟨S1600000x1, .i32⟩) (.of main_call1_v6 : StableHlo.TRef sig ⟨S1600000x1, .i32⟩) (.of main_call1_v7 : StableHlo.TRef sig ⟨S1600000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S1600000x1, .i32⟩) (broadcastInDim S1600000x1 ![0, 1] bcast_S1x1_S1600000x1_0_1),
    StableHlo.TRef.binary (.of main_call1_v5 : StableHlo.TRef sig ⟨S1600000x1, .i32⟩) (.of main_call1_v9 : StableHlo.TRef sig ⟨S1600000x1, .i32⟩) (.of main_call1_v10 : StableHlo.TRef sig ⟨S1600000x1, .i1⟩) (cmpi .sle),
    StableHlo.TRef.binary (.of main_call1_v7 : StableHlo.TRef sig ⟨S1600000x1, .i1⟩) (.of main_call1_v10 : StableHlo.TRef sig ⟨S1600000x1, .i1⟩) (.of main_call1_v11 : StableHlo.TRef sig ⟨S1600000x1, .i1⟩) andi,
    StableHlo.TRef.nullary (.of main_call1_c_3 : StableHlo.TRef sig ⟨S_, .i1⟩) (constantI S_ 1 1#1),
    StableHlo.TRef.binary (.of main_call1_v11 : StableHlo.TRef sig ⟨S1600000x1, .i1⟩) (.of main_call1_c_3 : StableHlo.TRef sig ⟨S_, .i1⟩) (.of main_call1_v12 : StableHlo.TRef sig ⟨S1600000, .i1⟩) (fun x v => Host.reduce IntOp.andi x v reducesTo_S1600000x1_S1600000_d1 h_S_),
    StableHlo.TRef.binary (.of main_v9 : StableHlo.TRef sig ⟨S100000x128, .f32⟩) (.of main_call1_v5 : StableHlo.TRef sig ⟨S1600000x1, .i32⟩) (.of main_call1_v13 : StableHlo.TRef sig ⟨S1600000x128, .f32⟩) (fun x i => Host.gather gather_S100000x128_S1600000x1_S1600000x128_1_0_n_n_0_1_1128 x i),
    StableHlo.TRef.unary (.of main_call1_v12 : StableHlo.TRef sig ⟨S1600000, .i1⟩) (.of main_call1_v14 : StableHlo.TRef sig ⟨S1600000x128, .i1⟩) (broadcastInDim S1600000x128 ![0] bcast_S1600000_S1600000x128_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S1600000x128, .f32⟩) (broadcastInDim S1600000x128 ![] bcast_S_S1600000x128),
    StableHlo.TRef.ternary (.of main_call1_v14 : StableHlo.TRef sig ⟨S1600000x128, .i1⟩) (.of main_call1_v13 : StableHlo.TRef sig ⟨S1600000x128, .f32⟩) (.of main_call1_v15 : StableHlo.TRef sig ⟨S1600000x128, .f32⟩) (.of main_v12 : StableHlo.TRef sig ⟨S1600000x128, .f32⟩) select,
    StableHlo.unary main_arg2 main_v13 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v13 main_v14 rfl shapeCasts_S1x1600000_S1600000,
    StableHlo.nullary main_cst_0 (constant S_ .f32 0x00000000#32),
    StableHlo.unary main_cst_0 main_v15 (broadcastInDim S100000x128 ![] bcast_S_S100000x128 : (⟨S_, .f32⟩ : BufTy).Contents (Elt F) → (⟨S100000x128, .f32⟩ : BufTy).Contents (Elt F)),
    StableHlo.unary main_v14 main_v16 (broadcastInDim S1600000x1 ![0] bcast_S1600000_S1600000x1_0 : (⟨S1600000, .i32⟩ : BufTy).Contents (Elt F) → (⟨S1600000x1, .i32⟩ : BufTy).Contents (Elt F)),
    StableHlo.ternary main_v15 main_v16 main_v12 main_v17 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Edge set 3: the projection of `main_arg0` by `main_arg7`, the sources (row 0 of `main_arg3`), `@_take`'s 23 operations
    over the record `main_call2`, the destinations (row 1), the zero array and the scatter-add into `main_v27`. -/
abbrev conv2 : List (HloOp τ sig (Elt F)) :=
  [ StableHlo.binary main_arg0 main_arg7 main_v19 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v20 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v20 main_v21 rfl shapeCasts_S1x1600000_S1600000,
    StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S1600000, .i32⟩) (broadcastInDim S1600000 ![] bcast_S_S1600000),
    StableHlo.TRef.binary (.of main_v21 : StableHlo.TRef sig ⟨S1600000, .i32⟩) (.of main_call2_v0 : StableHlo.TRef sig ⟨S1600000, .i32⟩) (.of main_call2_v1 : StableHlo.TRef sig ⟨S1600000, .i1⟩) (cmpi .slt),
    StableHlo.TRef.nullary (.of main_call2_c_0 : StableHlo.TRef sig ⟨S_, .i32⟩) (constantI S_ 32 100000#32),
    StableHlo.TRef.unary (.of main_call2_c_0 : StableHlo.TRef sig ⟨S_, .i32⟩) (.of main_call2_v2 : StableHlo.TRef sig ⟨S1600000, .i32⟩) (broadcastInDim S1600000 ![] bcast_S_S1600000),
    StableHlo.TRef.binary (.of main_v21 : StableHlo.TRef sig ⟨S1600000, .i32⟩) (.of main_call2_v2 : StableHlo.TRef sig ⟨S1600000, .i32⟩) (.of main_call2_v3 : StableHlo.TRef sig ⟨S1600000, .i32⟩) addi,
    StableHlo.TRef.ternary (.of main_call2_v1 : StableHlo.TRef sig ⟨S1600000, .i1⟩) (.of main_call2_v3 : StableHlo.TRef sig ⟨S1600000, .i32⟩) (.of main_v21 : StableHlo.TRef sig ⟨S1600000, .i32⟩) (.of main_call2_v4 : StableHlo.TRef sig ⟨S1600000, .i32⟩) select,
    StableHlo.TRef.unary (.of main_call2_v4 : StableHlo.TRef sig ⟨S1600000, .i32⟩) (.of main_call2_v5 : StableHlo.TRef sig ⟨S1600000x1, .i32⟩) (broadcastInDim S1600000x1 ![0] bcast_S1600000_S1600000x1_0),
    StableHlo.TRef.nullary (.of main_call2_c_1 : StableHlo.TRef sig ⟨S1, .i32⟩) (constantI S1 32 99999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S1600000x1, .i32⟩) (broadcastInDim S1600000x1 ![] bcast_S_S1600000x1),
    StableHlo.TRef.binary (.of main_call2_v5 : StableHlo.TRef sig ⟨S1600000x1, .i32⟩) (.of main_call2_v6 : StableHlo.TRef sig ⟨S1600000x1, .i32⟩) (.of main_call2_v7 : StableHlo.TRef sig ⟨S1600000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S1600000x1, .i32⟩) (broadcastInDim S1600000x1 ![0, 1] bcast_S1x1_S1600000x1_0_1),
    StableHlo.TRef.binary (.of main_call2_v5 : StableHlo.TRef sig ⟨S1600000x1, .i32⟩) (.of main_call2_v9 : StableHlo.TRef sig ⟨S1600000x1, .i32⟩) (.of main_call2_v10 : StableHlo.TRef sig ⟨S1600000x1, .i1⟩) (cmpi .sle),
    StableHlo.TRef.binary (.of main_call2_v7 : StableHlo.TRef sig ⟨S1600000x1, .i1⟩) (.of main_call2_v10 : StableHlo.TRef sig ⟨S1600000x1, .i1⟩) (.of main_call2_v11 : StableHlo.TRef sig ⟨S1600000x1, .i1⟩) andi,
    StableHlo.TRef.nullary (.of main_call2_c_3 : StableHlo.TRef sig ⟨S_, .i1⟩) (constantI S_ 1 1#1),
    StableHlo.TRef.binary (.of main_call2_v11 : StableHlo.TRef sig ⟨S1600000x1, .i1⟩) (.of main_call2_c_3 : StableHlo.TRef sig ⟨S_, .i1⟩) (.of main_call2_v12 : StableHlo.TRef sig ⟨S1600000, .i1⟩) (fun x v => Host.reduce IntOp.andi x v reducesTo_S1600000x1_S1600000_d1 h_S_),
    StableHlo.TRef.binary (.of main_v19 : StableHlo.TRef sig ⟨S100000x128, .f32⟩) (.of main_call2_v5 : StableHlo.TRef sig ⟨S1600000x1, .i32⟩) (.of main_call2_v13 : StableHlo.TRef sig ⟨S1600000x128, .f32⟩) (fun x i => Host.gather gather_S100000x128_S1600000x1_S1600000x128_1_0_n_n_0_1_1128 x i),
    StableHlo.TRef.unary (.of main_call2_v12 : StableHlo.TRef sig ⟨S1600000, .i1⟩) (.of main_call2_v14 : StableHlo.TRef sig ⟨S1600000x128, .i1⟩) (broadcastInDim S1600000x128 ![0] bcast_S1600000_S1600000x128_0),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S1600000x128, .f32⟩) (broadcastInDim S1600000x128 ![] bcast_S_S1600000x128),
    StableHlo.TRef.ternary (.of main_call2_v14 : StableHlo.TRef sig ⟨S1600000x128, .i1⟩) (.of main_call2_v13 : StableHlo.TRef sig ⟨S1600000x128, .f32⟩) (.of main_call2_v15 : StableHlo.TRef sig ⟨S1600000x128, .f32⟩) (.of main_v22 : StableHlo.TRef sig ⟨S1600000x128, .f32⟩) select,
    StableHlo.unary main_arg3 main_v23 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v23 main_v24 rfl shapeCasts_S1x1600000_S1600000,
    StableHlo.nullary main_cst_1 (constant S_ .f32 0x00000000#32),
    StableHlo.unary main_cst_1 main_v25 (broadcastInDim S100000x128 ![] bcast_S_S100000x128 : (⟨S_, .f32⟩ : BufTy).Contents (Elt F) → (⟨S100000x128, .f32⟩ : BufTy).Contents (Elt F)),
    StableHlo.unary main_v24 main_v26 (broadcastInDim S1600000x1 ![0] bcast_S1600000_S1600000x1_0 : (⟨S1600000, .i32⟩ : BufTy).Contents (Elt F) → (⟨S1600000x1, .i32⟩ : BufTy).Contents (Elt F)),
    StableHlo.ternary main_v25 main_v26 main_v22 main_v27 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Edge set 4: the projection of `main_arg0` by `main_arg8`, the sources (row 0 of `main_arg4`), `@_take`'s 23 operations
    over the record `main_call3`, the destinations (row 1), the zero array and the scatter-add into `main_v37`. -/
abbrev conv3 : List (HloOp τ sig (Elt F)) :=
  [ StableHlo.binary main_arg0 main_arg8 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v30 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v30 main_v31 rfl shapeCasts_S1x1600000_S1600000,
    StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S1600000, .i32⟩) (broadcastInDim S1600000 ![] bcast_S_S1600000),
    StableHlo.TRef.binary (.of main_v31 : StableHlo.TRef sig ⟨S1600000, .i32⟩) (.of main_call3_v0 : StableHlo.TRef sig ⟨S1600000, .i32⟩) (.of main_call3_v1 : StableHlo.TRef sig ⟨S1600000, .i1⟩) (cmpi .slt),
    StableHlo.TRef.nullary (.of main_call3_c_0 : StableHlo.TRef sig ⟨S_, .i32⟩) (constantI S_ 32 100000#32),
    StableHlo.TRef.unary (.of main_call3_c_0 : StableHlo.TRef sig ⟨S_, .i32⟩) (.of main_call3_v2 : StableHlo.TRef sig ⟨S1600000, .i32⟩) (broadcastInDim S1600000 ![] bcast_S_S1600000),
    StableHlo.TRef.binary (.of main_v31 : StableHlo.TRef sig ⟨S1600000, .i32⟩) (.of main_call3_v2 : StableHlo.TRef sig ⟨S1600000, .i32⟩) (.of main_call3_v3 : StableHlo.TRef sig ⟨S1600000, .i32⟩) addi,
    StableHlo.TRef.ternary (.of main_call3_v1 : StableHlo.TRef sig ⟨S1600000, .i1⟩) (.of main_call3_v3 : StableHlo.TRef sig ⟨S1600000, .i32⟩) (.of main_v31 : StableHlo.TRef sig ⟨S1600000, .i32⟩) (.of main_call3_v4 : StableHlo.TRef sig ⟨S1600000, .i32⟩) select,
    StableHlo.TRef.unary (.of main_call3_v4 : StableHlo.TRef sig ⟨S1600000, .i32⟩) (.of main_call3_v5 : StableHlo.TRef sig ⟨S1600000x1, .i32⟩) (broadcastInDim S1600000x1 ![0] bcast_S1600000_S1600000x1_0),
    StableHlo.TRef.nullary (.of main_call3_c_1 : StableHlo.TRef sig ⟨S1, .i32⟩) (constantI S1 32 99999#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S1600000x1, .i32⟩) (broadcastInDim S1600000x1 ![] bcast_S_S1600000x1),
    StableHlo.TRef.binary (.of main_call3_v5 : StableHlo.TRef sig ⟨S1600000x1, .i32⟩) (.of main_call3_v6 : StableHlo.TRef sig ⟨S1600000x1, .i32⟩) (.of main_call3_v7 : StableHlo.TRef sig ⟨S1600000x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S1600000x1, .i32⟩) (broadcastInDim S1600000x1 ![0, 1] bcast_S1x1_S1600000x1_0_1),
    StableHlo.TRef.binary (.of main_call3_v5 : StableHlo.TRef sig ⟨S1600000x1, .i32⟩) (.of main_call3_v9 : StableHlo.TRef sig ⟨S1600000x1, .i32⟩) (.of main_call3_v10 : StableHlo.TRef sig ⟨S1600000x1, .i1⟩) (cmpi .sle),
    StableHlo.TRef.binary (.of main_call3_v7 : StableHlo.TRef sig ⟨S1600000x1, .i1⟩) (.of main_call3_v10 : StableHlo.TRef sig ⟨S1600000x1, .i1⟩) (.of main_call3_v11 : StableHlo.TRef sig ⟨S1600000x1, .i1⟩) andi,
    StableHlo.TRef.nullary (.of main_call3_c_3 : StableHlo.TRef sig ⟨S_, .i1⟩) (constantI S_ 1 1#1),
    StableHlo.TRef.binary (.of main_call3_v11 : StableHlo.TRef sig ⟨S1600000x1, .i1⟩) (.of main_call3_c_3 : StableHlo.TRef sig ⟨S_, .i1⟩) (.of main_call3_v12 : StableHlo.TRef sig ⟨S1600000, .i1⟩) (fun x v => Host.reduce IntOp.andi x v reducesTo_S1600000x1_S1600000_d1 h_S_),
    StableHlo.TRef.binary (.of main_v29 : StableHlo.TRef sig ⟨S100000x128, .f32⟩) (.of main_call3_v5 : StableHlo.TRef sig ⟨S1600000x1, .i32⟩) (.of main_call3_v13 : StableHlo.TRef sig ⟨S1600000x128, .f32⟩) (fun x i => Host.gather gather_S100000x128_S1600000x1_S1600000x128_1_0_n_n_0_1_1128 x i),
    StableHlo.TRef.unary (.of main_call3_v12 : StableHlo.TRef sig ⟨S1600000, .i1⟩) (.of main_call3_v14 : StableHlo.TRef sig ⟨S1600000x128, .i1⟩) (broadcastInDim S1600000x128 ![0] bcast_S1600000_S1600000x128_0),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v15 : StableHlo.TRef sig ⟨S1600000x128, .f32⟩) (broadcastInDim S1600000x128 ![] bcast_S_S1600000x128),
    StableHlo.TRef.ternary (.of main_call3_v14 : StableHlo.TRef sig ⟨S1600000x128, .i1⟩) (.of main_call3_v13 : StableHlo.TRef sig ⟨S1600000x128, .f32⟩) (.of main_call3_v15 : StableHlo.TRef sig ⟨S1600000x128, .f32⟩) (.of main_v32 : StableHlo.TRef sig ⟨S1600000x128, .f32⟩) select,
    StableHlo.unary main_arg4 main_v33 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v33 main_v34 rfl shapeCasts_S1x1600000_S1600000,
    StableHlo.nullary main_cst_2 (constant S_ .f32 0x00000000#32),
    StableHlo.unary main_cst_2 main_v35 (broadcastInDim S100000x128 ![] bcast_S_S100000x128 : (⟨S_, .f32⟩ : BufTy).Contents (Elt F) → (⟨S100000x128, .f32⟩ : BufTy).Contents (Elt F)),
    StableHlo.unary main_v34 main_v36 (broadcastInDim S1600000x1 ![0] bcast_S1600000_S1600000x1_0 : (⟨S1600000, .i32⟩ : BufTy).Contents (Elt F) → (⟨S1600000x1, .i32⟩ : BufTy).Contents (Elt F)),
    StableHlo.ternary main_v35 main_v36 main_v32 main_v37 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The addition of edge set 2's result to the running sum. -/
abbrev sum1 : HloOp τ sig (Elt F) :=
  StableHlo.binary main_v8 main_v17 main_v18 (addf : (⟨S100000x128, .f32⟩ : BufTy).Contents (Elt F) → (⟨S100000x128, .f32⟩ : BufTy).Contents (Elt F) → (⟨S100000x128, .f32⟩ : BufTy).Contents (Elt F))

/-- The addition of edge set 3's result to the running sum. -/
abbrev sum2 : HloOp τ sig (Elt F) :=
  StableHlo.binary main_v18 main_v27 main_v28 (addf : (⟨S100000x128, .f32⟩ : BufTy).Contents (Elt F) → (⟨S100000x128, .f32⟩ : BufTy).Contents (Elt F) → (⟨S100000x128, .f32⟩ : BufTy).Contents (Elt F))

/-- The addition of edge set 4's result to the running sum. -/
abbrev sum3 : HloOp τ sig (Elt F) :=
  StableHlo.binary main_v28 main_v37 main_v38 (addf : (⟨S100000x128, .f32⟩ : BufTy).Contents (Elt F) → (⟨S100000x128, .f32⟩ : BufTy).Contents (Elt F) → (⟨S100000x128, .f32⟩ : BufTy).Contents (Elt F))

/-- `@main`'s 131 operations, in order. -/
abbrev ops : List (HloOp τ sig (Elt F)) :=
  conv0 ++ (conv1 ++ (sum1 :: (conv2 ++ (sum2 :: (conv3 ++ [sum3])))))

-- 131 binds re-associated: the rewrite under the chain recurses once per statement
set_option maxRecDepth 4096 in
/-- `@main` is that line: with the two function bodies unfolded at their calls and the appended stretches
    written out, both sides are one chain of `hlo` steps once sequencing is re-associated. -/
theorem main_eq (c : Dev nD) : main (F := F) c = seq ops := by
  simp only [main, fn_take.body, fn_where.body, ops, conv0, conv1, conv2, conv3, sum1, sum2, sum3,
    List.cons_append, List.nil_append, seq, bind_assoc, pure_bind]

end Cert.ReferenceIdeal.Hand

end
-- ==== Proof.RTail.lean ====
/-
  The aggregation tail shared by the two programs, as pure functions of the projected features and the
  edge lists: for one edge set, row `dst` of the result is the sum, over the edges `(src, dst)` of the set, of
  row `src` of the projected features (a row index below zero is first shifted by the number of nodes; a
  row index still outside `[0, 99999]` contributes the not-a-number row); the four edge sets' results are then
  added left to right.
-/
import proofs.«106145_j59605556134259_1_alg».proof.Proof.Gen.ReferenceIdeal

noncomputable section

namespace Cert.ReferenceIdeal.Hand

open Cert.ReferenceIdeal Idealize.ShloMosaic Idealize.SL.Sem
open Facts₀

variable {F : FTy → Type} [FloatOps F]

/-- Rows of `x` taken at the indices `i`: an index below zero is shifted up by 100000 first, and a row whose
    shifted index is still outside `[0, 99999]` is filled with the not-a-number pattern. -/
def take (x : (⟨S100000x128, .f32⟩ : BufTy).Contents (Elt F)) (i : (⟨S1600000, .i32⟩ : BufTy).Contents (Elt F)) :
    (⟨S1600000x128, .f32⟩ : BufTy).Contents (Elt F) :=
  let c : (⟨S_, .i32⟩ : BufTy).Contents (Elt F) := constantI S_ 32 0#32
  let v0 : (⟨S1600000, .i32⟩ : BufTy).Contents (Elt F) := broadcastInDim S1600000 ![] bcast_S_S1600000 c
  let v1 : (⟨S1600000, .i1⟩ : BufTy).Contents (Elt F) := cmpi .slt i v0
  let c_0 : (⟨S_, .i32⟩ : BufTy).Contents (Elt F) := constantI S_ 32 100000#32
  let v2 : (⟨S1600000, .i32⟩ : BufTy).Contents (Elt F) := broadcastInDim S1600000 ![] bcast_S_S1600000 c_0
  let v3 : (⟨S1600000, .i32⟩ : BufTy).Contents (Elt F) := addi i v2
  let v4 : (⟨S1600000, .i32⟩ : BufTy).Contents (Elt F) := select v1 v3 i
  let v5 : (⟨S1600000x1, .i32⟩ : BufTy).Contents (Elt F) := broadcastInDim S1600000x1 ![0] bcast_S1600000_S1600000x1_0 v4
  let c_1 : (⟨S1, .i32⟩ : BufTy).Contents (Elt F) := constantI S1 32 99999#32
  let c_2 : (⟨S_, .i32⟩ : BufTy).Contents (Elt F) := constantI S_ 32 0#32
  let v6 : (⟨S1600000x1, .i32⟩ : BufTy).Contents (Elt F) := broadcastInDim S1600000x1 ![] bcast_S_S1600000x1 c_2
  let v7 : (⟨S1600000x1, .i1⟩ : BufTy).Contents (Elt F) := cmpi .sge v5 v6
  let v8 : (⟨S1x1, .i32⟩ : BufTy).Contents (Elt F) := broadcastInDim S1x1 ![1] bcast_S1_S1x1_1 c_1
  let v9 : (⟨S1600000x1, .i32⟩ : BufTy).Contents (Elt F) := broadcastInDim S1600000x1 ![0, 1] bcast_S1x1_S1600000x1_0_1 v8
  let v10 : (⟨S1600000x1, .i1⟩ : BufTy).Contents (Elt F) := cmpi .sle v5 v9
  let v11 : (⟨S1600000x1, .i1⟩ : BufTy).Contents (Elt F) := andi v7 v10
  let c_3 : (⟨S_, .i1⟩ : BufTy).Contents (Elt F) := constantI S_ 1 1#1
  let v12 : (⟨S1600000, .i1⟩ : BufTy).Contents (Elt F) := Host.reduce IntOp.andi v11 c_3 reducesTo_S1600000x1_S1600000_d1 h_S_
  let v13 : (⟨S1600000x128, .f32⟩ : BufTy).Contents (Elt F) := Host.gather gather_S100000x128_S1600000x1_S1600000x128_1_0_n_n_0_1_1128 x v5
  let v14 : (⟨S1600000x128, .i1⟩ : BufTy).Contents (Elt F) := broadcastInDim S1600000x128 ![0] bcast_S1600000_S1600000x128_0 v12
  let cst : (⟨S_, .f32⟩ : BufTy).Contents (Elt F) := constant S_ .f32 0x7FC00000#32
  let v15 : (⟨S1600000x128, .f32⟩ : BufTy).Contents (Elt F) := broadcastInDim S1600000x128 ![] bcast_S_S1600000x128 cst
  select v14 v13 v15

/-- Row `k` of a two-row edge list, as a flat list of 1600000 indices. -/
def edgeRow0 (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000
def edgeRow1 (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- One edge set's aggregation: the rows of `xw` taken at the sources (row 0 of `e`), summed into a zero
    array at the destinations (row 1 of `e`). -/
def agg (xw : (⟨S100000x128, .f32⟩ : BufTy).Contents (Elt F)) (e : (⟨S2x1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32 : (⟨S_, .f32⟩ : BufTy).Contents (Elt F)))
    (broadcastInDim S1600000x1 ![0] bcast_S1600000_S1600000x1_0 (edgeRow1 e))
    (take xw (edgeRow0 e))

/-- The four edge sets' aggregations of the four projections, added left to right. -/
def tail (xw0 xw1 xw2 xw3 : (⟨S100000x128, .f32⟩ : BufTy).Contents (Elt F))
    (e1 e2 e3 e4 : (⟨S2x1600000, .i32⟩ : BufTy).Contents (Elt F)) : (⟨S100000x128, .f32⟩ : BufTy).Contents (Elt F) :=
  addf (addf (addf (agg xw0 e1) (agg xw1 e2)) (agg xw2 e3)) (agg xw3 e4)

end Cert.ReferenceIdeal.Hand

end
-- ==== Proof.RefRun.lean ====
/-
  The reference program's run, read back. Every weakly fair execution of `@main` terminates with each buffer at the
  fold of the 131 operations over the launch contents. The fold is read one stretch at a time at an arbitrary
  valuation: an edge set's 32 operations leave, in the buffer of its scatter-add, the aggregation `agg` of the
  projected features over that edge list, and change no buffer outside the 32 they write; an addition writes its own
  result only. Composing the seven stretches gives the result buffer as `tail` of the four projections and the
  four edge lists, and every argument buffer as it was.
-/
import proofs.«106145_j59605556134259_1_alg».proof.Proof.SimpAux
import proofs.«106145_j59605556134259_1_alg».proof.Proof.RefOps
import proofs.«106145_j59605556134259_1_alg».proof.Proof.RTail
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo
open Facts₀

variable {F : FTy → Type} [FloatOps F]

/-! ## What each stretch writes, and that it touches TensorCore references only -/

/-- The references `conv0`'s operations write. -/
abbrev conv0_W : List (Ref sig .tc) :=
  [main_v0, main_v1, main_v2, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v3, main_v4, main_v5, main_cst, main_v6, main_v7, main_v8]
theorem conv0_writes : (conv0 : List (HloOp τ sig (Elt F))).Forall fun op => op.writes ⊆ (conv0_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
theorem conv0_sub : (conv0 : List (HloOp τ sig (Elt F))).Forall fun op => op.bufs ⊆ tcRefs τ sig :=
  ⟨binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., reshape_bufs_sub .., nullary_bufs_sub .., unary_bufs_sub .., unary_bufs_sub .., ternary_bufs_sub ..⟩
theorem conv0_fresh : ∀ op ∈ (conv0 : List (HloOp τ sig (Elt F))), op.fresh = ∅ := by
  intro _ h; (repeat (cases h with | head => rfl | tail _ h => ?_)); exact nomatch h
/-- A buffer outside the 32 keeps its contents. -/
theorem conv0_frame (W : Valuation τ sig (Elt F)) {r : Ref sig .tc} (h : r ∉ conv0_W) :
    after conv0 W (r : DevRef τ sig) = W (r : DevRef τ sig) :=
  after_of_writes_sub conv0 W conv0_writes h

/-- The references `conv1`'s operations write. -/
abbrev conv1_W : List (Ref sig .tc) :=
  [main_v9, main_v10, main_v11, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v12, main_v13, main_v14, main_cst_0, main_v15, main_v16, main_v17]
theorem conv1_writes : (conv1 : List (HloOp τ sig (Elt F))).Forall fun op => op.writes ⊆ (conv1_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
theorem conv1_sub : (conv1 : List (HloOp τ sig (Elt F))).Forall fun op => op.bufs ⊆ tcRefs τ sig :=
  ⟨binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., reshape_bufs_sub .., nullary_bufs_sub .., unary_bufs_sub .., unary_bufs_sub .., ternary_bufs_sub ..⟩
theorem conv1_fresh : ∀ op ∈ (conv1 : List (HloOp τ sig (Elt F))), op.fresh = ∅ := by
  intro _ h; (repeat (cases h with | head => rfl | tail _ h => ?_)); exact nomatch h
/-- A buffer outside the 32 keeps its contents. -/
theorem conv1_frame (W : Valuation τ sig (Elt F)) {r : Ref sig .tc} (h : r ∉ conv1_W) :
    after conv1 W (r : DevRef τ sig) = W (r : DevRef τ sig) :=
  after_of_writes_sub conv1 W conv1_writes h

/-- The references `conv2`'s operations write. -/
abbrev conv2_W : List (Ref sig .tc) :=
  [main_v19, main_v20, main_v21, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v22, main_v23, main_v24, main_cst_1, main_v25, main_v26, main_v27]
theorem conv2_writes : (conv2 : List (HloOp τ sig (Elt F))).Forall fun op => op.writes ⊆ (conv2_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
theorem conv2_sub : (conv2 : List (HloOp τ sig (Elt F))).Forall fun op => op.bufs ⊆ tcRefs τ sig :=
  ⟨binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., reshape_bufs_sub .., nullary_bufs_sub .., unary_bufs_sub .., unary_bufs_sub .., ternary_bufs_sub ..⟩
theorem conv2_fresh : ∀ op ∈ (conv2 : List (HloOp τ sig (Elt F))), op.fresh = ∅ := by
  intro _ h; (repeat (cases h with | head => rfl | tail _ h => ?_)); exact nomatch h
/-- A buffer outside the 32 keeps its contents. -/
theorem conv2_frame (W : Valuation τ sig (Elt F)) {r : Ref sig .tc} (h : r ∉ conv2_W) :
    after conv2 W (r : DevRef τ sig) = W (r : DevRef τ sig) :=
  after_of_writes_sub conv2 W conv2_writes h

/-- The references `conv3`'s operations write. -/
abbrev conv3_W : List (Ref sig .tc) :=
  [main_v29, main_v30, main_v31, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v32, main_v33, main_v34, main_cst_2, main_v35, main_v36, main_v37]
theorem conv3_writes : (conv3 : List (HloOp τ sig (Elt F))).Forall fun op => op.writes ⊆ (conv3_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
theorem conv3_sub : (conv3 : List (HloOp τ sig (Elt F))).Forall fun op => op.bufs ⊆ tcRefs τ sig :=
  ⟨binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., reshape_bufs_sub .., nullary_bufs_sub .., unary_bufs_sub .., unary_bufs_sub .., ternary_bufs_sub ..⟩
theorem conv3_fresh : ∀ op ∈ (conv3 : List (HloOp τ sig (Elt F))), op.fresh = ∅ := by
  intro _ h; (repeat (cases h with | head => rfl | tail _ h => ?_)); exact nomatch h
/-- A buffer outside the 32 keeps its contents. -/
theorem conv3_frame (W : Valuation τ sig (Elt F)) {r : Ref sig .tc} (h : r ∉ conv3_W) :
    after conv3 W (r : DevRef τ sig) = W (r : DevRef τ sig) :=
  after_of_writes_sub conv3 W conv3_writes h

/-! ## What each stretch computes -/

/-- Contents moved to a typed reference's buffer type and back are the contents. -/
theorem ofBuf_toBuf {T : BufTy} (x : StableHlo.TRef sig T) (v : T.Contents (Elt F)) : x.ofBuf (x.toBuf v) = v := by
  show cast _ (cast _ v) = v
  rw [cast_cast, cast_eq]

attribute [local irreducible] Host.reduce Host.gather Host.scatterAdd in
set_option maxHeartbeats 400000 in
/-- Edge set 1: the scatter-add's buffer ends at the aggregation of the projection by `main_arg5` over `main_arg1`. Both
    sides are the same composition of the same pure functions: the fold unrolled, each operation's result read at
    the buffer it writes and passed over elsewhere, the typed references' transports the identity at these
    literal references. The reduction, the gather and the scatter-add stay folded throughout. -/
theorem conv0_out (W : Valuation τ sig (Elt F)) :
    after conv0 W (main_v8 : DevRef τ sig)
      = agg (Host.dotGeneral dot_S100000x128_S128x128_S100000x128_1_0_0_1_n_n none (W (main_arg0 : DevRef τ sig)) (W (main_arg5 : DevRef τ sig))) (W (main_arg1 : DevRef τ sig)) := by
  have ex : ∀ u, (StableHlo.TRef.of (T := ⟨S100000x128, .f32⟩) main_v0).ofBuf (Val := Elt F) u = u := fun _ => rfl
  have ei : ∀ u, (StableHlo.TRef.of (T := ⟨S1600000, .i32⟩) main_v2).ofBuf (Val := Elt F) u = u := fun _ => rfl
  have eo : ∀ u, (StableHlo.TRef.of (T := ⟨S1600000x128, .f32⟩) main_v3).toBuf (Val := Elt F) u = u := fun _ => rfl
  after_results_simp
  simp only [ofBuf_toBuf, ex, ei, eo]
  rfl

attribute [local irreducible] Host.reduce Host.gather Host.scatterAdd in
set_option maxHeartbeats 400000 in
/-- Edge set 2: the scatter-add's buffer ends at the aggregation of the projection by `main_arg6` over `main_arg2`. Both
    sides are the same composition of the same pure functions: the fold unrolled, each operation's result read at
    the buffer it writes and passed over elsewhere, the typed references' transports the identity at these
    literal references. The reduction, the gather and the scatter-add stay folded throughout. -/
theorem conv1_out (W : Valuation τ sig (Elt F)) :
    after conv1 W (main_v17 : DevRef τ sig)
      = agg (Host.dotGeneral dot_S100000x128_S128x128_S100000x128_1_0_0_1_n_n none (W (main_arg0 : DevRef τ sig)) (W (main_arg6 : DevRef τ sig))) (W (main_arg2 : DevRef τ sig)) := by
  have ex : ∀ u, (StableHlo.TRef.of (T := ⟨S100000x128, .f32⟩) main_v9).ofBuf (Val := Elt F) u = u := fun _ => rfl
  have ei : ∀ u, (StableHlo.TRef.of (T := ⟨S1600000, .i32⟩) main_v11).ofBuf (Val := Elt F) u = u := fun _ => rfl
  have eo : ∀ u, (StableHlo.TRef.of (T := ⟨S1600000x128, .f32⟩) main_v12).toBuf (Val := Elt F) u = u := fun _ => rfl
  after_results_simp
  simp only [ofBuf_toBuf, ex, ei, eo]
  rfl

attribute [local irreducible] Host.reduce Host.gather Host.scatterAdd in
set_option maxHeartbeats 400000 in
/-- Edge set 3: the scatter-add's buffer ends at the aggregation of the projection by `main_arg7` over `main_arg3`. Both
    sides are the same composition of the same pure functions: the fold unrolled, each operation's result read at
    the buffer it writes and passed over elsewhere, the typed references' transports the identity at these
    literal references. The reduction, the gather and the scatter-add stay folded throughout. -/
theorem conv2_out (W : Valuation τ sig (Elt F)) :
    after conv2 W (main_v27 : DevRef τ sig)
      = agg (Host.dotGeneral dot_S100000x128_S128x128_S100000x128_1_0_0_1_n_n none (W (main_arg0 : DevRef τ sig)) (W (main_arg7 : DevRef τ sig))) (W (main_arg3 : DevRef τ sig)) := by
  have ex : ∀ u, (StableHlo.TRef.of (T := ⟨S100000x128, .f32⟩) main_v19).ofBuf (Val := Elt F) u = u := fun _ => rfl
  have ei : ∀ u, (StableHlo.TRef.of (T := ⟨S1600000, .i32⟩) main_v21).ofBuf (Val := Elt F) u = u := fun _ => rfl
  have eo : ∀ u, (StableHlo.TRef.of (T := ⟨S1600000x128, .f32⟩) main_v22).toBuf (Val := Elt F) u = u := fun _ => rfl
  after_results_simp
  simp only [ofBuf_toBuf, ex, ei, eo]
  rfl

attribute [local irreducible] Host.reduce Host.gather Host.scatterAdd in
set_option maxHeartbeats 400000 in
/-- Edge set 4: the scatter-add's buffer ends at the aggregation of the projection by `main_arg8` over `main_arg4`. Both
    sides are the same composition of the same pure functions: the fold unrolled, each operation's result read at
    the buffer it writes and passed over elsewhere, the typed references' transports the identity at these
    literal references. The reduction, the gather and the scatter-add stay folded throughout. -/
theorem conv3_out (W : Valuation τ sig (Elt F)) :
    after conv3 W (main_v37 : DevRef τ sig)
      = agg (Host.dotGeneral dot_S100000x128_S128x128_S100000x128_1_0_0_1_n_n none (W (main_arg0 : DevRef τ sig)) (W (main_arg8 : DevRef τ sig))) (W (main_arg4 : DevRef τ sig)) := by
  have ex : ∀ u, (StableHlo.TRef.of (T := ⟨S100000x128, .f32⟩) main_v29).ofBuf (Val := Elt F) u = u := fun _ => rfl
  have ei : ∀ u, (StableHlo.TRef.of (T := ⟨S1600000, .i32⟩) main_v31).ofBuf (Val := Elt F) u = u := fun _ => rfl
  have eo : ∀ u, (StableHlo.TRef.of (T := ⟨S1600000x128, .f32⟩) main_v32).toBuf (Val := Elt F) u = u := fun _ => rfl
  after_results_simp
  simp only [ofBuf_toBuf, ex, ei, eo]
  rfl

theorem sum1_out (W : Valuation τ sig (Elt F)) :
    (sum1 (F := F)).result W (main_v18 : DevRef τ sig) = addf (W (main_v8 : DevRef τ sig)) (W (main_v17 : DevRef τ sig)) :=
  binary_result ..
theorem sum1_frame (W : Valuation τ sig (Elt F)) {r : Ref sig .tc} (h : r ≠ main_v18) :
    (sum1 (F := F)).result W (r : DevRef τ sig) = W (r : DevRef τ sig) :=
  binary_result_ne _ _ _ _ _ _ _ W h

theorem sum2_out (W : Valuation τ sig (Elt F)) :
    (sum2 (F := F)).result W (main_v28 : DevRef τ sig) = addf (W (main_v18 : DevRef τ sig)) (W (main_v27 : DevRef τ sig)) :=
  binary_result ..
theorem sum2_frame (W : Valuation τ sig (Elt F)) {r : Ref sig .tc} (h : r ≠ main_v28) :
    (sum2 (F := F)).result W (r : DevRef τ sig) = W (r : DevRef τ sig) :=
  binary_result_ne _ _ _ _ _ _ _ W h

theorem sum3_out (W : Valuation τ sig (Elt F)) :
    (sum3 (F := F)).result W (main_v38 : DevRef τ sig) = addf (W (main_v28 : DevRef τ sig)) (W (main_v37 : DevRef τ sig)) :=
  binary_result ..
theorem sum3_frame (W : Valuation τ sig (Elt F)) {r : Ref sig .tc} (h : r ≠ main_v38) :
    (sum3 (F := F)).result W (r : DevRef τ sig) = W (r : DevRef τ sig) :=
  binary_result_ne _ _ _ _ _ _ _ W h

/-! ## The seven stretches composed -/

/-- The whole fold as the stretches' folds, innermost first. -/
theorem after_ops (V : Valuation τ sig (Elt F)) :
    after ops V = (sum3 (F := F)).result (after conv3 ((sum2 (F := F)).result (after conv2 ((sum1 (F := F)).result (after conv1 (after conv0 V)))))) := by
  rw [ops, StableHlo.after_append, StableHlo.after_append, after_cons, StableHlo.after_append, after_cons, StableHlo.after_append, after_cons, after_nil]

/-- A buffer none of the first two edge sets' operations nor the first addition writes is, after them, as at the start. -/
theorem frame2 (V : Valuation τ sig (Elt F)) {r : Ref sig .tc} (h0 : r ∉ conv0_W) (h1 : r ∉ conv1_W) (hs1 : r ≠ main_v18) :
    (sum1 (F := F)).result (after conv1 (after conv0 V)) (r : DevRef τ sig) = V (r : DevRef τ sig) := by
  rw [sum1_frame _ hs1, conv1_frame _ h1, conv0_frame _ h0]
/-- The same after the third edge set and the second addition. -/
theorem frame3 (V : Valuation τ sig (Elt F)) {r : Ref sig .tc} (h0 : r ∉ conv0_W) (h1 : r ∉ conv1_W) (hs1 : r ≠ main_v18)
    (h2 : r ∉ conv2_W) (hs2 : r ≠ main_v28) :
    (sum2 (F := F)).result (after conv2 ((sum1 (F := F)).result (after conv1 (after conv0 V)))) (r : DevRef τ sig) = V (r : DevRef τ sig) := by
  rw [sum2_frame _ hs2, conv2_frame _ h2, frame2 V h0 h1 hs1]
/-- The same after all 131 operations: what the line never writes it leaves. -/
theorem frame_ops (V : Valuation τ sig (Elt F)) {r : Ref sig .tc} (h0 : r ∉ conv0_W) (h1 : r ∉ conv1_W) (hs1 : r ≠ main_v18)
    (h2 : r ∉ conv2_W) (hs2 : r ≠ main_v28) (h3 : r ∉ conv3_W) (hs3 : r ≠ main_v38) :
    after ops V (r : DevRef τ sig) = V (r : DevRef τ sig) := by
  rw [after_ops, sum3_frame _ hs3, conv3_frame _ h3, frame3 V h0 h1 hs1 h2 hs2]

/-- The result buffer after the line: the four edge sets' aggregations of the four projections of `main_arg0`, added
    left to right. Each aggregation is read where its stretch leaves it and is carried unchanged past the later
    stretches, none of which writes it; each stretch reads the arguments as launched, none being written before it. -/
theorem out_eq (V : Valuation τ sig (Elt F)) :
    after ops V (main_v38 : DevRef τ sig)
      = tail (Host.dotGeneral dot_S100000x128_S128x128_S100000x128_1_0_0_1_n_n none (V (main_arg0 : DevRef τ sig)) (V (main_arg5 : DevRef τ sig)))
          (Host.dotGeneral dot_S100000x128_S128x128_S100000x128_1_0_0_1_n_n none (V (main_arg0 : DevRef τ sig)) (V (main_arg6 : DevRef τ sig)))
          (Host.dotGeneral dot_S100000x128_S128x128_S100000x128_1_0_0_1_n_n none (V (main_arg0 : DevRef τ sig)) (V (main_arg7 : DevRef τ sig)))
          (Host.dotGeneral dot_S100000x128_S128x128_S100000x128_1_0_0_1_n_n none (V (main_arg0 : DevRef τ sig)) (V (main_arg8 : DevRef τ sig)))
          (V (main_arg1 : DevRef τ sig)) (V (main_arg2 : DevRef τ sig)) (V (main_arg3 : DevRef τ sig)) (V (main_arg4 : DevRef τ sig)) := by
  rw [after_ops, sum3_out, conv3_out,
    conv3_frame _ (r := main_v28) (by decide), sum2_out, conv2_out,
    conv2_frame _ (r := main_v18) (by decide), sum1_out, conv1_out,
    conv1_frame _ (r := main_v8) (by decide), conv0_out,
    conv0_frame V (r := main_arg0) (by decide), conv0_frame V (r := main_arg6) (by decide), conv0_frame V (r := main_arg2) (by decide),
    frame2 V (r := main_arg0) (by decide) (by decide) (by decide), frame2 V (r := main_arg7) (by decide) (by decide) (by decide),
    frame2 V (r := main_arg3) (by decide) (by decide) (by decide),
    frame3 V (r := main_arg0) (by decide) (by decide) (by decide) (by decide) (by decide),
    frame3 V (r := main_arg8) (by decide) (by decide) (by decide) (by decide) (by decide),
    frame3 V (r := main_arg4) (by decide) (by decide) (by decide) (by decide) (by decide)]
  rfl

theorem arg0_eq (V : Valuation τ sig (Elt F)) : after ops V (main_arg0 : DevRef τ sig) = V (main_arg0 : DevRef τ sig) :=
  frame_ops V (by decide) (by decide) (by decide) (by decide) (by decide) (by decide) (by decide)
theorem arg1_eq (V : Valuation τ sig (Elt F)) : after ops V (main_arg1 : DevRef τ sig) = V (main_arg1 : DevRef τ sig) :=
  frame_ops V (by decide) (by decide) (by decide) (by decide) (by decide) (by decide) (by decide)
theorem arg2_eq (V : Valuation τ sig (Elt F)) : after ops V (main_arg2 : DevRef τ sig) = V (main_arg2 : DevRef τ sig) :=
  frame_ops V (by decide) (by decide) (by decide) (by decide) (by decide) (by decide) (by decide)
theorem arg3_eq (V : Valuation τ sig (Elt F)) : after ops V (main_arg3 : DevRef τ sig) = V (main_arg3 : DevRef τ sig) :=
  frame_ops V (by decide) (by decide) (by decide) (by decide) (by decide) (by decide) (by decide)
theorem arg4_eq (V : Valuation τ sig (Elt F)) : after ops V (main_arg4 : DevRef τ sig) = V (main_arg4 : DevRef τ sig) :=
  frame_ops V (by decide) (by decide) (by decide) (by decide) (by decide) (by decide) (by decide)
theorem arg5_eq (V : Valuation τ sig (Elt F)) : after ops V (main_arg5 : DevRef τ sig) = V (main_arg5 : DevRef τ sig) :=
  frame_ops V (by decide) (by decide) (by decide) (by decide) (by decide) (by decide) (by decide)
theorem arg6_eq (V : Valuation τ sig (Elt F)) : after ops V (main_arg6 : DevRef τ sig) = V (main_arg6 : DevRef τ sig) :=
  frame_ops V (by decide) (by decide) (by decide) (by decide) (by decide) (by decide) (by decide)
theorem arg7_eq (V : Valuation τ sig (Elt F)) : after ops V (main_arg7 : DevRef τ sig) = V (main_arg7 : DevRef τ sig) :=
  frame_ops V (by decide) (by decide) (by decide) (by decide) (by decide) (by decide) (by decide)
theorem arg8_eq (V : Valuation τ sig (Elt F)) : after ops V (main_arg8 : DevRef τ sig) = V (main_arg8 : DevRef τ sig) :=
  frame_ops V (by decide) (by decide) (by decide) (by decide) (by decide) (by decide) (by decide)

/-! ## The run -/

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) : (l₁ ++ l₂).Forall p :=
  List.forall_iff_forall_mem.2 fun x hx => (List.mem_append.1 hx).elim (List.forall_iff_forall_mem.1 h₁ x) (List.forall_iff_forall_mem.1 h₂ x)
theorem forall_cons {α : Type} {p : α → Prop} {a : α} {l : List α} (h₁ : p a) (h₂ : l.Forall p) : (a :: l).Forall p :=
  List.forall_iff_forall_mem.2 fun x hx => (List.mem_cons.1 hx).elim (fun e => e ▸ h₁) (List.forall_iff_forall_mem.1 h₂ x)

/-- Every operation touches TensorCore references only. -/
theorem ops_sub : (ops : List (HloOp τ sig (Elt F))).Forall fun op => op.bufs ⊆ tcRefs τ sig :=
  forall_append conv0_sub (forall_append conv1_sub (forall_cons (binary_bufs_sub ..) (forall_append conv2_sub
    (forall_cons (binary_bufs_sub ..) (forall_append conv3_sub (forall_cons (binary_bufs_sub ..) trivial))))))

/-- Every operation determines its results: none only allocates. -/
theorem ops_fresh : ∀ op ∈ (ops : List (HloOp τ sig (Elt F))), op.fresh = ∅ := by
  intro op h
  rcases List.mem_append.1 h with h | h
  · exact conv0_fresh op h
  rcases List.mem_append.1 h with h | h
  · exact conv1_fresh op h
  rcases List.mem_cons.1 h with h | h
  · subst h; rfl
  rcases List.mem_append.1 h with h | h
  · exact conv2_fresh op h
  rcases List.mem_cons.1 h with h | h
  · subst h; rfl
  rcases List.mem_append.1 h with h | h
  · exact conv3_fresh op h
  rcases List.mem_cons.1 h with h | h
  · subst h; rfl
  · exact nomatch h

/-- For any float values, from any memory with zero counters: every weakly fair execution of `@main` on the TensorCore
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- The run with the fold read back: the result buffer at `tail` of the launch contents of the arguments, each argument
    buffer as launched. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
        = tail (Host.dotGeneral dot_S100000x128_S128x128_S100000x128_1_0_0_1_n_n none (m ((c.tc : Thread nD τ).loc main_arg0)) (m ((c.tc : Thread nD τ).loc main_arg5)))
            (Host.dotGeneral dot_S100000x128_S128x128_S100000x128_1_0_0_1_n_n none (m ((c.tc : Thread nD τ).loc main_arg0)) (m ((c.tc : Thread nD τ).loc main_arg6)))
            (Host.dotGeneral dot_S100000x128_S128x128_S100000x128_1_0_0_1_n_n none (m ((c.tc : Thread nD τ).loc main_arg0)) (m ((c.tc : Thread nD τ).loc main_arg7)))
            (Host.dotGeneral dot_S100000x128_S128x128_S100000x128_1_0_0_1_n_n none (m ((c.tc : Thread nD τ).loc main_arg0)) (m ((c.tc : Thread nD τ).loc main_arg8)))
            (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v38).trans (out_eq _), (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _), (h c main_arg7).trans (arg7_eq _), (h c main_arg8).trans (arg8_eq _)⟩)
    (run_main m ρ)

end Cert.ReferenceIdeal.Hand

end
-- ==== Proof.TailEq.lean ====
/-
  The aggregation tail is one function: the two programs spell it over their own shape records, which are the
  same shapes, so the two definitions agree by unfolding.
-/
import proofs.«106145_j59605556134259_1_alg».proof.Proof.KTail
import proofs.«106145_j59605556134259_1_alg».proof.Proof.RTail

noncomputable section
namespace Cert.Bridge
open Idealize.ShloMosaic
variable {F : FTy → Type} [FloatOps F]
/-- The row take. -/
theorem take_eq (x : (⟨Cert.KernelIdeal.S100000x128, .f32⟩ : BufTy).Contents (Elt F)) (i : (⟨Cert.KernelIdeal.S1600000, .i32⟩ : BufTy).Contents (Elt F)) :
    Cert.ReferenceIdeal.Hand.take x i = Cert.KernelIdeal.Hand.take x i := rfl
/-- One edge set's aggregation. -/
theorem agg_eq (xw : (⟨Cert.KernelIdeal.S100000x128, .f32⟩ : BufTy).Contents (Elt F)) (e : (⟨Cert.KernelIdeal.S2x1600000, .i32⟩ : BufTy).Contents (Elt F)) :
    Cert.ReferenceIdeal.Hand.agg xw e = Cert.KernelIdeal.Hand.agg xw e := rfl
/-- The four aggregations added. -/
theorem tail_eq (xw0 xw1 xw2 xw3 : (⟨Cert.KernelIdeal.S100000x128, .f32⟩ : BufTy).Contents (Elt F))
    (e1 e2 e3 e4 : (⟨Cert.KernelIdeal.S2x1600000, .i32⟩ : BufTy).Contents (Elt F)) :
    Cert.ReferenceIdeal.Hand.tail xw0 xw1 xw2 xw3 e1 e2 e3 e4 = Cert.KernelIdeal.Hand.tail xw0 xw1 xw2 xw3 e1 e2 e3 e4 := rfl
end Cert.Bridge
end
-- ==== Proof.lean ====
/-
  The certificate of the fused projection kernel against its reference.

  Both programs compute, for four edge sets q over 100000 nodes with 128 features, the sum over q of
  A_q(X · W_q), where X · W_q is the 100000 × 128 product of the features with the q-th weight matrix and A_q
  gathers its rows at the edges' sources and adds them up at the edges' destinations. The reference forms the
  four products by four matrix products. The kernel lays the four weight matrices side by side into one
  128 × 512 array, multiplies the features by it in 50 blocks of 2000 rows (rounding both operands to bf16 on
  the way in, which over the extended reals changes nothing), and slices the four 128-column blocks out of the
  100000 × 512 result; the aggregation that follows is the same text in both programs.

  Over the extended reals entry (r, 128 q + c) of X · [W_0 | W_1 | W_2 | W_3] and entry (r, c) of X · W_q are
  the same sum over k of X(r, k) · W_q(k, c): the two sides differ only in how the sum's terms are indexed, so
  no finiteness of the inputs is used. The three frames come from the runs: the kernel's programs by the frame
  run of the launch continued by the aggregation operations, the reference by the run of a straight line of
  host operations.
-/
import proofs.«106145_j59605556134259_1_alg».proof.Defs
import proofs.«106145_j59605556134259_1_alg».proof.Proof.Gen.Kernel
import proofs.«106145_j59605556134259_1_alg».proof.Proof.Gen.KernelIdeal
import proofs.«106145_j59605556134259_1_alg».proof.Proof.Gen.ReferenceIdeal
import proofs.«106145_j59605556134259_1_alg».proof.Proof.Gen.Pre_finite_inputs
import proofs.«106145_j59605556134259_1_alg».proof.Proof.BRun
import proofs.«106145_j59605556134259_1_alg».proof.Proof.KOut
import proofs.«106145_j59605556134259_1_alg».proof.Proof.RefRun
import proofs.«106145_j59605556134259_1_alg».proof.Proof.ProjBridge
import proofs.«106145_j59605556134259_1_alg».proof.Proof.TailEq

noncomputable section

namespace Cert.Proof

open Idealize.ShloMosaic Idealize.SL.Sem

/-- The word-level program runs and leaves its arguments unchanged. -/
theorem frame_k : Cert.frame_Kernel := fun m ρ _ => Cert.Kernel.Hand.frame m ρ

/-- So does its reading over the extended reals. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run_value (F := Ideal) m ρ)

/-- The idealization rewrote nothing. -/
theorem preserves : Cert.preserves_Kernel_KernelIdeal := trivial

/-- From memories agreeing on the arguments both programs end with the aggregation tail of the same four
    projections: column block q of X · [W_0 | W_1 | W_2 | W_3] is X · W_q. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Hand.run_value (F := Ideal) m' ρ')
  obtain ⟨a0, a1, a2, a3, a4, a5, a6, a7, a8⟩ := hagree c
  rw [a0, a1, a2, a3, a4, a5, a6, a7, a8, Cert.Bridge.tail_eq]
  unfold Cert.KernelIdeal.Hand.projected
  rw [Cert.Bridge.slice0, Cert.Bridge.slice1, Cert.Bridge.slice2, Cert.Bridge.slice3]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
